-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x256x64x64 : Shape := ⟨4, ![32, 256, 64, 64]⟩
abbrev S32x256 : Shape := ⟨2, ![32, 256]⟩
abbrev S32 : Shape := ⟨1, ![32]⟩
abbrev S256x32 : Shape := ⟨2, ![256, 32]⟩
abbrev S256 : Shape := ⟨1, ![256]⟩
abbrev S_ : Shape := ⟨0, ![]⟩

class Facts : Prop where
  bcast_S_S32x256x64x64 : S_.BroadcastsInDim S32x256x64x64 (![] : Fin 0 → Fin S32x256x64x64.rank)
  reducesTo_S32x256x64x64_S_d0_1_2_3 : S32x256x64x64.ReducesTo [0, 1, 2, 3] S_
  h_S_ : 0 < S_.numel
  bcast_S_S32x256 : S_.BroadcastsInDim S32x256 (![] : Fin 0 → Fin S32x256.rank)
  reducesTo_S32x256_S_d0_1 : S32x256.ReducesTo [0, 1] S_
  bcast_S_S32 : S_.BroadcastsInDim S32 (![] : Fin 0 → Fin S32.rank)
  reducesTo_S32_S_d0 : S32.ReducesTo [0] S_
  bcast_S_S256x32 : S_.BroadcastsInDim S256x32 (![] : Fin 0 → Fin S256x32.rank)
  reducesTo_S256x32_S_d0_1 : S256x32.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg4 : FVec F S256 .f32) (main_v13 : IVec S_ 1) (main_v16 : IVec S256x32 1) : IVec S_ 1 :=
  let main_c_5 : IVec S_ 1 := constantI S_ 1 1#1
  let main_v17 : IVec S_ 1 := (fun x v => Host.reduce IntOp.andi x v reducesTo_S256x32_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  main_v23

def fn {F : FTy → Type} [FloatOps F] (main_arg0 : FVec F S32x256x64x64 .f32) (main_arg1 : FVec F S32x256 .f32) (main_arg2 : FVec F S32 .f32) (main_arg3 : FVec F S256x32 .f32) (main_arg4 : FVec F S256 .f32) : IVec S_ 1 :=
  let main_v0 : FVec F S32x256x64x64 .f32 := Host.absf main_arg0
  let main_cst : FVec F S_ .f32 := constant S_ .f32 0x7F800000#32
  let main_v1 : FVec F S32x256x64x64 .f32 := broadcastInDim S32x256x64x64 ![] bcast_S_S32x256x64x64 main_cst
  let main_v2 : IVec S32x256x64x64 1 := cmpf .olt main_v0 main_v1
  let main_c : IVec S_ 1 := constantI S_ 1 1#1
  let main_v3 : IVec S_ 1 := (fun x v => Host.reduce IntOp.andi x v reducesTo_S32x256x64x64_S_d0_1_2_3 h_S_) main_v2 main_c
  let main_v4 : FVec F S32x256 .f32 := Host.absf main_arg1
  let main_cst_0 : FVec F S_ .f32 := constant S_ .f32 0x7F800000#32
  let main_v5 : FVec F S32x256 .f32 := broadcastInDim S32x256 ![] bcast_S_S32x256 main_cst_0
  let main_v6 : IVec S32x256 1 := cmpf .olt main_v4 main_v5
  let main_c_1 : IVec S_ 1 := constantI S_ 1 1#1
  let main_v7 : IVec S_ 1 := (fun x v => Host.reduce IntOp.andi x v reducesTo_S32x256_S_d0_1 h_S_) main_v6 main_c_1
  let main_v8 : IVec S_ 1 := andi main_v3 main_v7
  let main_v9 : FVec F S32 .f32 := Host.absf main_arg2
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S256x32 .f32 := Host.absf main_arg3
  let main_cst_4 : FVec F S_ .f32 := constant S_ .f32 0x7F800000#32
  let main_v15 : FVec F S256x32 .f32 := broadcastInDim S256x32 ![] bcast_S_S256x32 main_cst_4
  let main_v16 : IVec S256x32 1 := cmpf .olt main_v14 main_v15
  fn_part1 (F := F) main_arg4 main_v13 main_v16
-- ==== Kernel.lean ====
abbrev S32x256x64x64 : Shape := ⟨4, ![32, 256, 64, 64]⟩
abbrev S32x256 : Shape := ⟨2, ![32, 256]⟩
abbrev S32 : Shape := ⟨1, ![32]⟩
abbrev S256x32 : Shape := ⟨2, ![256, 32]⟩
abbrev S256 : Shape := ⟨1, ![256]⟩
abbrev S32x256x4096 : Shape := ⟨3, ![32, 256, 4096]⟩
abbrev S1x32 : Shape := ⟨2, ![1, 32]⟩
abbrev S1x256 : Shape := ⟨2, ![1, 256]⟩
abbrev S16x256x1024 : Shape := ⟨3, ![16, 256, 1024]⟩
abbrev S16x256 : Shape := ⟨2, ![16, 256]⟩
abbrev S16x32 : Shape := ⟨2, ![16, 32]⟩
abbrev S8x256x1024 : Shape := ⟨3, ![8, 256, 1024]⟩
abbrev S8x256 : Shape := ⟨2, ![8, 256]⟩
abbrev S8x256x1 : Shape := ⟨3, ![8, 256, 1]⟩

abbrev nBuf : Space → Nat
  | .hbm => 11
  | .vmem => 15
  | .smem => 0
  | _ => 0

abbrev bufTy : (tb : Table) → Fin (tcTables nBuf tb) → BufTy
  | .hbm, ⟨0, _⟩ => ⟨S32x256x64x64, .f32⟩
  | .hbm, ⟨1, _⟩ => ⟨S32x256, .f32⟩
  | .hbm, ⟨2, _⟩ => ⟨S32, .f32⟩
  | .hbm, ⟨3, _⟩ => ⟨S256x32, .f32⟩
  | .hbm, ⟨4, _⟩ => ⟨S256, .f32⟩
  | .hbm, ⟨5, _⟩ => ⟨S32x256x4096, .f32⟩
  | .hbm, ⟨6, _⟩ => ⟨S1x32, .f32⟩
  | .hbm, ⟨7, _⟩ => ⟨S1x256, .f32⟩
  | .hbm, ⟨8, _⟩ => ⟨S32x256, .f32⟩
  | .hbm, ⟨9, _⟩ => ⟨S32x256x4096, .f32⟩
  | .hbm, ⟨10, _⟩ => ⟨S32x256x64x64, .f32⟩
  | .local _ .vmem, ⟨0, _⟩ => ⟨S16x256x1024, .f32⟩
  | .local _ .vmem, ⟨1, _⟩ => ⟨S16x256x1024, .f32⟩
  | .local _ .vmem, ⟨2, _⟩ => ⟨S32x256, .f32⟩
  | .local _ .vmem, ⟨3, _⟩ => ⟨S1x32, .f32⟩
  | .local _ .vmem, ⟨4, _⟩ => ⟨S256x32, .f32⟩
  | .local _ .vmem, ⟨5, _⟩ => ⟨S1x256, .f32⟩
  | .local _ .vmem, ⟨6, _⟩ => ⟨S16x256, .f32⟩
  | .local _ .vmem, ⟨7, _⟩ => ⟨S16x256, .f32⟩
  | .local _ .vmem, ⟨8, _⟩ => ⟨S16x256, .f32⟩
  | .local _ .vmem, ⟨9, _⟩ => ⟨S8x256x1024, .f32⟩
  | .local _ .vmem, ⟨10, _⟩ => ⟨S8x256x1024, .f32⟩
  | .local _ .vmem, ⟨11, _⟩ => ⟨S8x256, .f32⟩
  | .local _ .vmem, ⟨12, _⟩ => ⟨S8x256, .f32⟩
  | .local _ .vmem, ⟨13, _⟩ => ⟨S8x256x1024, .f32⟩
  | .local _ .vmem, ⟨14, _⟩ => ⟨S8x256x1024, .f32⟩
  | _, _ => ⟨S32x256x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_v0 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13

abbrev nD : Nat := 1
abbrev τ : Topo := Topo.v7x

variable {F : FTy → Type} [FloatOps F]

abbrev grid0 : Pipeline.Grid := ⟨2, ![2, 4], ![false, false]⟩

def k0_cond2 (i : grid0.Coords) : BitVec 1 :=
  let arg1 : BitVec 32 := BitVec.ofNat 32 (i 1).val
  let c3_i32 : BitVec 32 := 3#32
  let v11 : BitVec 1 := Scalar.cmpi .eq arg1 c3_i32
  let v12 : BitVec 32 := Scalar.extui v11
  let c0_i32_7 : BitVec 32 := 0#32
  let v13 : BitVec 1 := Scalar.cmpi .ne v12 c0_i32_7
  v13

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S16x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S32x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S256x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S16x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev grid1 : Pipeline.Grid := ⟨2, ![4, 4], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage1_0 : Fin 2 → Memref sig .tc .vmem S8x256x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S8x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S8x256x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

class Facts₀ : Prop where
  shapeCasts_S32x256x64x64_S32x256x4096 : S32x256x64x64.ShapeCasts S32x256x4096
  shapeCasts_S32_S1x32 : S32.ShapeCasts S1x32
  shapeCasts_S256_S1x256 : S256.ShapeCasts S1x256
  shapeCasts_S32x256x4096_S32x256x64x64 : S32x256x4096.ShapeCasts S32x256x64x64
  inb_S16x256_S16x256_0_0 : ∀ a, (![0, 0] : Fin 2 → Nat) a + S16x256.size a ≤ S16x256.size a
  h_S16x256 : 0 < S16x256.numel
  shapeCasts_S16x256_S16x256 : S16x256.ShapeCasts S16x256
  inb_S16x256x1024_S16x256x1024_0_0_0 : ∀ a, (![0, 0, 0] : Fin 3 → Nat) a + S16x256x1024.size a ≤ S16x256x1024.size a
  h_S16x256x1024 : 0 < S16x256x1024.numel
  shapeCasts_S16x256x1024_S16x256x1024 : S16x256x1024.ShapeCasts S16x256x1024
  reduces_S16x256x1024_S16x256 : S16x256x1024.Reduces [2] S16x256
  inb_S32x256_S32x256_0_0 : ∀ a, (![0, 0] : Fin 2 → Nat) a + S32x256.size a ≤ S32x256.size a
  h_S32x256 : 0 < S32x256.numel
  transposes_S32x256_p1_0_S256x32 : S32x256.Transposes [1, 0] S256x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S16x32 : S1x32.Broadcasts S16x32
  inb_S256x32_S256x32_0_0 : ∀ a, (![0, 0] : Fin 2 → Nat) a + S256x32.size a ≤ S256x32.size a
  h_S256x32 : 0 < S256x32.numel
  transposes_S256x32_p1_0_S32x256 : S256x32.Transposes [1, 0] S32x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S16x256 : S1x256.Broadcasts S16x256
  inb_S8x256_S8x256_0_0 : ∀ a, (![0, 0] : Fin 2 → Nat) a + S8x256.size a ≤ S8x256.size a
  h_S8x256 : 0 < S8x256.numel
  shapeCasts_S8x256_S8x256 : S8x256.ShapeCasts S8x256
  inb_S8x256x1024_S8x256x1024_0_0_0 : ∀ a, (![0, 0, 0] : Fin 3 → Nat) a + S8x256x1024.size a ≤ S8x256x1024.size a
  h_S8x256x1024 : 0 < S8x256x1024.numel
  shapeCasts_S8x256x1024_S8x256x1024 : S8x256x1024.ShapeCasts S8x256x1024
  shapeCasts_S8x256_S8x256x1 : S8x256.ShapeCasts S8x256x1
  broadcasts_S8x256x1_S8x256x1024 : S8x256x1.Broadcasts S8x256x1024
  dot_S16x256_S256x32_S16x32_1_0_0_1_n_n_wf : DotDims.WF S16x256 S256x32 S16x32 [1] [0] [0] [1] [] []
  dot_S16x32_S32x256_S16x256_1_0_0_1_n_n_wf : DotDims.WF S16x32 S32x256 S16x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x256x1024.size a ≤ S32x256x4096.size a
  hwx0_0 : ∀ i : grid0.Coords, EltTy.bits .f32 = 32 ∨ (Rect.block (s := S32x256x4096) S16x256x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x256.size a ≤ S32x256.size a
  hwx0_1 : ∀ i : grid0.Coords, EltTy.bits .f32 = 32 ∨ (Rect.block (s := S32x256) S32x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x32.size a ≤ S1x32.size a
  hwx0_2 : ∀ i : grid0.Coords, EltTy.bits .f32 = 32 ∨ (Rect.block (s := S1x32) S1x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x32.size a ≤ S256x32.size a
  hwx0_3 : ∀ i : grid0.Coords, EltTy.bits .f32 = 32 ∨ (Rect.block (s := S256x32) S256x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S16x256.size a ≤ S32x256.size a
  hwx0_5 : ∀ i : grid0.Coords, EltTy.bits .f32 = 32 ∨ (Rect.block (s := S32x256) S16x256.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8x256x1024.size a ≤ S32x256x4096.size a
  hwx1_0 : ∀ i : grid1.Coords, EltTy.bits .f32 = 32 ∨ (Rect.block (s := S32x256x4096) S8x256x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8x256.size a ≤ S32x256.size a
  hwx1_1 : ∀ i : grid1.Coords, EltTy.bits .f32 = 32 ∨ (Rect.block (s := S32x256) S8x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8x256x1024.size a ≤ S32x256x4096.size a
  hwx1_2 : ∀ i : grid1.Coords, EltTy.bits .f32 = 32 ∨ (Rect.block (s := S32x256x4096) S8x256x1024.size (cc1_transform_2 i) (hinb1_2 i)).WholeWords (EltTy.packing .f32)

variable [Facts₀]

def dot_S16x256_S256x32_S16x32_1_0_0_1_n_n : DotDims S16x256 S256x32 S16x32 where
  lhsContracting := [1]
  rhsContracting := [0]
  lhsNonContracting := [0]
  rhsNonContracting := [1]
  lhsBatch := []
  rhsBatch := []
  wf := dot_S16x256_S256x32_S16x32_1_0_0_1_n_n_wf
def dot_S16x32_S32x256_S16x256_1_0_0_1_n_n : DotDims S16x32 S32x256 S16x256 where
  lhsContracting := [1]
  rhsContracting := [0]
  lhsNonContracting := [0]
  rhsNonContracting := [1]
  lhsBatch := []
  rhsBatch := []
  wf := dot_S16x32_S32x256_S16x256_1_0_0_1_n_n_wf

abbrev win0_0 : Pipeline.Window sig grid0 :=
  Pipeline.Window.ofSpec (Memref.whole main_call0_v0) S16x256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S32x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v1) S1x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v2) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_call0_v3) S16x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

abbrev win1_0 : Pipeline.Window sig grid1 :=
  Pipeline.Window.ofSpec (Memref.whole main_call0_v0) S8x256x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_call0_v3) S8x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_call0_v4) S8x256x1024.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S32x256x64x64 : Shape := ⟨4, ![32, 256, 64, 64]⟩
abbrev S32x256 : Shape := ⟨2, ![32, 256]⟩
abbrev S32 : Shape := ⟨1, ![32]⟩
abbrev S256x32 : Shape := ⟨2, ![256, 32]⟩
abbrev S256 : Shape := ⟨1, ![256]⟩
abbrev S_ : Shape := ⟨0, ![]⟩
abbrev S32x32 : Shape := ⟨2, ![32, 32]⟩
abbrev S1x32 : Shape := ⟨2, ![1, 32]⟩
abbrev S1x256 : Shape := ⟨2, ![1, 256]⟩
abbrev S32x256x1x1 : Shape := ⟨4, ![32, 256, 1, 1]⟩

abbrev nBuf : Space → Nat
  | .hbm => 32
  | .vmem => 0
  | .smem => 0
  | _ => 0

abbrev bufTy : (tb : Table) → Fin (tcTables nBuf tb) → BufTy
  | .hbm, ⟨0, _⟩ => ⟨S32x256x64x64, .f32⟩
  | .hbm, ⟨1, _⟩ => ⟨S32x256, .f32⟩
  | .hbm, ⟨2, _⟩ => ⟨S32, .f32⟩
  | .hbm, ⟨3, _⟩ => ⟨S256x32, .f32⟩
  | .hbm, ⟨4, _⟩ => ⟨S256, .f32⟩
  | .hbm, ⟨5, _⟩ => ⟨S_, .f32⟩
  | .hbm, ⟨6, _⟩ => ⟨S32x256, .f32⟩
  | .hbm, ⟨7, _⟩ => ⟨S_, .f32⟩
  | .hbm, ⟨8, _⟩ => ⟨S32x256, .f32⟩
  | .hbm, ⟨9, _⟩ => ⟨S32x256, .f32⟩
  | .hbm, ⟨10, _⟩ => ⟨S32x32, .f32⟩
  | .hbm, ⟨11, _⟩ => ⟨S1x32, .f32⟩
  | .hbm, ⟨12, _⟩ => ⟨S32x32, .f32⟩
  | .hbm, ⟨13, _⟩ => ⟨S32x32, .f32⟩
  | .hbm, ⟨14, _⟩ => ⟨S_, .f32⟩
  | .hbm, ⟨15, _⟩ => ⟨S32x32, .f32⟩
  | .hbm, ⟨16, _⟩ => ⟨S32x32, .f32⟩
  | .hbm, ⟨17, _⟩ => ⟨S32x256, .f32⟩
  | .hbm, ⟨18, _⟩ => ⟨S1x256, .f32⟩
  | .hbm, ⟨19, _⟩ => ⟨S32x256, .f32⟩
  | .hbm, ⟨20, _⟩ => ⟨S32x256, .f32⟩
  | .hbm, ⟨21, _⟩ => ⟨S32x256, .f32⟩
  | .hbm, ⟨22, _⟩ => ⟨S32x256, .f32⟩
  | .hbm, ⟨23, _⟩ => ⟨S_, .f32⟩
  | .hbm, ⟨24, _⟩ => ⟨S32x256, .f32⟩
  | .hbm, ⟨25, _⟩ => ⟨S32x256, .f32⟩
  | .hbm, ⟨26, _⟩ => ⟨S_, .f32⟩
  | .hbm, ⟨27, _⟩ => ⟨S32x256, .f32⟩
  | .hbm, ⟨28, _⟩ => ⟨S32x256, .f32⟩
  | .hbm, ⟨29, _⟩ => ⟨S32x256x1x1, .f32⟩
  | .hbm, ⟨30, _⟩ => ⟨S32x256x64x64, .f32⟩
  | .hbm, ⟨31, _⟩ => ⟨S32x256x64x64, .f32⟩
  | _, _ => ⟨S32x256x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_call0_cst : Ref sig .tc := ⟨.hbm, 14, rfl⟩
abbrev main_call0_v0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩

abbrev nD : Nat := 1
abbrev τ : Topo := Topo.v7x

variable {F : FTy → Type} [FloatOps F]

class Facts₀ : Prop where
  reducesTo_S32x256x64x64_S32x256_d2_3 : S32x256x64x64.ReducesTo [2, 3] S32x256
  h_S_ : 0 < S_.numel
  bcast_S_S32x256 : S_.BroadcastsInDim S32x256 (![] : Fin 0 → Fin S32x256.rank)
  bcast_S32_S1x32_1 : S32.BroadcastsInDim S1x32 (![1] : Fin 1 → Fin S1x32.rank)
  bcast_S1x32_S32x32_0_1 : S1x32.BroadcastsInDim S32x32 (![0, 1] : Fin 2 → Fin S32x32.rank)
  bcast_S_S32x32 : S_.BroadcastsInDim S32x32 (![] : Fin 0 → Fin S32x32.rank)
  bcast_S256_S1x256_1 : S256.BroadcastsInDim S1x256 (![1] : Fin 1 → Fin S1x256.rank)
  bcast_S1x256_S32x256_0_1 : S1x256.BroadcastsInDim S32x256 (![0, 1] : Fin 2 → Fin S32x256.rank)
  bcast_S32x256_S32x256x1x1_0_1 : S32x256.BroadcastsInDim S32x256x1x1 (![0, 1] : Fin 2 → Fin S32x256x1x1.rank)
  bcast_S32x256x1x1_S32x256x64x64_0_1_2_3 : S32x256x1x1.BroadcastsInDim S32x256x64x64 (![0, 1, 2, 3] : Fin 4 → Fin S32x256x64x64.rank)
  dot_S32x256_S32x256_S32x32_1_1_0_0_n_n_wf : DotDims.WF S32x256 S32x256 S32x32 [1] [1] [0] [0] [] []
  dot_S32x32_S256x32_S32x256_1_1_0_0_n_n_wf : DotDims.WF S32x32 S256x32 S32x256 [1] [1] [0] [0] [] []

variable [Facts₀]

def dot_S32x256_S32x256_S32x32_1_1_0_0_n_n : DotDims S32x256 S32x256 S32x32 where
  lhsContracting := [1]
  rhsContracting := [1]
  lhsNonContracting := [0]
  rhsNonContracting := [0]
  lhsBatch := []
  rhsBatch := []
  wf := dot_S32x256_S32x256_S32x32_1_1_0_0_n_n_wf
def dot_S32x32_S256x32_S32x256_1_1_0_0_n_n : DotDims S32x32 S256x32 S32x256 where
  lhsContracting := [1]
  rhsContracting := [1]
  lhsNonContracting := [0]
  rhsNonContracting := [0]
  lhsBatch := []
  rhsBatch := []
  wf := dot_S32x32_S256x32_S32x256_1_1_0_0_n_n_wf

class Facts : Prop extends Facts₀ where

variable [Facts]
-- ==== Proof.KPoolDefs.lean ====
/-
  The pooling region's data: what the gate kernel's buffers hold, point by point, as functions of the arrays the
  region is entered with. The grid is 2 batch halves × 4 spatial tiles; at tile 0 the accumulator is zeroed, at
  every tile the tile's lane sums are added to it, and at tile 3 the gate — the logistic of the second dense layer
  over the rectified first, over the accumulated sums scaled by 1/4096 — is stored into the output block.
-/
import proofs.«171454_j49709951484604_2_alg».proof.Proof.Gen.Kernel.Launch
import proofs.«171454_j49709951484604_2_alg».proof.Proof.Gen.Kernel.Skeleton
import proofs.«171454_j49709951484604_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Pool

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The accumulator after the body at position `n`: at a first tile (`n % 4 = 0`) the tile's lane sums added to
    zero, at a later tile added to what the point before left. -/
def accAt (c : Dev nD) : (n : ℕ) → n < cfg0.N → Vec F S16x256 .f32
  | 0, hn => k0_pay2 (k0_pay1 (F := F)) (iblk0 V c 0 ⟨0, hn⟩)
  | n + 1, hn =>
    if (n + 1) % 4 = 0 then k0_pay2 (k0_pay1 (F := F)) (iblk0 V c 0 ⟨n + 1, hn⟩)
    else k0_pay2 (accAt c n (Nat.lt_of_succ_lt hn)) (iblk0 V c 0 ⟨n + 1, hn⟩)

/-- The gate block the body stores at a last tile: the payload of the accumulator and the four weight blocks. -/
def gateAt (c : Dev nD) (t : Fin cfg0.N) : Vec F S16x256 .f32 :=
  k0_pay3 (accAt V c t.val t.isLt) (iblk0 V c 1 t) (iblk0 V c 2 t) (iblk0 V c 3 t) (iblk0 V c 4 t)

end Cert.Kernel.Pool

end
-- ==== Proof.KPoolBody.lean ====
/-
  The pooling region's frame half, at the contents `V` the region is entered with: the proof data of the pipeline
  (each input's buffer at its block, the accumulator carried between grid points in the region's invariant, the
  gate block stored at a last tile), the body's triple in each of its three control cases, and the body obligation.
-/
import proofs.«171454_j49709951484604_2_alg».proof.Proof.KPoolDefs
import Idealize.ShloMosaic.Lib.Pipeline.Value

set_option maxRecDepth 16384

noncomputable section

namespace Cert.Kernel.Pool

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The accumulator: a whole scoped buffer of the kernel's own, passed beside the windows. -/
abbrev scM0 : Memref sig .tc .vmem S16x256 .f32 := Memref.whole cc0_scratch0

/-- The scoped buffers of the core that are neither a staging buffer of this region nor its accumulator (the other
    region's staging buffers), each whole at some contents: the region never touches them. -/
def restS (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f))

/-- The region's invariant before position `n`: before the first point the launch's (every scoped buffer that is no
    staging buffer of the region at anything, the generator register at some state); afterwards the same with the
    accumulator at what the point before left in it. -/
def PhiS (c : Dev nD) : (n : ℕ) → n ≤ cfg0.N → sProp 𝕄
  | 0, _ => Pipeline.ΦA spec0 c
  | n + 1, hn => iprop(iprop(owns (c : Thread nD τ) scM0 fullShare (accAt V c n hn) ∗ restS (F := F) c) ∗ (∃ r, prngReg c r))

/-- The proof data of the pooling pipeline on core `c`: the arrays as the region finds them; after the body at point
    `t` each input's buffer at its block and the output's at the gate block (consulted at last tiles only: elsewhere the
    window is idle and not written back); the invariant carrying the accumulator; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => gateAt V c t
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = gateAt V c t := by dsimp only [dat0]

/-! ## The body's two branch conditions, decided over the grid -/

/-- The first branch (the accumulator is zeroed): the spatial tile is tile 0. -/
abbrev cond1 (i : grid0.Coords) : Prop := (Scalar.cmpi .ne (Scalar.extui (Scalar.cmpi .eq (BitVec.ofNat 32 (i 1).val) 0#32)) 0#32) = 1#1
theorem hcond1 : ∀ t : Fin cfg0.N, cond1 (grid0.coords t) ↔ t.val % 4 = 0 :=
  (by decide +kernel : ∀ t : Fin grid0.N, cond1 (grid0.coords t) ↔ t.val % 4 = 0)
/-- The second branch (the gate is computed and stored): the spatial tile is tile 3. -/
abbrev cond2 (i : grid0.Coords) : Prop := k0_cond2 i = 1#1
theorem hcond2 : ∀ t : Fin cfg0.N, cond2 (grid0.coords t) ↔ t.val % 4 = 3 :=
  (by decide +kernel : ∀ t : Fin grid0.N, cond2 (grid0.coords t) ↔ t.val % 4 = 3)

theorem zero2 : (![0, 0] : Fin 2 → ℕ) = fun _ => 0 := by
  funext a; match a with | ⟨0, _⟩ => rfl | ⟨1, _⟩ => rfl
theorem zero3 : (![0, 0, 0] : Fin 3 → ℕ) = fun _ => 0 := by
  funext a; match a with | ⟨0, _⟩ => rfl | ⟨1, _⟩ => rfl | ⟨2, _⟩ => rfl

/-! ## The body's triple in each control case -/

set_option maxHeartbeats 1000000 in
/-- A middle tile: the tile's lane sums are added to the accumulator; nothing else is touched. -/
theorem kernel_mid (c : Dev nD) (E : Set ℕ) (i : grid0.Coords) (hc1 : ¬cond1 i) (hc2 : ¬cond2 i)
    (arg2 : Memref sig .tc .vmem S16x256x1024 .f32) (harg2 : arg2.IsWhole) (arg3 : Memref sig .tc .vmem S32x256 .f32) (harg3 : arg3.IsWhole) (arg4 : Memref sig .tc .vmem S1x32 .f32) (harg4 : arg4.IsWhole) (arg5 : Memref sig .tc .vmem S256x32 .f32) (harg5 : arg5.IsWhole) (arg6 : Memref sig .tc .vmem S1x256 .f32) (harg6 : arg6.IsWhole) (arg7 : Memref sig .tc .vmem S16x256 .f32) (harg7 : arg7.IsWhole) (arg8 : Memref sig .tc .vmem S16x256 .f32) (harg8 : arg8.IsWhole)
    (x0 : Vec F S16x256x1024 .f32) (s : Vec F S16x256 .f32) (K : PUnit → sProp 𝕄) :
    iprop(owns (c : Thread nD τ) arg2 fullShare x0 ∗ owns (c : Thread nD τ) arg8 fullShare s
        ∗ (iprop(owns (c : Thread nD τ) arg2 fullShare x0 ∗ owns (c : Thread nD τ) arg8 fullShare (k0_pay2 s x0)) -∗ K ⟨⟩))
      ⊢ wp frame (wpE (defs₀ (F := F)) Variants.none c none) E (cc0__pool_kernel i arg2 harg2 arg3 harg3 arg4 harg4 arg5 harg5 arg6 harg6 arg7 harg7 arg8 harg8) K := by
  simp only [cc0__pool_kernel_eq_skeleton]; unfold cc0__pool_kernel_skel
  unfold owns
  iintro ⟨⟨%f0, %hf0, H0⟩, ⟨%f8, %hf8, H8⟩, Hk⟩
  subst hf0; subst hf8
  sl_exec (disch := first | exact hc1 | exact hc2)
  sl_step
  iapply Hk
  isplitl [H0]
  · iexists f0; isplitr; · ipureintro; rfl
    iexact H0
  iexists _; isplitr
  swap; · iexact H8
  ipureintro
  rw [View.read_writes_eq_canon _ _ _ (fun y => ⟨_, List.mem_singleton_self _, View.mem_set_unit_zero zero2 inb_S16x256_S16x256_0_0 y⟩), View.canon_unit_zero zero2]
  simp only [View.readAt_eq_ld, View.ld_unit_zero (S := S16x256) zero2, View.ld_unit_zero (S := S16x256x1024) zero3]

set_option maxHeartbeats 1000000 in
/-- A first tile: the accumulator, whatever it held, is zeroed and the tile's lane sums added to it. -/
theorem kernel_first (c : Dev nD) (E : Set ℕ) (i : grid0.Coords) (hc1 : cond1 i) (hc2 : ¬cond2 i)
    (arg2 : Memref sig .tc .vmem S16x256x1024 .f32) (harg2 : arg2.IsWhole) (arg3 : Memref sig .tc .vmem S32x256 .f32) (harg3 : arg3.IsWhole) (arg4 : Memref sig .tc .vmem S1x32 .f32) (harg4 : arg4.IsWhole) (arg5 : Memref sig .tc .vmem S256x32 .f32) (harg5 : arg5.IsWhole) (arg6 : Memref sig .tc .vmem S1x256 .f32) (harg6 : arg6.IsWhole) (arg7 : Memref sig .tc .vmem S16x256 .f32) (harg7 : arg7.IsWhole) (arg8 : Memref sig .tc .vmem S16x256 .f32) (harg8 : arg8.IsWhole)
    (x0 : Vec F S16x256x1024 .f32) (s : Vec F S16x256 .f32) (K : PUnit → sProp 𝕄) :
    iprop(owns (c : Thread nD τ) arg2 fullShare x0 ∗ owns (c : Thread nD τ) arg8 fullShare s
        ∗ (iprop(owns (c : Thread nD τ) arg2 fullShare x0 ∗ owns (c : Thread nD τ) arg8 fullShare (k0_pay2 (k0_pay1 (F := F)) x0)) -∗ K ⟨⟩))
      ⊢ wp frame (wpE (defs₀ (F := F)) Variants.none c none) E (cc0__pool_kernel i arg2 harg2 arg3 harg3 arg4 harg4 arg5 harg5 arg6 harg6 arg7 harg7 arg8 harg8) K := by
  simp only [cc0__pool_kernel_eq_skeleton]; unfold cc0__pool_kernel_skel
  unfold owns
  iintro ⟨⟨%f0, %hf0, H0⟩, ⟨%f8, %hf8, H8⟩, Hk⟩
  subst hf0; subst hf8
  sl_exec (disch := first | exact hc1 | exact hc2)
  sl_step
  iapply Hk
  isplitl [H0]
  · iexists f0; isplitr; · ipureintro; rfl
    iexact H0
  iexists _; isplitr
  swap; · iexact H8
  ipureintro
  sl_unfold_run_names
  rw [View.read_writes_eq_canon _ _ _ (fun y => ⟨_, List.mem_cons_self, View.mem_set_unit_zero zero2 inb_S16x256_S16x256_0_0 y⟩), View.canon_cons_unit_zero zero2,
    View.readCov_unit_zero _ zero2]
  simp only [View.readAt_eq_ld, View.ld_unit_zero (S := S16x256x1024) zero3]

set_option maxHeartbeats 1000000 in
/-- A last tile: the tile's lane sums are added to the accumulator and the gate of the accumulated sums and the
    four weight blocks is stored into the output block. -/
theorem kernel_last (c : Dev nD) (E : Set ℕ) (i : grid0.Coords) (hc1 : ¬cond1 i) (hc2 : cond2 i)
    (arg2 : Memref sig .tc .vmem S16x256x1024 .f32) (harg2 : arg2.IsWhole) (arg3 : Memref sig .tc .vmem S32x256 .f32) (harg3 : arg3.IsWhole) (arg4 : Memref sig .tc .vmem S1x32 .f32) (harg4 : arg4.IsWhole) (arg5 : Memref sig .tc .vmem S256x32 .f32) (harg5 : arg5.IsWhole) (arg6 : Memref sig .tc .vmem S1x256 .f32) (harg6 : arg6.IsWhole) (arg7 : Memref sig .tc .vmem S16x256 .f32) (harg7 : arg7.IsWhole) (arg8 : Memref sig .tc .vmem S16x256 .f32) (harg8 : arg8.IsWhole)
    (x0 : Vec F S16x256x1024 .f32) (x1 : Vec F S32x256 .f32) (x2 : Vec F S1x32 .f32) (x3 : Vec F S256x32 .f32) (x4 : Vec F S1x256 .f32) (s : Vec F S16x256 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
        ∗ (∃ d, owns (c : Thread nD τ) arg7 fullShare d) ∗ owns (c : Thread nD τ) arg8 fullShare s
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
            ∗ owns (c : Thread nD τ) arg7 fullShare (k0_pay3 (k0_pay2 s x0) x1 x2 x3 x4) ∗ owns (c : Thread nD τ) arg8 fullShare (k0_pay2 s x0)) -∗ K ⟨⟩))
      ⊢ wp frame (wpE (defs₀ (F := F)) Variants.none c none) E (cc0__pool_kernel i arg2 harg2 arg3 harg3 arg4 harg4 arg5 harg5 arg6 harg6 arg7 harg7 arg8 harg8) K := by
  simp only [cc0__pool_kernel_eq_skeleton]; unfold cc0__pool_kernel_skel
  unfold owns
  iintro ⟨⟨%f0, %hf0, H0⟩, ⟨%f1, %hf1, H1⟩, ⟨%f2, %hf2, H2⟩, ⟨%f3, %hf3, H3⟩, ⟨%f4, %hf4, H4⟩, ⟨%d7, %f7, -, H7⟩, ⟨%f8, %hf8, H8⟩, Hk⟩
  subst hf0; subst hf1; subst hf2; subst hf3; subst hf4; subst hf8
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H7]
  · iexists _; isplitr
    swap; · iexact H7
    ipureintro
    sl_unfold_run_names
    rw [View.read_writes_eq_canon _ _ _ (fun y => ⟨_, List.mem_singleton_self _, View.mem_set_unit_zero zero2 inb_S16x256_S16x256_0_0 y⟩), View.canon_unit_zero zero2,
      View.readCov_unit_zero _ zero2]
    simp only [View.readAt_eq_ld, View.ld_unit_zero (S := S16x256) zero2, View.ld_unit_zero (S := S16x256x1024) zero3,
      View.ld_unit_zero (S := S32x256) zero2, View.ld_unit_zero (S := S1x32) zero2, View.ld_unit_zero (S := S256x32) zero2,
      View.ld_unit_zero (S := S1x256) zero2]
  iexists _; isplitr
  swap; · iexact H8
  ipureintro
  sl_unfold_run_names
  rw [View.read_writes_eq_canon _ _ _ (fun y => ⟨_, List.mem_singleton_self _, View.mem_set_unit_zero zero2 inb_S16x256_S16x256_0_0 y⟩), View.canon_unit_zero zero2]
  simp only [View.readAt_eq_ld, View.ld_unit_zero (S := S16x256) zero2, View.ld_unit_zero (S := S16x256x1024) zero3]

/-! ## Each input's buffer holds its block at every point, fetched there or not -/

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_0 (c : Dev nD) (t : Fin cfg0.N) (d) : (dat0 V c).before 0 t d = iblk0 V c 0 t :=
  before0_0_of V (dat0 V c) (A_eq0 V c 0) (after0_0 V c) t d

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_1 (c : Dev nD) (t : Fin cfg0.N) (d) : (dat0 V c).before 1 t d = iblk0 V c 1 t :=
  before0_1_of V (dat0 V c) (A_eq0 V c 1) (after0_1 V c) t d

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_2 (c : Dev nD) (t : Fin cfg0.N) (d) : (dat0 V c).before 2 t d = iblk0 V c 2 t :=
  before0_2_of V (dat0 V c) (A_eq0 V c 2) (after0_2 V c) t d

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_3 (c : Dev nD) (t : Fin cfg0.N) (d) : (dat0 V c).before 3 t d = iblk0 V c 3 t :=
  before0_3_of V (dat0 V c) (A_eq0 V c 3) (after0_3 V c) t d

theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_4 (c : Dev nD) (t : Fin cfg0.N) (d) : (dat0 V c).before 4 t d = iblk0 V c 4 t :=
  before0_4_of V (dat0 V c) (A_eq0 V c 4) (after0_4 V c) t d

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
/-- Off the last tiles the output window is idle and is not written back; -/
theorem idleAt0_5 : ∀ t : Fin cfg0.N, ¬cond2 (grid0.coords t) → cfg0.idle 5 (grid0.coords t) = true := by decide +kernel
theorem noFlush0_5 : ∀ t : Fin cfg0.N, ¬cond2 (grid0.coords t) → (cfg0.win 5).flush t = false := by decide +kernel
/-- at a last tile it is live. -/
theorem liveAt0_5 : ∀ t : Fin cfg0.N, cond2 (grid0.coords t) → cfg0.idle 5 (grid0.coords t) = false := by decide +kernel

/-! ## The accumulator and the invariant, case by case -/

theorem accAt_first (c : Dev nD) (t : Fin cfg0.N) (h : t.val % 4 = 0) :
    accAt V c t.val t.isLt = k0_pay2 (k0_pay1 (F := F)) (iblk0 V c 0 t) := by
  obtain ⟨n, hn⟩ := t
  cases n with
  | zero => rfl
  | succ n => exact if_pos h

theorem accAt_next (c : Dev nD) (t : Fin cfg0.N) (h : ¬t.val % 4 = 0) :
    accAt V c t.val t.isLt = k0_pay2 (accAt V c (t.val - 1) (Nat.lt_of_le_of_lt (Nat.sub_le _ _) t.isLt)) (iblk0 V c 0 t) := by
  obtain ⟨n, hn⟩ := t
  cases n with
  | zero => exact absurd (Nat.zero_mod _) h
  | succ n => exact if_neg h

/-- The launch's invariant with the accumulator as a memref owned at some contents. -/
theorem PhiA0_eq (c : Dev nD) :
    (Pipeline.ΦA spec0 c : sProp 𝕄)
      = iprop(iprop((∃ d, owns (c : Thread nD τ) scM0 fullShare d) ∗ restS (F := F) c) ∗ (∃ r, prngReg c r)) := by
  unfold Pipeline.ΦA restS; rw [scopedRest0_eq]; simp only [scM0, owns_whole]; try rfl

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0 fullShare (accAt V c n hn) ∗ restS (F := F) c) ∗ (∃ r, prngReg c r)) := rfl

theorem PhiS_pos (c : Dev nD) (n : ℕ) (h : n ≤ cfg0.N) (hz : n ≠ 0) :
    PhiS V c n h = iprop(iprop(owns (c : Thread nD τ) scM0 fullShare (accAt V c (n - 1) (by omega)) ∗ restS (F := F) c) ∗ (∃ r, prngReg c r)) := by
  cases n with
  | zero => exact absurd rfl hz
  | succ n => rfl

theorem PhiS_castSucc (c : Dev nD) (t : Fin cfg0.N) :
    (dat0 V c).Φ t.castSucc = PhiS V c t.val (Nat.le_of_lt t.isLt) := by
  dsimp only [dat0]; simp only [Fin.coe_castSucc]

/-! ## The body obligation, at a generic point -/

def bodyPre (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

def bodyPost (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t)

theorem leaves_in (c : Dev nD) (t : Fin cfg0.N) (w : Fin cfg0.W) (h : cfg0.idle w (grid0.coords t) = false) :
    (dat0 V c).leavesExact w t = owns (c : Thread nD τ) ((cfg0.win w).stage (cfg0.slots t w)) fullShare ((dat0 V c).after w t) := by
  unfold Dat.leavesExact; rw [h]

set_option maxHeartbeats 4800000 in
/-- The body at any point. The inputs' buffers hold their blocks; the tile decides the case. At a first tile the
    accumulator — at anything before the first point, else at what the point before left — is zeroed and added to; at a
    middle tile it is added to; at a last tile it is added to and the gate stored into the output's buffer. Off the last
    tiles the output's buffer is handed back untouched. The other scoped buffers and the generator register pass through. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0_0, before0_1, before0_2, before0_3, before0_4]
  rw [show (dat0 V c).owesAt () t.succ = (dat0 V c).owesAt () t.castSucc from rfl]
  rw [show (dat0 V c).Φ t.succ = PhiS V c (t.val + 1) t.isLt from rfl, PhiS_succ]
  rw [leaves_in V c t 0 (liveAt0_0 t), leaves_in V c t 1 (liveAt0_1 t), leaves_in V c t 2 (liveAt0_2 t), leaves_in V c t 3 (liveAt0_3 t),
    leaves_in V c t 4 (liveAt0_4 t), after0_0, after0_1, after0_2, after0_3, after0_4]
  have hN : t.val < 8 := lt_of_lt_of_eq t.isLt (show cfg0.N = 8 from N_0)
  by_cases h0 : t.val % 4 = 0
  · have hc1 : cond1 (grid0.coords t) := (hcond1 t).mpr h0
    have hc2 : ¬cond2 (grid0.coords t) := fun h => by have := (hcond2 t).mp h; omega
    rw [Dat.leavesExact_idle (dat0 V c) 5 t (idleAt0_5 t hc2) (noFlush0_5 t hc2), accAt_first V c t h0]
    by_cases hz : t.val = 0
    · rw [PhiS_castSucc V c t, PhiS_zero V c _ _ hz, PhiA0_eq]
      iintro ⟨⟨⟨⟨%ds, HS⟩, HR⟩, Hg⟩, Ho, ⟨%d0, H0⟩, ⟨%d1, H1⟩, ⟨%d2, H2⟩, ⟨%d3, H3⟩, ⟨%d4, H4⟩, H5⟩
      iapply (kernel_first c Set.univ (grid0.coords t) hc1 hc2 _ _ _ _ _ _ _ _ _ _ _ _ _ _ (iblk0 V c 0 t) ds _)
      isplitl [H0]; · iexact H0
      isplitl [HS]; · iexact HS
      iintro ⟨H0, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      isplitl [H4]; · iexact H4
      iexact H5
    · rw [PhiS_castSucc V c t, PhiS_pos V c _ _ hz]
      iintro ⟨⟨⟨HS, HR⟩, Hg⟩, Ho, ⟨%d0, H0⟩, ⟨%d1, H1⟩, ⟨%d2, H2⟩, ⟨%d3, H3⟩, ⟨%d4, H4⟩, H5⟩
      iapply (kernel_first c Set.univ (grid0.coords t) hc1 hc2 _ _ _ _ _ _ _ _ _ _ _ _ _ _ (iblk0 V c 0 t) (accAt V c (t.val - 1) (by omega)) _)
      isplitl [H0]; · iexact H0
      isplitl [HS]; · iexact HS
      iintro ⟨H0, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      isplitl [H4]; · iexact H4
      iexact H5
  · have hc1 : ¬cond1 (grid0.coords t) := fun h => h0 ((hcond1 t).mp h)
    have hz : t.val ≠ 0 := fun e => h0 (by rw [e])
    rw [PhiS_castSucc V c t, PhiS_pos V c _ _ hz, accAt_next V c t h0]
    by_cases h3 : t.val % 4 = 3
    · have hc2 : cond2 (grid0.coords t) := (hcond2 t).mpr h3
      rw [leaves_in V c t 5 (liveAt0_5 t hc2), after0_5]
      unfold gateAt
      rw [accAt_next V c t h0]
      iintro ⟨⟨⟨HS, HR⟩, Hg⟩, Ho, ⟨%d0, H0⟩, ⟨%d1, H1⟩, ⟨%d2, H2⟩, ⟨%d3, H3⟩, ⟨%d4, H4⟩, ⟨%d5, H5⟩⟩
      iapply (kernel_last c Set.univ (grid0.coords t) hc1 hc2 _ _ _ _ _ _ _ _ _ _ _ _ _ _ (iblk0 V c 0 t) (iblk0 V c 1 t) (iblk0 V c 2 t) (iblk0 V c 3 t) (iblk0 V c 4 t) (accAt V c (t.val - 1) (by omega)) _)
      isplitl [H0]; · iexact H0
      isplitl [H1]; · iexact H1
      isplitl [H2]; · iexact H2
      isplitl [H3]; · iexact H3
      isplitl [H4]; · iexact H4
      isplitl [H5]; · iexists _; iexact H5
      isplitl [HS]; · iexact HS
      iintro ⟨H0, H1, H2, H3, H4, H5, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      isplitl [H4]; · iexact H4
      iexact H5
    · have hc2 : ¬cond2 (grid0.coords t) := fun h => h3 ((hcond2 t).mp h)
      rw [Dat.leavesExact_idle (dat0 V c) 5 t (idleAt0_5 t hc2) (noFlush0_5 t hc2)]
      iintro ⟨⟨⟨HS, HR⟩, Hg⟩, Ho, ⟨%d0, H0⟩, ⟨%d1, H1⟩, ⟨%d2, H2⟩, ⟨%d3, H3⟩, ⟨%d4, H4⟩, H5⟩
      iapply (kernel_mid c Set.univ (grid0.coords t) hc1 hc2 _ _ _ _ _ _ _ _ _ _ _ _ _ _ (iblk0 V c 0 t) (accAt V c (t.val - 1) (by omega)) _)
      isplitl [H0]; · iexact H0
      isplitl [HS]; · iexact HS
      iintro ⟨H0, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      isplitl [H4]; · iexact H4
      iexact H5

/-- The library's body obligation, at every point. -/
theorem body_obligation0 (c : Dev nD) : BodyObligation (dat0 (F := F) V c) (defs₀ (F := F)) Variants.none () Set.univ := fun t => by
  rw [bigSep_W0, bigSep_W0]
  exact sound_body V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After the last point the invariant gives the launch's back: the accumulator's contents are forgotten. -/
theorem hout0 (c : Dev nD) : (dat0 V c).Φ (Fin.last cfg0.N) ⊢ Pipeline.ΦA spec0 c := by
  rw [show (dat0 V c).Φ (Fin.last cfg0.N) = PhiS V c (Fin.last cfg0.N).val (Nat.le_of_lt_succ (Fin.last cfg0.N).isLt) from rfl,
    PhiS_pos V c _ _ (by rw [Fin.val_last]; have : cfg0.N = 8 := N_0; omega), PhiA0_eq]
  iintro ⟨⟨HS, HR⟩, Hg⟩
  isplitl [HS HR]
  · isplitl [HS]
    · iexists _; iexact HS
    iexact HR
  iexact Hg

end Cert.Kernel.Pool

end
-- ==== Proof.KScaleBody.lean ====
/-
  The scaling region's frame half, at the contents `V` the region is entered with. The grid is 4 batch slabs × 4
  spatial tiles; at every point the body multiplies the [8,256,1024] block of the activations by the [8,256] block
  of the gate, broadcast along the lanes, and stores the product into the output block. Nothing is carried from
  point to point, so what the body leaves in the output buffer is one function of the two input blocks.
-/
import proofs.«171454_j49709951484604_2_alg».proof.Proof.Gen.Kernel.Launch
import proofs.«171454_j49709951484604_2_alg».proof.Proof.Gen.Kernel.Skeleton
import proofs.«171454_j49709951484604_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Scale

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The activations' staging buffer holds the point's block at every point: the window is fetched at every point, and
    a body that leaves the block in place keeps it there. Stated for any proof data over `V`'s array whose body leaves
    the block in place. -/
theorem holds_x_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The gate's staging buffer holds the point's block at every point too, although it is fetched only at the first
    tile of each batch slab: at the other tiles the block index has not moved (it reads the slab coordinate only), and
    the buffer still holds the block the body left in place. -/
theorem holds_g_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each buffer whole -/

/-- The whole [8,256,1024] buffer as a rectangle (the activations' load, the output's load and store). -/
abbrev rX : Rect S8x256x1024 := Rect.unit (s := S8x256x1024) ![0, 0, 0] S8x256x1024.size inb_S8x256x1024_S8x256x1024_0_0_0
/-- The whole [8,256] buffer as a rectangle (the gate's load). -/
abbrev rG : Rect S8x256 := Rect.unit (s := S8x256) ![0, 0] S8x256.size inb_S8x256_S8x256_0_0

theorem zero3 : (![0, 0, 0] : Fin 3 → Nat) = fun _ => 0 := funext fun a => by fin_cases a <;> rfl
theorem zero2 : (![0, 0] : Fin 2 → Nat) = fun _ => 0 := funext fun a => by fin_cases a <;> rfl

/-! ## What the body leaves in the output window's buffer -/

/-- The output's staging buffer after the body, from the two input blocks: its one store, of the product payload of
    the two whole-buffer loads, laid over the buffer. -/
def out1_2 (x0 : Vec F S8x256x1024 .f32) (x1 : Vec F S8x256 .f32) : Vec F S8x256x1024 .f32 :=
  View.canon [⟨rX, k1_pay1 (View.ld x1 rG) (View.ld x0 rX)⟩]

/-- The store is through the whole buffer, so it covers it. -/
theorem covers_out (p0 : Vec F S8x256x1024 .f32) (y : S8x256x1024.Idx) :
    ∃ pc ∈ ([⟨rX, p0⟩] : List (View.Piece (Elt F) S8x256x1024 .f32)), y ∈ pc.1.set :=
  ⟨_, List.mem_singleton_self _, View.mem_set_unit_zero zero3 inb_S8x256x1024_S8x256x1024_0_0_0 y⟩

/-- A whole-buffer store of a payload of whole-buffer loads leaves the payload of the blocks themselves. -/
theorem out1_2_eq (x0 : Vec F S8x256x1024 .f32) (x1 : Vec F S8x256 .f32) : out1_2 x0 x1 = k1_pay1 x1 x0 := by
  unfold out1_2
  rw [View.canon_unit_zero zero3]
  rw [View.ld_unit_zero (S := S8x256x1024) zero3, View.ld_unit_zero (S := S8x256) zero2]

/-! ## The body's triple -/

set_option maxHeartbeats 1000000 in
/-- The kernel body on whole staging memrefs — the activations' at read contents `x0`, the gate's at `x1`, the
    output's at anything — runs to the continuation holding the inputs' as they were and the output's at `out1_2` of
    the two: it loads the gate, the activations and (unused) the output, and stores the product. -/
theorem scale_kernel_triple (c : Dev nD) (E : Set ℕ) (i : grid1.Coords)
    (arg0 : Memref sig .tc .vmem S8x256x1024 .f32) (harg0 : arg0.IsWhole) (arg1 : Memref sig .tc .vmem S8x256 .f32) (harg1 : arg1.IsWhole)
    (arg2 : Memref sig .tc .vmem S8x256x1024 .f32) (harg2 : arg2.IsWhole)
    (x0 : Vec F S8x256x1024 .f32) (x1 : Vec F S8x256 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out1_2 x0 x1)) -∗ K ⟨⟩))
      ⊢ wp frame (wpE (defs₀ (F := F)) Variants.none c none) E (cc1__scale_kernel i arg0 harg0 arg1 harg1 arg2 harg2) K := by
  simp only [cc1__scale_kernel_eq_skeleton]; unfold cc1__scale_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (covers_out _)

/-! ## The pipeline's proof data -/

/-- The proof data of the scaling pipeline on core `c`: the arrays as the region finds them; after the body at
    point `t` each input's buffer at its block and the output's at `out1_2` of the two blocks; the invariant the
    launch's (the scoped rest and the generator register, untouched); nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

/-- Each input's current staging buffer holds its block at every point, fetched there or not. -/
theorem before1_0 (c : Dev nD) (t : Fin cfg1.N) (d) : (dat1 V c).before 0 t d = iblk1 V c 0 t :=
  holds_x_of V (dat1 V c) (A_eq1 V c 0) (after1_0 V c) t d
theorem before1_1 (c : Dev nD) (t : Fin cfg1.N) (d) : (dat1 V c).before 1 t d = iblk1 V c 1 t :=
  holds_g_of V (dat1 V c) (A_eq1 V c 1) (after1_1 V c) t d

/-! ## The body obligation, at a generic point -/

/-- What the body is called with at point `t` (the obligation's precondition, the windows one by one), -/
def scalePre (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def scalePost (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' memrefs hold their blocks, so the triple applies; the invariant and the core's
    dues pass through unread. -/
theorem scale_body (c : Dev nD) (t : Fin cfg1.N) :
    scalePre V c t ⊢ wp frame (wpE (defs₀ (F := F)) Variants.none c none) Set.univ (bodyAt1 t) (fun _ => scalePost V c t) := by
  unfold scalePre scalePost bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (scale_kernel_triple c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation1 (c : Dev nD) : BodyObligation (dat1 (F := F) V c) (defs₀ (F := F)) Variants.none () Set.univ := fun t => by
  rw [bigSep_W1, bigSep_W1]
  exact scale_body V c t

end Cert.Kernel.Scale

end
-- ==== Proof.KRun.lean ====
/-
  The run of @main over its four segments: the three reshapes that flatten the input planes and give the two bias
  vectors a leading axis, the pooling region, the scaling region, and the reshape of the scaled array back to four axes.
  The contents of core c's unscoped buffers at each segment boundary are a fold from the launch memory; each region is
  entered from every unscoped buffer held at its boundary's contents and left at the next boundary's; the launch runs
  the segments in order, and at the end every unscoped buffer is read off the last boundary's contents. From that:
  the five argument arrays end as launched, and the result array is the reshape of what the scaling region leaves.
-/
import proofs.«171454_j49709951484604_2_alg».proof.Proof.KPoolBody
import proofs.«171454_j49709951484604_2_alg».proof.Proof.KScaleBody
import proofs.«171454_j49709951484604_2_alg».proof.Proof.Gen.Kernel.Regions

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The buffer contents at each segment boundary: a fold through @main -/

/-- Core c's buffers at launch. -/
abbrev W0 (m : (ℓ : Loc nD τ sig) → Buf (Elt F) ℓ) (ρ : Dev nD → PrngReg) : Dev nD → Valuation τ sig (Elt F) :=
  fun c b => m ((c : Dev nD), b)
/-- After the three reshapes (the pooling region's entry). -/
abbrev W1 (m : (ℓ : Loc nD τ sig) → Buf (Elt F) ℓ) (ρ : Dev nD → PrngReg) : Dev nD → Valuation τ sig (Elt F) :=
  fun c => StableHlo.after hostOps0 (W0 m ρ c)
/-- The same read at the TensorCore's references (what the pooling region's proof data take). -/
abbrev V1 (m : (ℓ : Loc nD τ sig) → Buf (Elt F) ℓ) (ρ : Dev nD → PrngReg) :
    (c : Dev nD) → (b : Ref sig .tc) → Buf (Elt F) ((c : Thread nD τ).loc b) := fun c b => W1 m ρ c b
/-- At the pooling region's exit: its arrays at what the pipeline leaves (the inputs as entered, the gate array's
    write-backs folded), every other buffer as entered. -/
def W2 (m : (ℓ : Loc nD τ sig) → Buf (Elt F) ℓ) (ρ : Dev nD → PrngReg) (c : Dev nD) : Valuation τ sig (Elt F) :=
  Pipeline.withArrays spec0 c (W1 m ρ c) fun w => (Pool.dat0 (V1 m ρ) c).arrAt w cfg0.N
/-- The same read at the TensorCore's references (what the scaling region's proof data take). -/
abbrev V2 (m : (ℓ : Loc nD τ sig) → Buf (Elt F) ℓ) (ρ : Dev nD → PrngReg) :
    (c : Dev nD) → (b : Ref sig .tc) → Buf (Elt F) ((c : Thread nD τ).loc b) := fun c b => W2 m ρ c b
/-- At the scaling region's exit: its arrays at what the pipeline leaves, every other buffer as entered. -/
def W3 (m : (ℓ : Loc nD τ sig) → Buf (Elt F) ℓ) (ρ : Dev nD → PrngReg) (c : Dev nD) : Valuation τ sig (Elt F) :=
  Pipeline.withArrays spec1 c (W2 m ρ c) fun w => (Scale.dat1 (V2 m ρ) c).arrAt w cfg1.N
/-- The same read at the TensorCore's references (the scaling region's exit contents). -/
abbrev V3 (m : (ℓ : Loc nD τ sig) → Buf (Elt F) ℓ) (ρ : Dev nD → PrngReg) :
    (c : Dev nD) → (b : Ref sig .tc) → Buf (Elt F) ((c : Thread nD τ).loc b) := fun c b => W3 m ρ c b
/-- After the last reshape (what the launch reads at the end). -/
abbrev W4 (m : (ℓ : Loc nD τ sig) → Buf (Elt F) ℓ) (ρ : Dev nD → PrngReg) : Dev nD → Valuation τ sig (Elt F) :=
  fun c => StableHlo.after hostOps2 (W3 m ρ c)

variable (m : (ℓ : Loc nD τ sig) → Buf (Elt F) ℓ) (ρ : Dev nD → PrngReg)

theorem W2_arr (c : Dev nD) (w : Fin cfg0.W) :
    W2 m ρ c (Proc.devRef .tc (Pipeline.arrRef spec0 w)) = (Pool.dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- At the pooling region's exit each of its arrays holds what the pipeline leaves and every other buffer what it
    held at entry. -/
theorem hF0 (c : Dev nD) (w : Fin cfg0.W) : (Pool.dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

theorem W3_arr (c : Dev nD) (w : Fin cfg1.W) :
    W3 m ρ c (Proc.devRef .tc (Pipeline.arrRef spec1 w)) = (Scale.dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- The same for the scaling region. -/
theorem hF1 (c : Dev nD) (w : Fin cfg1.W) : (Scale.dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- A reference the last reshape does not write keeps its contents across it. -/
theorem W4_of (c : Dev nD) (r : Ref sig .tc) (h : r ∉ hostOps2_W) : W4 m ρ c (Proc.devRef .tc r) = W3 m ρ c (Proc.devRef .tc r) :=
  StableHlo.after_of_writes_sub hostOps2 _ hostOps2_writes h
/-- A reference the three first reshapes do not write keeps its launch contents across them. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h

/-! ## What each boundary holds, reference by reference -/

/-- The pooling region's arrays that are inputs keep their entry contents. -/
theorem W2_in (c : Dev nD) (w : Fin cfg0.W) (hin : (cfg0.win w).isOut = false) :
    W2 m ρ c (Proc.devRef .tc (Pipeline.arrRef spec0 w)) = W1 m ρ c (Proc.devRef .tc (Pipeline.arrRef spec0 w)) :=
  (W2_arr m ρ c w).trans (((Pool.dat0 (V1 m ρ) c).arrAt_in w hin _).trans (Pool.A_eq0 (V1 m ρ) c w))
/-- The scaling region's arrays that are inputs keep their entry contents. -/
theorem W3_in (c : Dev nD) (w : Fin cfg1.W) (hin : (cfg1.win w).isOut = false) :
    W3 m ρ c (Proc.devRef .tc (Pipeline.arrRef spec1 w)) = W2 m ρ c (Proc.devRef .tc (Pipeline.arrRef spec1 w)) :=
  (W3_arr m ρ c w).trans (((Scale.dat1 (V2 m ρ) c).arrAt_in w hin _).trans (Scale.A_eq1 (V2 m ρ) c w))

/-- The gate array at the pooling region's exit: its write-backs folded. -/
theorem W2_v3 (c : Dev nD) : W2 m ρ c (Proc.devRef .tc main_call0_v3) = (Pool.dat0 (V1 m ρ) c).arrAt 5 cfg0.N :=
  W2_arr m ρ c 5
/-- The scaled array at the scaling region's exit: its write-backs folded. -/
theorem W3_v4 (c : Dev nD) : W3 m ρ c (Proc.devRef .tc main_call0_v4) = (Scale.dat1 (V2 m ρ) c).arrAt 2 cfg1.N :=
  W3_arr m ρ c 2

/-- The pooling region leaves every buffer that is none of its arrays as entered, -/
theorem W2_keep (c : Dev nD) (b : Ref sig .tc) (hb : ∀ w, Pipeline.arrRef spec0 w ≠ b) :
    W2 m ρ c (Proc.devRef .tc b) = W1 m ρ c (Proc.devRef .tc b) := W2_of_ne m ρ c b hb
/-- and its five input arrays too. -/
theorem W2_keep_main_call0_v0 (c : Dev nD) : W2 m ρ c (Proc.devRef .tc main_call0_v0) = W1 m ρ c (Proc.devRef .tc main_call0_v0) :=
  W2_in m ρ c 0 rfl
theorem W2_keep_main_arg1 (c : Dev nD) : W2 m ρ c (Proc.devRef .tc main_arg1) = W1 m ρ c (Proc.devRef .tc main_arg1) :=
  W2_in m ρ c 1 rfl
theorem W2_keep_main_call0_v1 (c : Dev nD) : W2 m ρ c (Proc.devRef .tc main_call0_v1) = W1 m ρ c (Proc.devRef .tc main_call0_v1) :=
  W2_in m ρ c 2 rfl
theorem W2_keep_main_arg3 (c : Dev nD) : W2 m ρ c (Proc.devRef .tc main_arg3) = W1 m ρ c (Proc.devRef .tc main_arg3) :=
  W2_in m ρ c 3 rfl
theorem W2_keep_main_call0_v2 (c : Dev nD) : W2 m ρ c (Proc.devRef .tc main_call0_v2) = W1 m ρ c (Proc.devRef .tc main_call0_v2) :=
  W2_in m ρ c 4 rfl

/-- The result array is the scaled array, its flattened planes read back as 64 × 64. -/
theorem W4_v0 (c : Dev nD) :
    (W4 m ρ c (Proc.devRef .tc main_v0) : S32x256x64x64.Idx → Elt F .f32)
      = shapeCast S32x256x64x64 (W3 m ρ c (Proc.devRef .tc main_call0_v4) : S32x256x4096.Idx → Elt F .f32)
          shapeCasts_S32x256x4096_S32x256x64x64 := by
  show StableHlo.after hostOps2 (W3 m ρ c) (Proc.devRef .tc main_v0) = _
  after_results; rfl

/-- The pooling region's first operand is the input with its planes flattened. -/
theorem W1_v0 (c : Dev nD) :
    (W1 m ρ c (Proc.devRef .tc main_call0_v0) : S32x256x4096.Idx → Elt F .f32)
      = shapeCast S32x256x4096 (m ((c : Thread nD τ).loc main_arg0) : S32x256x64x64.Idx → Elt F .f32)
          shapeCasts_S32x256x64x64_S32x256x4096 := by
  show StableHlo.after hostOps0 (W0 m ρ c) (Proc.devRef .tc main_call0_v0) = _
  after_results; rfl
/-- The first bias as a row. -/
theorem W1_v1 (c : Dev nD) :
    (W1 m ρ c (Proc.devRef .tc main_call0_v1) : S1x32.Idx → Elt F .f32)
      = shapeCast S1x32 (m ((c : Thread nD τ).loc main_arg2) : S32.Idx → Elt F .f32) shapeCasts_S32_S1x32 := by
  show StableHlo.after hostOps0 (W0 m ρ c) (Proc.devRef .tc main_call0_v1) = _
  after_results; rfl
/-- The second bias as a row. -/
theorem W1_v2 (c : Dev nD) :
    (W1 m ρ c (Proc.devRef .tc main_call0_v2) : S1x256.Idx → Elt F .f32)
      = shapeCast S1x256 (m ((c : Thread nD τ).loc main_arg4) : S256.Idx → Elt F .f32) shapeCasts_S256_S1x256 := by
  show StableHlo.after hostOps0 (W0 m ρ c) (Proc.devRef .tc main_call0_v2) = _
  after_results; rfl
/-- The two weight matrices reach the pooling region as launched. -/
theorem W1_arg1 (c : Dev nD) : W1 m ρ c (Proc.devRef .tc main_arg1) = m ((c : Thread nD τ).loc main_arg1) :=
  (W1_of m ρ c main_arg1 (by decide)).trans rfl
theorem W1_arg3 (c : Dev nD) : W1 m ρ c (Proc.devRef .tc main_arg3) = m ((c : Thread nD τ).loc main_arg3) :=
  (W1_of m ρ c main_arg3 (by decide)).trans rfl

/-! ### The arguments end as launched: no reshape writes one, and a region reads it through an input window or
    bypasses it -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of m ρ c main_arg0 (by decide)
    _ = W2 m ρ c (Proc.devRef .tc main_arg0) := W3_of_ne m ρ c main_arg0 (by decide)
    _ = W1 m ρ c (Proc.devRef .tc main_arg0) := W2_of_ne m ρ c main_arg0 (by decide)
    _ = W0 m ρ c (Proc.devRef .tc main_arg0) := W1_of m ρ c main_arg0 (by decide)
    _ = m ((c : Thread nD τ).loc main_arg0) := rfl
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of m ρ c main_arg1 (by decide)
    _ = W2 m ρ c (Proc.devRef .tc main_arg1) := W3_of_ne m ρ c main_arg1 (by decide)
    _ = W1 m ρ c (Proc.devRef .tc main_arg1) := W2_keep_main_arg1 m ρ c
    _ = m ((c : Thread nD τ).loc main_arg1) := W1_arg1 m ρ c
theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of m ρ c main_arg2 (by decide)
    _ = W2 m ρ c (Proc.devRef .tc main_arg2) := W3_of_ne m ρ c main_arg2 (by decide)
    _ = W1 m ρ c (Proc.devRef .tc main_arg2) := W2_of_ne m ρ c main_arg2 (by decide)
    _ = W0 m ρ c (Proc.devRef .tc main_arg2) := W1_of m ρ c main_arg2 (by decide)
    _ = m ((c : Thread nD τ).loc main_arg2) := rfl
theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of m ρ c main_arg3 (by decide)
    _ = W2 m ρ c (Proc.devRef .tc main_arg3) := W3_of_ne m ρ c main_arg3 (by decide)
    _ = W1 m ρ c (Proc.devRef .tc main_arg3) := W2_keep_main_arg3 m ρ c
    _ = m ((c : Thread nD τ).loc main_arg3) := W1_arg3 m ρ c
theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of m ρ c main_arg4 (by decide)
    _ = W2 m ρ c (Proc.devRef .tc main_arg4) := W3_of_ne m ρ c main_arg4 (by decide)
    _ = W1 m ρ c (Proc.devRef .tc main_arg4) := W2_of_ne m ρ c main_arg4 (by decide)
    _ = W0 m ρ c (Proc.devRef .tc main_arg4) := W1_of m ρ c main_arg4 (by decide)
    _ = m ((c : Thread nD τ).loc main_arg4) := rfl

/-! ## The proof data family and the thread state -/

/-- Every pipeline's proof data, each at its region's entry contents: a literal match, so that the library's pinned
    configuration at a numeral reduces to the printed one. -/
def pdats : (p : Fin 2) → (c : Dev nD) → Dat τ (Elt F) Unit ℕ (UR sig nD τ) ℕ (Pipeline.pin (pcfgs (F := F)) adm p) c
  | ⟨0, _⟩ => fun c => Pool.dat0 (V1 m ρ) c
  | ⟨1, _⟩ => fun c => Scale.dat1 (V2 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (a region's
    invariant takes it in and gives it back) and what the core owes, which is nothing. -/
abbrev R (c : Dev nD) : sProp 𝕄 := iprop((∃ r, prngReg c r) ∗ ∃ W, owes (c : Thread nD τ) (0 : CellTallies nD τ sig Unit) W)
/-- A stretch of host operations as a segment over the unscoped references from the contents W, R riding along: it
    ends with those references at the contents the operations leave, the next boundary's by name. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what the core owes: every unscoped buffer at the last boundary's contents, the
    generator register at some state. -/
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- THE POOLING REGION over the thread state: entered from every unscoped buffer at W1, left at W2. Its arrays are
    split out of the unscoped buffers and put back at the exit contents; the generator register and the scoped buffers
    no window stages go into the region's invariant (which carries the accumulator between grid points) and come back;
    nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (Pool.body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (Pool.hin0 (V1 m ρ) c)
    unfold Pipeline.ΦA
    iintro ⟨Hp, -, Hr⟩
    isplitl [Hr]; · iexact Hr
    iexact Hp
  hout c := by
    refine BIBase.Entails.trans (Pool.hout0 (V1 m ρ) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- THE SCALING REGION over the thread state: entered from every unscoped buffer at W2, left at W3; the invariant is
    the scoped buffers no window stages and the generator register, untouched. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (Scale.body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- The last segment's exit state is the last thread state beside the core owing nothing (the same three conjuncts,
    regrouped). -/
theorem last_link (c : Dev nD) :
    iprop(StableHlo.held (c : Thread nD τ) (Pipeline.ucRefs τ sig) (W4 m ρ c) ∗ R (F := F) c)
      ⊢ iprop(Tₙ m ρ c ∗ ∃ W, owes (c : Thread nD τ) (0 : CellTallies nD τ sig Unit) W) := by
  iintro ⟨Hh, Hp, HO⟩
  isplitl [Hh Hp]
  · isplitl [Hh]; · iexact Hh
    iexact Hp
  iexact HO

/-- @main's four segments in order: a host segment per stretch from its boundary's contents, a region per kernel. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .host (hseg hostOps2 hostOps2_sub hostOps2_fresh (W3 m ρ)) ]
/-- @main is the run of the segments. -/
theorem main_run (c : Dev nD) : main (F := F) c = Pipeline.Seg.run (segs m ρ) :=
  main_segs adm (pdats m ρ) () 𝒱₀ L lv _ _ (reg0 m ρ) (reg1 m ρ) rfl rfl c

set_option backward.isDefEq.respectTransparency.types false in
/-- THE RUN: from any memory with zero counters every weakly fair execution of @main on the TensorCores terminates,
    nothing faulting, and in every final state each unscoped buffer holds the last boundary's contents: the library's
    launch over the segments, the last thread state read against the final state. -/
theorem run_main : θ_run defs (onTc (τ := τ) (main (F := F))) ⟨m, fun _ => 0, ρ⟩ (fun r => ∀ c : Dev nD,
      ∀ b ∈ Pipeline.ucRefs τ sig, r.2.mem ((c : Thread nD τ).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => last_link m ρ c⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-- THE FRAME: every weakly fair execution of @main terminates, nothing faulting, and every final state has the five
    argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c)⟩) (run_main m ρ)

end Cert.Kernel.Run

end
-- ==== Proof.PoolDefs.lean ====
/-
  The pooling region's data: what the gate kernel's buffers hold, point by point, as functions of the arrays the
  region is entered with. The grid is 2 batch halves × 4 spatial tiles; at tile 0 the accumulator is zeroed, at
  every tile the tile's lane sums are added to it, and at tile 3 the gate — the logistic of the second dense layer
  over the rectified first, over the accumulated sums scaled by 1/4096 — is stored into the output block.
-/
import proofs.«171454_j49709951484604_2_alg».proof.Proof.Gen.KernelIdeal.Launch
import proofs.«171454_j49709951484604_2_alg».proof.Proof.Gen.KernelIdeal.Skeleton
import proofs.«171454_j49709951484604_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Pool

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The accumulator after the body at position `n`: at a first tile (`n % 4 = 0`) the tile's lane sums added to
    zero, at a later tile added to what the point before left. -/
def accAt (c : Dev nD) : (n : ℕ) → n < cfg0.N → Vec F S16x256 .f32
  | 0, hn => k0_pay2 (k0_pay1 (F := F)) (iblk0 V c 0 ⟨0, hn⟩)
  | n + 1, hn =>
    if (n + 1) % 4 = 0 then k0_pay2 (k0_pay1 (F := F)) (iblk0 V c 0 ⟨n + 1, hn⟩)
    else k0_pay2 (accAt c n (Nat.lt_of_succ_lt hn)) (iblk0 V c 0 ⟨n + 1, hn⟩)

/-- The gate block the body stores at a last tile: the payload of the accumulator and the four weight blocks. -/
def gateAt (c : Dev nD) (t : Fin cfg0.N) : Vec F S16x256 .f32 :=
  k0_pay3 (accAt V c t.val t.isLt) (iblk0 V c 1 t) (iblk0 V c 2 t) (iblk0 V c 3 t) (iblk0 V c 4 t)

end Cert.KernelIdeal.Pool

end
-- ==== Proof.PoolBody.lean ====
/-
  The pooling region's frame half, at the contents `V` the region is entered with: the proof data of the pipeline
  (each input's buffer at its block, the accumulator carried between grid points in the region's invariant, the
  gate block stored at a last tile), the body's triple in each of its three control cases, and the body obligation.
-/
import proofs.«171454_j49709951484604_2_alg».proof.Proof.PoolDefs
import Idealize.ShloMosaic.Lib.Pipeline.Value

set_option maxRecDepth 16384

noncomputable section

namespace Cert.KernelIdeal.Pool

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The accumulator: a whole scoped buffer of the kernel's own, passed beside the windows. -/
abbrev scM0 : Memref sig .tc .vmem S16x256 .f32 := Memref.whole cc0_scratch0

/-- The scoped buffers of the core that are neither a staging buffer of this region nor its accumulator (the other
    region's staging buffers), each whole at some contents: the region never touches them. -/
def restS (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f))

/-- The region's invariant before position `n`: before the first point the launch's (every scoped buffer that is no
    staging buffer of the region at anything, the generator register at some state); afterwards the same with the
    accumulator at what the point before left in it. -/
def PhiS (c : Dev nD) : (n : ℕ) → n ≤ cfg0.N → sProp 𝕄
  | 0, _ => Pipeline.ΦA spec0 c
  | n + 1, hn => iprop(iprop(owns (c : Thread nD τ) scM0 fullShare (accAt V c n hn) ∗ restS (F := F) c) ∗ (∃ r, prngReg c r))

/-- The proof data of the pooling pipeline on core `c`: the arrays as the region finds them; after the body at point
    `t` each input's buffer at its block and the output's at the gate block (consulted at last tiles only: elsewhere the
    window is idle and not written back); the invariant carrying the accumulator; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => gateAt V c t
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = gateAt V c t := by dsimp only [dat0]

/-! ## The body's two branch conditions, decided over the grid -/

/-- The first branch (the accumulator is zeroed): the spatial tile is tile 0. -/
abbrev cond1 (i : grid0.Coords) : Prop := (Scalar.cmpi .ne (Scalar.extui (Scalar.cmpi .eq (BitVec.ofNat 32 (i 1).val) 0#32)) 0#32) = 1#1
theorem hcond1 : ∀ t : Fin cfg0.N, cond1 (grid0.coords t) ↔ t.val % 4 = 0 :=
  (by decide +kernel : ∀ t : Fin grid0.N, cond1 (grid0.coords t) ↔ t.val % 4 = 0)
/-- The second branch (the gate is computed and stored): the spatial tile is tile 3. -/
abbrev cond2 (i : grid0.Coords) : Prop := k0_cond2 i = 1#1
theorem hcond2 : ∀ t : Fin cfg0.N, cond2 (grid0.coords t) ↔ t.val % 4 = 3 :=
  (by decide +kernel : ∀ t : Fin grid0.N, cond2 (grid0.coords t) ↔ t.val % 4 = 3)

theorem zero2 : (![0, 0] : Fin 2 → ℕ) = fun _ => 0 := by
  funext a; match a with | ⟨0, _⟩ => rfl | ⟨1, _⟩ => rfl
theorem zero3 : (![0, 0, 0] : Fin 3 → ℕ) = fun _ => 0 := by
  funext a; match a with | ⟨0, _⟩ => rfl | ⟨1, _⟩ => rfl | ⟨2, _⟩ => rfl

/-! ## The body's triple in each control case -/

set_option maxHeartbeats 1000000 in
/-- A middle tile: the tile's lane sums are added to the accumulator; nothing else is touched. -/
theorem kernel_mid (c : Dev nD) (E : Set ℕ) (i : grid0.Coords) (hc1 : ¬cond1 i) (hc2 : ¬cond2 i)
    (arg2 : Memref sig .tc .vmem S16x256x1024 .f32) (harg2 : arg2.IsWhole) (arg3 : Memref sig .tc .vmem S32x256 .f32) (harg3 : arg3.IsWhole) (arg4 : Memref sig .tc .vmem S1x32 .f32) (harg4 : arg4.IsWhole) (arg5 : Memref sig .tc .vmem S256x32 .f32) (harg5 : arg5.IsWhole) (arg6 : Memref sig .tc .vmem S1x256 .f32) (harg6 : arg6.IsWhole) (arg7 : Memref sig .tc .vmem S16x256 .f32) (harg7 : arg7.IsWhole) (arg8 : Memref sig .tc .vmem S16x256 .f32) (harg8 : arg8.IsWhole)
    (x0 : Vec F S16x256x1024 .f32) (s : Vec F S16x256 .f32) (K : PUnit → sProp 𝕄) :
    iprop(owns (c : Thread nD τ) arg2 fullShare x0 ∗ owns (c : Thread nD τ) arg8 fullShare s
        ∗ (iprop(owns (c : Thread nD τ) arg2 fullShare x0 ∗ owns (c : Thread nD τ) arg8 fullShare (k0_pay2 s x0)) -∗ K ⟨⟩))
      ⊢ wp frame (wpE (defs₀ (F := F)) Variants.none c none) E (cc0__pool_kernel i arg2 harg2 arg3 harg3 arg4 harg4 arg5 harg5 arg6 harg6 arg7 harg7 arg8 harg8) K := by
  simp only [cc0__pool_kernel_eq_skeleton]; unfold cc0__pool_kernel_skel
  unfold owns
  iintro ⟨⟨%f0, %hf0, H0⟩, ⟨%f8, %hf8, H8⟩, Hk⟩
  subst hf0; subst hf8
  sl_exec (disch := first | exact hc1 | exact hc2)
  sl_step
  iapply Hk
  isplitl [H0]
  · iexists f0; isplitr; · ipureintro; rfl
    iexact H0
  iexists _; isplitr
  swap; · iexact H8
  ipureintro
  rw [View.read_writes_eq_canon _ _ _ (fun y => ⟨_, List.mem_singleton_self _, View.mem_set_unit_zero zero2 inb_S16x256_S16x256_0_0 y⟩), View.canon_unit_zero zero2]
  simp only [View.readAt_eq_ld, View.ld_unit_zero (S := S16x256) zero2, View.ld_unit_zero (S := S16x256x1024) zero3]

set_option maxHeartbeats 1000000 in
/-- A first tile: the accumulator, whatever it held, is zeroed and the tile's lane sums added to it. -/
theorem kernel_first (c : Dev nD) (E : Set ℕ) (i : grid0.Coords) (hc1 : cond1 i) (hc2 : ¬cond2 i)
    (arg2 : Memref sig .tc .vmem S16x256x1024 .f32) (harg2 : arg2.IsWhole) (arg3 : Memref sig .tc .vmem S32x256 .f32) (harg3 : arg3.IsWhole) (arg4 : Memref sig .tc .vmem S1x32 .f32) (harg4 : arg4.IsWhole) (arg5 : Memref sig .tc .vmem S256x32 .f32) (harg5 : arg5.IsWhole) (arg6 : Memref sig .tc .vmem S1x256 .f32) (harg6 : arg6.IsWhole) (arg7 : Memref sig .tc .vmem S16x256 .f32) (harg7 : arg7.IsWhole) (arg8 : Memref sig .tc .vmem S16x256 .f32) (harg8 : arg8.IsWhole)
    (x0 : Vec F S16x256x1024 .f32) (s : Vec F S16x256 .f32) (K : PUnit → sProp 𝕄) :
    iprop(owns (c : Thread nD τ) arg2 fullShare x0 ∗ owns (c : Thread nD τ) arg8 fullShare s
        ∗ (iprop(owns (c : Thread nD τ) arg2 fullShare x0 ∗ owns (c : Thread nD τ) arg8 fullShare (k0_pay2 (k0_pay1 (F := F)) x0)) -∗ K ⟨⟩))
      ⊢ wp frame (wpE (defs₀ (F := F)) Variants.none c none) E (cc0__pool_kernel i arg2 harg2 arg3 harg3 arg4 harg4 arg5 harg5 arg6 harg6 arg7 harg7 arg8 harg8) K := by
  simp only [cc0__pool_kernel_eq_skeleton]; unfold cc0__pool_kernel_skel
  unfold owns
  iintro ⟨⟨%f0, %hf0, H0⟩, ⟨%f8, %hf8, H8⟩, Hk⟩
  subst hf0; subst hf8
  sl_exec (disch := first | exact hc1 | exact hc2)
  sl_step
  iapply Hk
  isplitl [H0]
  · iexists f0; isplitr; · ipureintro; rfl
    iexact H0
  iexists _; isplitr
  swap; · iexact H8
  ipureintro
  sl_unfold_run_names
  rw [View.read_writes_eq_canon _ _ _ (fun y => ⟨_, List.mem_cons_self, View.mem_set_unit_zero zero2 inb_S16x256_S16x256_0_0 y⟩), View.canon_cons_unit_zero zero2,
    View.readCov_unit_zero _ zero2]
  simp only [View.readAt_eq_ld, View.ld_unit_zero (S := S16x256x1024) zero3]

set_option maxHeartbeats 1000000 in
/-- A last tile: the tile's lane sums are added to the accumulator and the gate of the accumulated sums and the
    four weight blocks is stored into the output block. -/
theorem kernel_last (c : Dev nD) (E : Set ℕ) (i : grid0.Coords) (hc1 : ¬cond1 i) (hc2 : cond2 i)
    (arg2 : Memref sig .tc .vmem S16x256x1024 .f32) (harg2 : arg2.IsWhole) (arg3 : Memref sig .tc .vmem S32x256 .f32) (harg3 : arg3.IsWhole) (arg4 : Memref sig .tc .vmem S1x32 .f32) (harg4 : arg4.IsWhole) (arg5 : Memref sig .tc .vmem S256x32 .f32) (harg5 : arg5.IsWhole) (arg6 : Memref sig .tc .vmem S1x256 .f32) (harg6 : arg6.IsWhole) (arg7 : Memref sig .tc .vmem S16x256 .f32) (harg7 : arg7.IsWhole) (arg8 : Memref sig .tc .vmem S16x256 .f32) (harg8 : arg8.IsWhole)
    (x0 : Vec F S16x256x1024 .f32) (x1 : Vec F S32x256 .f32) (x2 : Vec F S1x32 .f32) (x3 : Vec F S256x32 .f32) (x4 : Vec F S1x256 .f32) (s : Vec F S16x256 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
        ∗ (∃ d, owns (c : Thread nD τ) arg7 fullShare d) ∗ owns (c : Thread nD τ) arg8 fullShare s
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
            ∗ owns (c : Thread nD τ) arg7 fullShare (k0_pay3 (k0_pay2 s x0) x1 x2 x3 x4) ∗ owns (c : Thread nD τ) arg8 fullShare (k0_pay2 s x0)) -∗ K ⟨⟩))
      ⊢ wp frame (wpE (defs₀ (F := F)) Variants.none c none) E (cc0__pool_kernel i arg2 harg2 arg3 harg3 arg4 harg4 arg5 harg5 arg6 harg6 arg7 harg7 arg8 harg8) K := by
  simp only [cc0__pool_kernel_eq_skeleton]; unfold cc0__pool_kernel_skel
  unfold owns
  iintro ⟨⟨%f0, %hf0, H0⟩, ⟨%f1, %hf1, H1⟩, ⟨%f2, %hf2, H2⟩, ⟨%f3, %hf3, H3⟩, ⟨%f4, %hf4, H4⟩, ⟨%d7, %f7, -, H7⟩, ⟨%f8, %hf8, H8⟩, Hk⟩
  subst hf0; subst hf1; subst hf2; subst hf3; subst hf4; subst hf8
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H7]
  · iexists _; isplitr
    swap; · iexact H7
    ipureintro
    sl_unfold_run_names
    rw [View.read_writes_eq_canon _ _ _ (fun y => ⟨_, List.mem_singleton_self _, View.mem_set_unit_zero zero2 inb_S16x256_S16x256_0_0 y⟩), View.canon_unit_zero zero2,
      View.readCov_unit_zero _ zero2]
    simp only [View.readAt_eq_ld, View.ld_unit_zero (S := S16x256) zero2, View.ld_unit_zero (S := S16x256x1024) zero3,
      View.ld_unit_zero (S := S32x256) zero2, View.ld_unit_zero (S := S1x32) zero2, View.ld_unit_zero (S := S256x32) zero2,
      View.ld_unit_zero (S := S1x256) zero2]
  iexists _; isplitr
  swap; · iexact H8
  ipureintro
  sl_unfold_run_names
  rw [View.read_writes_eq_canon _ _ _ (fun y => ⟨_, List.mem_singleton_self _, View.mem_set_unit_zero zero2 inb_S16x256_S16x256_0_0 y⟩), View.canon_unit_zero zero2]
  simp only [View.readAt_eq_ld, View.ld_unit_zero (S := S16x256) zero2, View.ld_unit_zero (S := S16x256x1024) zero3]

/-! ## Each input's buffer holds its block at every point, fetched there or not -/

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_0 (c : Dev nD) (t : Fin cfg0.N) (d) : (dat0 V c).before 0 t d = iblk0 V c 0 t :=
  before0_0_of V (dat0 V c) (A_eq0 V c 0) (after0_0 V c) t d

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_1 (c : Dev nD) (t : Fin cfg0.N) (d) : (dat0 V c).before 1 t d = iblk0 V c 1 t :=
  before0_1_of V (dat0 V c) (A_eq0 V c 1) (after0_1 V c) t d

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_2 (c : Dev nD) (t : Fin cfg0.N) (d) : (dat0 V c).before 2 t d = iblk0 V c 2 t :=
  before0_2_of V (dat0 V c) (A_eq0 V c 2) (after0_2 V c) t d

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_3 (c : Dev nD) (t : Fin cfg0.N) (d) : (dat0 V c).before 3 t d = iblk0 V c 3 t :=
  before0_3_of V (dat0 V c) (A_eq0 V c 3) (after0_3 V c) t d

theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_4 (c : Dev nD) (t : Fin cfg0.N) (d) : (dat0 V c).before 4 t d = iblk0 V c 4 t :=
  before0_4_of V (dat0 V c) (A_eq0 V c 4) (after0_4 V c) t d

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
/-- Off the last tiles the output window is idle and is not written back; -/
theorem idleAt0_5 : ∀ t : Fin cfg0.N, ¬cond2 (grid0.coords t) → cfg0.idle 5 (grid0.coords t) = true := by decide +kernel
theorem noFlush0_5 : ∀ t : Fin cfg0.N, ¬cond2 (grid0.coords t) → (cfg0.win 5).flush t = false := by decide +kernel
/-- at a last tile it is live. -/
theorem liveAt0_5 : ∀ t : Fin cfg0.N, cond2 (grid0.coords t) → cfg0.idle 5 (grid0.coords t) = false := by decide +kernel

/-! ## The accumulator and the invariant, case by case -/

theorem accAt_first (c : Dev nD) (t : Fin cfg0.N) (h : t.val % 4 = 0) :
    accAt V c t.val t.isLt = k0_pay2 (k0_pay1 (F := F)) (iblk0 V c 0 t) := by
  obtain ⟨n, hn⟩ := t
  cases n with
  | zero => rfl
  | succ n => exact if_pos h

theorem accAt_next (c : Dev nD) (t : Fin cfg0.N) (h : ¬t.val % 4 = 0) :
    accAt V c t.val t.isLt = k0_pay2 (accAt V c (t.val - 1) (Nat.lt_of_le_of_lt (Nat.sub_le _ _) t.isLt)) (iblk0 V c 0 t) := by
  obtain ⟨n, hn⟩ := t
  cases n with
  | zero => exact absurd (Nat.zero_mod _) h
  | succ n => exact if_neg h

/-- The launch's invariant with the accumulator as a memref owned at some contents. -/
theorem PhiA0_eq (c : Dev nD) :
    (Pipeline.ΦA spec0 c : sProp 𝕄)
      = iprop(iprop((∃ d, owns (c : Thread nD τ) scM0 fullShare d) ∗ restS (F := F) c) ∗ (∃ r, prngReg c r)) := by
  unfold Pipeline.ΦA restS; rw [scopedRest0_eq]; simp only [scM0, owns_whole]; try rfl

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0 fullShare (accAt V c n hn) ∗ restS (F := F) c) ∗ (∃ r, prngReg c r)) := rfl

theorem PhiS_pos (c : Dev nD) (n : ℕ) (h : n ≤ cfg0.N) (hz : n ≠ 0) :
    PhiS V c n h = iprop(iprop(owns (c : Thread nD τ) scM0 fullShare (accAt V c (n - 1) (by omega)) ∗ restS (F := F) c) ∗ (∃ r, prngReg c r)) := by
  cases n with
  | zero => exact absurd rfl hz
  | succ n => rfl

theorem PhiS_castSucc (c : Dev nD) (t : Fin cfg0.N) :
    (dat0 V c).Φ t.castSucc = PhiS V c t.val (Nat.le_of_lt t.isLt) := by
  dsimp only [dat0]; simp only [Fin.coe_castSucc]

/-! ## The body obligation, at a generic point -/

def bodyPre (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

def bodyPost (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t)

theorem leaves_in (c : Dev nD) (t : Fin cfg0.N) (w : Fin cfg0.W) (h : cfg0.idle w (grid0.coords t) = false) :
    (dat0 V c).leavesExact w t = owns (c : Thread nD τ) ((cfg0.win w).stage (cfg0.slots t w)) fullShare ((dat0 V c).after w t) := by
  unfold Dat.leavesExact; rw [h]

set_option maxHeartbeats 4800000 in
/-- The body at any point. The inputs' buffers hold their blocks; the tile decides the case. At a first tile the
    accumulator — at anything before the first point, else at what the point before left — is zeroed and added to; at a
    middle tile it is added to; at a last tile it is added to and the gate stored into the output's buffer. Off the last
    tiles the output's buffer is handed back untouched. The other scoped buffers and the generator register pass through. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0_0, before0_1, before0_2, before0_3, before0_4]
  rw [show (dat0 V c).owesAt () t.succ = (dat0 V c).owesAt () t.castSucc from rfl]
  rw [show (dat0 V c).Φ t.succ = PhiS V c (t.val + 1) t.isLt from rfl, PhiS_succ]
  rw [leaves_in V c t 0 (liveAt0_0 t), leaves_in V c t 1 (liveAt0_1 t), leaves_in V c t 2 (liveAt0_2 t), leaves_in V c t 3 (liveAt0_3 t),
    leaves_in V c t 4 (liveAt0_4 t), after0_0, after0_1, after0_2, after0_3, after0_4]
  have hN : t.val < 8 := lt_of_lt_of_eq t.isLt (show cfg0.N = 8 from N_0)
  by_cases h0 : t.val % 4 = 0
  · have hc1 : cond1 (grid0.coords t) := (hcond1 t).mpr h0
    have hc2 : ¬cond2 (grid0.coords t) := fun h => by have := (hcond2 t).mp h; omega
    rw [Dat.leavesExact_idle (dat0 V c) 5 t (idleAt0_5 t hc2) (noFlush0_5 t hc2), accAt_first V c t h0]
    by_cases hz : t.val = 0
    · rw [PhiS_castSucc V c t, PhiS_zero V c _ _ hz, PhiA0_eq]
      iintro ⟨⟨⟨⟨%ds, HS⟩, HR⟩, Hg⟩, Ho, ⟨%d0, H0⟩, ⟨%d1, H1⟩, ⟨%d2, H2⟩, ⟨%d3, H3⟩, ⟨%d4, H4⟩, H5⟩
      iapply (kernel_first c Set.univ (grid0.coords t) hc1 hc2 _ _ _ _ _ _ _ _ _ _ _ _ _ _ (iblk0 V c 0 t) ds _)
      isplitl [H0]; · iexact H0
      isplitl [HS]; · iexact HS
      iintro ⟨H0, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      isplitl [H4]; · iexact H4
      iexact H5
    · rw [PhiS_castSucc V c t, PhiS_pos V c _ _ hz]
      iintro ⟨⟨⟨HS, HR⟩, Hg⟩, Ho, ⟨%d0, H0⟩, ⟨%d1, H1⟩, ⟨%d2, H2⟩, ⟨%d3, H3⟩, ⟨%d4, H4⟩, H5⟩
      iapply (kernel_first c Set.univ (grid0.coords t) hc1 hc2 _ _ _ _ _ _ _ _ _ _ _ _ _ _ (iblk0 V c 0 t) (accAt V c (t.val - 1) (by omega)) _)
      isplitl [H0]; · iexact H0
      isplitl [HS]; · iexact HS
      iintro ⟨H0, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      isplitl [H4]; · iexact H4
      iexact H5
  · have hc1 : ¬cond1 (grid0.coords t) := fun h => h0 ((hcond1 t).mp h)
    have hz : t.val ≠ 0 := fun e => h0 (by rw [e])
    rw [PhiS_castSucc V c t, PhiS_pos V c _ _ hz, accAt_next V c t h0]
    by_cases h3 : t.val % 4 = 3
    · have hc2 : cond2 (grid0.coords t) := (hcond2 t).mpr h3
      rw [leaves_in V c t 5 (liveAt0_5 t hc2), after0_5]
      unfold gateAt
      rw [accAt_next V c t h0]
      iintro ⟨⟨⟨HS, HR⟩, Hg⟩, Ho, ⟨%d0, H0⟩, ⟨%d1, H1⟩, ⟨%d2, H2⟩, ⟨%d3, H3⟩, ⟨%d4, H4⟩, ⟨%d5, H5⟩⟩
      iapply (kernel_last c Set.univ (grid0.coords t) hc1 hc2 _ _ _ _ _ _ _ _ _ _ _ _ _ _ (iblk0 V c 0 t) (iblk0 V c 1 t) (iblk0 V c 2 t) (iblk0 V c 3 t) (iblk0 V c 4 t) (accAt V c (t.val - 1) (by omega)) _)
      isplitl [H0]; · iexact H0
      isplitl [H1]; · iexact H1
      isplitl [H2]; · iexact H2
      isplitl [H3]; · iexact H3
      isplitl [H4]; · iexact H4
      isplitl [H5]; · iexists _; iexact H5
      isplitl [HS]; · iexact HS
      iintro ⟨H0, H1, H2, H3, H4, H5, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      isplitl [H4]; · iexact H4
      iexact H5
    · have hc2 : ¬cond2 (grid0.coords t) := fun h => h3 ((hcond2 t).mp h)
      rw [Dat.leavesExact_idle (dat0 V c) 5 t (idleAt0_5 t hc2) (noFlush0_5 t hc2)]
      iintro ⟨⟨⟨HS, HR⟩, Hg⟩, Ho, ⟨%d0, H0⟩, ⟨%d1, H1⟩, ⟨%d2, H2⟩, ⟨%d3, H3⟩, ⟨%d4, H4⟩, H5⟩
      iapply (kernel_mid c Set.univ (grid0.coords t) hc1 hc2 _ _ _ _ _ _ _ _ _ _ _ _ _ _ (iblk0 V c 0 t) (accAt V c (t.val - 1) (by omega)) _)
      isplitl [H0]; · iexact H0
      isplitl [HS]; · iexact HS
      iintro ⟨H0, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      isplitl [H4]; · iexact H4
      iexact H5

/-- The library's body obligation, at every point. -/
theorem body_obligation0 (c : Dev nD) : BodyObligation (dat0 (F := F) V c) (defs₀ (F := F)) Variants.none () Set.univ := fun t => by
  rw [bigSep_W0, bigSep_W0]
  exact sound_body V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After the last point the invariant gives the launch's back: the accumulator's contents are forgotten. -/
theorem hout0 (c : Dev nD) : (dat0 V c).Φ (Fin.last cfg0.N) ⊢ Pipeline.ΦA spec0 c := by
  rw [show (dat0 V c).Φ (Fin.last cfg0.N) = PhiS V c (Fin.last cfg0.N).val (Nat.le_of_lt_succ (Fin.last cfg0.N).isLt) from rfl,
    PhiS_pos V c _ _ (by rw [Fin.val_last]; have : cfg0.N = 8 := N_0; omega), PhiA0_eq]
  iintro ⟨⟨HS, HR⟩, Hg⟩
  isplitl [HS HR]
  · isplitl [HS]
    · iexists _; iexact HS
    iexact HR
  iexact Hg

end Cert.KernelIdeal.Pool

end
-- ==== Proof.ScaleBody.lean ====
/-
  The scaling region's frame half, at the contents `V` the region is entered with. The grid is 4 batch slabs × 4
  spatial tiles; at every point the body multiplies the [8,256,1024] block of the activations by the [8,256] block
  of the gate, broadcast along the lanes, and stores the product into the output block. Nothing is carried from
  point to point, so what the body leaves in the output buffer is one function of the two input blocks.
-/
import proofs.«171454_j49709951484604_2_alg».proof.Proof.Gen.KernelIdeal.Launch
import proofs.«171454_j49709951484604_2_alg».proof.Proof.Gen.KernelIdeal.Skeleton
import proofs.«171454_j49709951484604_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Scale

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The activations' staging buffer holds the point's block at every point: the window is fetched at every point, and
    a body that leaves the block in place keeps it there. Stated for any proof data over `V`'s array whose body leaves
    the block in place. -/
theorem holds_x_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The gate's staging buffer holds the point's block at every point too, although it is fetched only at the first
    tile of each batch slab: at the other tiles the block index has not moved (it reads the slab coordinate only), and
    the buffer still holds the block the body left in place. -/
theorem holds_g_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each buffer whole -/

/-- The whole [8,256,1024] buffer as a rectangle (the activations' load, the output's load and store). -/
abbrev rX : Rect S8x256x1024 := Rect.unit (s := S8x256x1024) ![0, 0, 0] S8x256x1024.size inb_S8x256x1024_S8x256x1024_0_0_0
/-- The whole [8,256] buffer as a rectangle (the gate's load). -/
abbrev rG : Rect S8x256 := Rect.unit (s := S8x256) ![0, 0] S8x256.size inb_S8x256_S8x256_0_0

theorem zero3 : (![0, 0, 0] : Fin 3 → Nat) = fun _ => 0 := funext fun a => by fin_cases a <;> rfl
theorem zero2 : (![0, 0] : Fin 2 → Nat) = fun _ => 0 := funext fun a => by fin_cases a <;> rfl

/-! ## What the body leaves in the output window's buffer -/

/-- The output's staging buffer after the body, from the two input blocks: its one store, of the product payload of
    the two whole-buffer loads, laid over the buffer. -/
def out1_2 (x0 : Vec F S8x256x1024 .f32) (x1 : Vec F S8x256 .f32) : Vec F S8x256x1024 .f32 :=
  View.canon [⟨rX, k1_pay1 (View.ld x1 rG) (View.ld x0 rX)⟩]

/-- The store is through the whole buffer, so it covers it. -/
theorem covers_out (p0 : Vec F S8x256x1024 .f32) (y : S8x256x1024.Idx) :
    ∃ pc ∈ ([⟨rX, p0⟩] : List (View.Piece (Elt F) S8x256x1024 .f32)), y ∈ pc.1.set :=
  ⟨_, List.mem_singleton_self _, View.mem_set_unit_zero zero3 inb_S8x256x1024_S8x256x1024_0_0_0 y⟩

/-- A whole-buffer store of a payload of whole-buffer loads leaves the payload of the blocks themselves. -/
theorem out1_2_eq (x0 : Vec F S8x256x1024 .f32) (x1 : Vec F S8x256 .f32) : out1_2 x0 x1 = k1_pay1 x1 x0 := by
  unfold out1_2
  rw [View.canon_unit_zero zero3]
  rw [View.ld_unit_zero (S := S8x256x1024) zero3, View.ld_unit_zero (S := S8x256) zero2]

/-! ## The body's triple -/

set_option maxHeartbeats 1000000 in
/-- The kernel body on whole staging memrefs — the activations' at read contents `x0`, the gate's at `x1`, the
    output's at anything — runs to the continuation holding the inputs' as they were and the output's at `out1_2` of
    the two: it loads the gate, the activations and (unused) the output, and stores the product. -/
theorem scale_kernel_triple (c : Dev nD) (E : Set ℕ) (i : grid1.Coords)
    (arg0 : Memref sig .tc .vmem S8x256x1024 .f32) (harg0 : arg0.IsWhole) (arg1 : Memref sig .tc .vmem S8x256 .f32) (harg1 : arg1.IsWhole)
    (arg2 : Memref sig .tc .vmem S8x256x1024 .f32) (harg2 : arg2.IsWhole)
    (x0 : Vec F S8x256x1024 .f32) (x1 : Vec F S8x256 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out1_2 x0 x1)) -∗ K ⟨⟩))
      ⊢ wp frame (wpE (defs₀ (F := F)) Variants.none c none) E (cc1__scale_kernel i arg0 harg0 arg1 harg1 arg2 harg2) K := by
  simp only [cc1__scale_kernel_eq_skeleton]; unfold cc1__scale_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (covers_out _)

/-! ## The pipeline's proof data -/

/-- The proof data of the scaling pipeline on core `c`: the arrays as the region finds them; after the body at
    point `t` each input's buffer at its block and the output's at `out1_2` of the two blocks; the invariant the
    launch's (the scoped rest and the generator register, untouched); nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

/-- Each input's current staging buffer holds its block at every point, fetched there or not. -/
theorem before1_0 (c : Dev nD) (t : Fin cfg1.N) (d) : (dat1 V c).before 0 t d = iblk1 V c 0 t :=
  holds_x_of V (dat1 V c) (A_eq1 V c 0) (after1_0 V c) t d
theorem before1_1 (c : Dev nD) (t : Fin cfg1.N) (d) : (dat1 V c).before 1 t d = iblk1 V c 1 t :=
  holds_g_of V (dat1 V c) (A_eq1 V c 1) (after1_1 V c) t d

/-! ## The body obligation, at a generic point -/

/-- What the body is called with at point `t` (the obligation's precondition, the windows one by one), -/
def scalePre (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def scalePost (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' memrefs hold their blocks, so the triple applies; the invariant and the core's
    dues pass through unread. -/
theorem scale_body (c : Dev nD) (t : Fin cfg1.N) :
    scalePre V c t ⊢ wp frame (wpE (defs₀ (F := F)) Variants.none c none) Set.univ (bodyAt1 t) (fun _ => scalePost V c t) := by
  unfold scalePre scalePost bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (scale_kernel_triple c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation1 (c : Dev nD) : BodyObligation (dat1 (F := F) V c) (defs₀ (F := F)) Variants.none () Set.univ := fun t => by
  rw [bigSep_W1, bigSep_W1]
  exact scale_body V c t

end Cert.KernelIdeal.Scale

end
-- ==== Proof.Run.lean ====
/-
  The run of @main over its four segments: the three reshapes that flatten the input planes and give the two bias
  vectors a leading axis, the pooling region, the scaling region, and the reshape of the scaled array back to four axes.
  The contents of core c's unscoped buffers at each segment boundary are a fold from the launch memory; each region is
  entered from every unscoped buffer held at its boundary's contents and left at the next boundary's; the launch runs
  the segments in order, and at the end every unscoped buffer is read off the last boundary's contents. From that:
  the five argument arrays end as launched, and the result array is the reshape of what the scaling region leaves.
-/
import proofs.«171454_j49709951484604_2_alg».proof.Proof.PoolBody
import proofs.«171454_j49709951484604_2_alg».proof.Proof.ScaleBody
import proofs.«171454_j49709951484604_2_alg».proof.Proof.Gen.KernelIdeal.Regions

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The buffer contents at each segment boundary: a fold through @main -/

/-- Core c's buffers at launch. -/
abbrev W0 (m : (ℓ : Loc nD τ sig) → Buf (Elt F) ℓ) (ρ : Dev nD → PrngReg) : Dev nD → Valuation τ sig (Elt F) :=
  fun c b => m ((c : Dev nD), b)
/-- After the three reshapes (the pooling region's entry). -/
abbrev W1 (m : (ℓ : Loc nD τ sig) → Buf (Elt F) ℓ) (ρ : Dev nD → PrngReg) : Dev nD → Valuation τ sig (Elt F) :=
  fun c => StableHlo.after hostOps0 (W0 m ρ c)
/-- The same read at the TensorCore's references (what the pooling region's proof data take). -/
abbrev V1 (m : (ℓ : Loc nD τ sig) → Buf (Elt F) ℓ) (ρ : Dev nD → PrngReg) :
    (c : Dev nD) → (b : Ref sig .tc) → Buf (Elt F) ((c : Thread nD τ).loc b) := fun c b => W1 m ρ c b
/-- At the pooling region's exit: its arrays at what the pipeline leaves (the inputs as entered, the gate array's
    write-backs folded), every other buffer as entered. -/
def W2 (m : (ℓ : Loc nD τ sig) → Buf (Elt F) ℓ) (ρ : Dev nD → PrngReg) (c : Dev nD) : Valuation τ sig (Elt F) :=
  Pipeline.withArrays spec0 c (W1 m ρ c) fun w => (Pool.dat0 (V1 m ρ) c).arrAt w cfg0.N
/-- The same read at the TensorCore's references (what the scaling region's proof data take). -/
abbrev V2 (m : (ℓ : Loc nD τ sig) → Buf (Elt F) ℓ) (ρ : Dev nD → PrngReg) :
    (c : Dev nD) → (b : Ref sig .tc) → Buf (Elt F) ((c : Thread nD τ).loc b) := fun c b => W2 m ρ c b
/-- At the scaling region's exit: its arrays at what the pipeline leaves, every other buffer as entered. -/
def W3 (m : (ℓ : Loc nD τ sig) → Buf (Elt F) ℓ) (ρ : Dev nD → PrngReg) (c : Dev nD) : Valuation τ sig (Elt F) :=
  Pipeline.withArrays spec1 c (W2 m ρ c) fun w => (Scale.dat1 (V2 m ρ) c).arrAt w cfg1.N
/-- The same read at the TensorCore's references (the scaling region's exit contents). -/
abbrev V3 (m : (ℓ : Loc nD τ sig) → Buf (Elt F) ℓ) (ρ : Dev nD → PrngReg) :
    (c : Dev nD) → (b : Ref sig .tc) → Buf (Elt F) ((c : Thread nD τ).loc b) := fun c b => W3 m ρ c b
/-- After the last reshape (what the launch reads at the end). -/
abbrev W4 (m : (ℓ : Loc nD τ sig) → Buf (Elt F) ℓ) (ρ : Dev nD → PrngReg) : Dev nD → Valuation τ sig (Elt F) :=
  fun c => StableHlo.after hostOps2 (W3 m ρ c)

variable (m : (ℓ : Loc nD τ sig) → Buf (Elt F) ℓ) (ρ : Dev nD → PrngReg)

theorem W2_arr (c : Dev nD) (w : Fin cfg0.W) :
    W2 m ρ c (Proc.devRef .tc (Pipeline.arrRef spec0 w)) = (Pool.dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- At the pooling region's exit each of its arrays holds what the pipeline leaves and every other buffer what it
    held at entry. -/
theorem hF0 (c : Dev nD) (w : Fin cfg0.W) : (Pool.dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

theorem W3_arr (c : Dev nD) (w : Fin cfg1.W) :
    W3 m ρ c (Proc.devRef .tc (Pipeline.arrRef spec1 w)) = (Scale.dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- The same for the scaling region. -/
theorem hF1 (c : Dev nD) (w : Fin cfg1.W) : (Scale.dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- A reference the last reshape does not write keeps its contents across it. -/
theorem W4_of (c : Dev nD) (r : Ref sig .tc) (h : r ∉ hostOps2_W) : W4 m ρ c (Proc.devRef .tc r) = W3 m ρ c (Proc.devRef .tc r) :=
  StableHlo.after_of_writes_sub hostOps2 _ hostOps2_writes h
/-- A reference the three first reshapes do not write keeps its launch contents across them. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h

/-! ## What each boundary holds, reference by reference -/

/-- The pooling region's arrays that are inputs keep their entry contents. -/
theorem W2_in (c : Dev nD) (w : Fin cfg0.W) (hin : (cfg0.win w).isOut = false) :
    W2 m ρ c (Proc.devRef .tc (Pipeline.arrRef spec0 w)) = W1 m ρ c (Proc.devRef .tc (Pipeline.arrRef spec0 w)) :=
  (W2_arr m ρ c w).trans (((Pool.dat0 (V1 m ρ) c).arrAt_in w hin _).trans (Pool.A_eq0 (V1 m ρ) c w))
/-- The scaling region's arrays that are inputs keep their entry contents. -/
theorem W3_in (c : Dev nD) (w : Fin cfg1.W) (hin : (cfg1.win w).isOut = false) :
    W3 m ρ c (Proc.devRef .tc (Pipeline.arrRef spec1 w)) = W2 m ρ c (Proc.devRef .tc (Pipeline.arrRef spec1 w)) :=
  (W3_arr m ρ c w).trans (((Scale.dat1 (V2 m ρ) c).arrAt_in w hin _).trans (Scale.A_eq1 (V2 m ρ) c w))

/-- The gate array at the pooling region's exit: its write-backs folded. -/
theorem W2_v3 (c : Dev nD) : W2 m ρ c (Proc.devRef .tc main_call0_v3) = (Pool.dat0 (V1 m ρ) c).arrAt 5 cfg0.N :=
  W2_arr m ρ c 5
/-- The scaled array at the scaling region's exit: its write-backs folded. -/
theorem W3_v4 (c : Dev nD) : W3 m ρ c (Proc.devRef .tc main_call0_v4) = (Scale.dat1 (V2 m ρ) c).arrAt 2 cfg1.N :=
  W3_arr m ρ c 2

/-- The pooling region leaves every buffer that is none of its arrays as entered, -/
theorem W2_keep (c : Dev nD) (b : Ref sig .tc) (hb : ∀ w, Pipeline.arrRef spec0 w ≠ b) :
    W2 m ρ c (Proc.devRef .tc b) = W1 m ρ c (Proc.devRef .tc b) := W2_of_ne m ρ c b hb
/-- and its five input arrays too. -/
theorem W2_keep_main_call0_v0 (c : Dev nD) : W2 m ρ c (Proc.devRef .tc main_call0_v0) = W1 m ρ c (Proc.devRef .tc main_call0_v0) :=
  W2_in m ρ c 0 rfl
theorem W2_keep_main_arg1 (c : Dev nD) : W2 m ρ c (Proc.devRef .tc main_arg1) = W1 m ρ c (Proc.devRef .tc main_arg1) :=
  W2_in m ρ c 1 rfl
theorem W2_keep_main_call0_v1 (c : Dev nD) : W2 m ρ c (Proc.devRef .tc main_call0_v1) = W1 m ρ c (Proc.devRef .tc main_call0_v1) :=
  W2_in m ρ c 2 rfl
theorem W2_keep_main_arg3 (c : Dev nD) : W2 m ρ c (Proc.devRef .tc main_arg3) = W1 m ρ c (Proc.devRef .tc main_arg3) :=
  W2_in m ρ c 3 rfl
theorem W2_keep_main_call0_v2 (c : Dev nD) : W2 m ρ c (Proc.devRef .tc main_call0_v2) = W1 m ρ c (Proc.devRef .tc main_call0_v2) :=
  W2_in m ρ c 4 rfl

/-- The result array is the scaled array, its flattened planes read back as 64 × 64. -/
theorem W4_v0 (c : Dev nD) :
    (W4 m ρ c (Proc.devRef .tc main_v0) : S32x256x64x64.Idx → Elt F .f32)
      = shapeCast S32x256x64x64 (W3 m ρ c (Proc.devRef .tc main_call0_v4) : S32x256x4096.Idx → Elt F .f32)
          shapeCasts_S32x256x4096_S32x256x64x64 := by
  show StableHlo.after hostOps2 (W3 m ρ c) (Proc.devRef .tc main_v0) = _
  after_results; rfl

/-- The pooling region's first operand is the input with its planes flattened. -/
theorem W1_v0 (c : Dev nD) :
    (W1 m ρ c (Proc.devRef .tc main_call0_v0) : S32x256x4096.Idx → Elt F .f32)
      = shapeCast S32x256x4096 (m ((c : Thread nD τ).loc main_arg0) : S32x256x64x64.Idx → Elt F .f32)
          shapeCasts_S32x256x64x64_S32x256x4096 := by
  show StableHlo.after hostOps0 (W0 m ρ c) (Proc.devRef .tc main_call0_v0) = _
  after_results; rfl
/-- The first bias as a row. -/
theorem W1_v1 (c : Dev nD) :
    (W1 m ρ c (Proc.devRef .tc main_call0_v1) : S1x32.Idx → Elt F .f32)
      = shapeCast S1x32 (m ((c : Thread nD τ).loc main_arg2) : S32.Idx → Elt F .f32) shapeCasts_S32_S1x32 := by
  show StableHlo.after hostOps0 (W0 m ρ c) (Proc.devRef .tc main_call0_v1) = _
  after_results; rfl
/-- The second bias as a row. -/
theorem W1_v2 (c : Dev nD) :
    (W1 m ρ c (Proc.devRef .tc main_call0_v2) : S1x256.Idx → Elt F .f32)
      = shapeCast S1x256 (m ((c : Thread nD τ).loc main_arg4) : S256.Idx → Elt F .f32) shapeCasts_S256_S1x256 := by
  show StableHlo.after hostOps0 (W0 m ρ c) (Proc.devRef .tc main_call0_v2) = _
  after_results; rfl
/-- The two weight matrices reach the pooling region as launched. -/
theorem W1_arg1 (c : Dev nD) : W1 m ρ c (Proc.devRef .tc main_arg1) = m ((c : Thread nD τ).loc main_arg1) :=
  (W1_of m ρ c main_arg1 (by decide)).trans rfl
theorem W1_arg3 (c : Dev nD) : W1 m ρ c (Proc.devRef .tc main_arg3) = m ((c : Thread nD τ).loc main_arg3) :=
  (W1_of m ρ c main_arg3 (by decide)).trans rfl

/-! ### The arguments end as launched: no reshape writes one, and a region reads it through an input window or
    bypasses it -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of m ρ c main_arg0 (by decide)
    _ = W2 m ρ c (Proc.devRef .tc main_arg0) := W3_of_ne m ρ c main_arg0 (by decide)
    _ = W1 m ρ c (Proc.devRef .tc main_arg0) := W2_of_ne m ρ c main_arg0 (by decide)
    _ = W0 m ρ c (Proc.devRef .tc main_arg0) := W1_of m ρ c main_arg0 (by decide)
    _ = m ((c : Thread nD τ).loc main_arg0) := rfl
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of m ρ c main_arg1 (by decide)
    _ = W2 m ρ c (Proc.devRef .tc main_arg1) := W3_of_ne m ρ c main_arg1 (by decide)
    _ = W1 m ρ c (Proc.devRef .tc main_arg1) := W2_keep_main_arg1 m ρ c
    _ = m ((c : Thread nD τ).loc main_arg1) := W1_arg1 m ρ c
theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of m ρ c main_arg2 (by decide)
    _ = W2 m ρ c (Proc.devRef .tc main_arg2) := W3_of_ne m ρ c main_arg2 (by decide)
    _ = W1 m ρ c (Proc.devRef .tc main_arg2) := W2_of_ne m ρ c main_arg2 (by decide)
    _ = W0 m ρ c (Proc.devRef .tc main_arg2) := W1_of m ρ c main_arg2 (by decide)
    _ = m ((c : Thread nD τ).loc main_arg2) := rfl
theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of m ρ c main_arg3 (by decide)
    _ = W2 m ρ c (Proc.devRef .tc main_arg3) := W3_of_ne m ρ c main_arg3 (by decide)
    _ = W1 m ρ c (Proc.devRef .tc main_arg3) := W2_keep_main_arg3 m ρ c
    _ = m ((c : Thread nD τ).loc main_arg3) := W1_arg3 m ρ c
theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of m ρ c main_arg4 (by decide)
    _ = W2 m ρ c (Proc.devRef .tc main_arg4) := W3_of_ne m ρ c main_arg4 (by decide)
    _ = W1 m ρ c (Proc.devRef .tc main_arg4) := W2_of_ne m ρ c main_arg4 (by decide)
    _ = W0 m ρ c (Proc.devRef .tc main_arg4) := W1_of m ρ c main_arg4 (by decide)
    _ = m ((c : Thread nD τ).loc main_arg4) := rfl

/-! ## The proof data family and the thread state -/

/-- Every pipeline's proof data, each at its region's entry contents: a literal match, so that the library's pinned
    configuration at a numeral reduces to the printed one. -/
def pdats : (p : Fin 2) → (c : Dev nD) → Dat τ (Elt F) Unit ℕ (UR sig nD τ) ℕ (Pipeline.pin (pcfgs (F := F)) adm p) c
  | ⟨0, _⟩ => fun c => Pool.dat0 (V1 m ρ) c
  | ⟨1, _⟩ => fun c => Scale.dat1 (V2 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (a region's
    invariant takes it in and gives it back) and what the core owes, which is nothing. -/
abbrev R (c : Dev nD) : sProp 𝕄 := iprop((∃ r, prngReg c r) ∗ ∃ W, owes (c : Thread nD τ) (0 : CellTallies nD τ sig Unit) W)
/-- A stretch of host operations as a segment over the unscoped references from the contents W, R riding along: it
    ends with those references at the contents the operations leave, the next boundary's by name. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what the core owes: every unscoped buffer at the last boundary's contents, the
    generator register at some state. -/
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- THE POOLING REGION over the thread state: entered from every unscoped buffer at W1, left at W2. Its arrays are
    split out of the unscoped buffers and put back at the exit contents; the generator register and the scoped buffers
    no window stages go into the region's invariant (which carries the accumulator between grid points) and come back;
    nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (Pool.body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (Pool.hin0 (V1 m ρ) c)
    unfold Pipeline.ΦA
    iintro ⟨Hp, -, Hr⟩
    isplitl [Hr]; · iexact Hr
    iexact Hp
  hout c := by
    refine BIBase.Entails.trans (Pool.hout0 (V1 m ρ) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- THE SCALING REGION over the thread state: entered from every unscoped buffer at W2, left at W3; the invariant is
    the scoped buffers no window stages and the generator register, untouched. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (Scale.body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- The last segment's exit state is the last thread state beside the core owing nothing (the same three conjuncts,
    regrouped). -/
theorem last_link (c : Dev nD) :
    iprop(StableHlo.held (c : Thread nD τ) (Pipeline.ucRefs τ sig) (W4 m ρ c) ∗ R (F := F) c)
      ⊢ iprop(Tₙ m ρ c ∗ ∃ W, owes (c : Thread nD τ) (0 : CellTallies nD τ sig Unit) W) := by
  iintro ⟨Hh, Hp, HO⟩
  isplitl [Hh Hp]
  · isplitl [Hh]; · iexact Hh
    iexact Hp
  iexact HO

/-- @main's four segments in order: a host segment per stretch from its boundary's contents, a region per kernel. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .host (hseg hostOps2 hostOps2_sub hostOps2_fresh (W3 m ρ)) ]
/-- @main is the run of the segments. -/
theorem main_run (c : Dev nD) : main (F := F) c = Pipeline.Seg.run (segs m ρ) :=
  main_segs adm (pdats m ρ) () 𝒱₀ L lv _ _ (reg0 m ρ) (reg1 m ρ) rfl rfl c

set_option backward.isDefEq.respectTransparency.types false in
/-- THE RUN: from any memory with zero counters every weakly fair execution of @main on the TensorCores terminates,
    nothing faulting, and in every final state each unscoped buffer holds the last boundary's contents: the library's
    launch over the segments, the last thread state read against the final state. -/
theorem run_main : θ_run defs (onTc (τ := τ) (main (F := F))) ⟨m, fun _ => 0, ρ⟩ (fun r => ∀ c : Dev nD,
      ∀ b ∈ Pipeline.ucRefs τ sig, r.2.mem ((c : Thread nD τ).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => last_link m ρ c⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-- THE FRAME: every weakly fair execution of @main terminates, nothing faulting, and every final state has the five
    argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c)⟩) (run_main m ρ)

end Cert.KernelIdeal.Run

end
-- ==== Proof.PoolArr.lean ====
/-
  The gate array after the pooling region: the output window's blocks are written back at the two last tiles (one per
  batch half), block `i` being rows 16i … 16i+15; so row `b` of the array is row `b % 16` of the gate block stored at
  the last tile of half `b / 16`.
-/
import proofs.«171454_j49709951484604_2_alg».proof.Proof.PoolBody
import Idealize.ShloMosaic.Lib.ValueIdx

set_option maxRecDepth 16384

noncomputable section

namespace Cert.KernelIdeal.Pool

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The gate block of position `n`, the position a natural number. -/
def gateRow (c : Dev nD) (n : ℕ) (hn : n < cfg0.N) : Vec F S16x256 .f32 := gateAt V c ⟨n, hn⟩

theorem gateRow_congr (c : Dev nD) {n n' : ℕ} (h : n = n') (hn : n < cfg0.N) (hn' : n' < cfg0.N) {y y' : S16x256.Idx} (hy : y = y') :
    gateRow V c n hn y = gateRow V c n' hn' y' := by
  subst h; subst hy; rfl

/-- The whole gate array: row `b` is row `b % 16` of the block stored at the last tile of batch half `b / 16`. -/
theorem lastTile_lt (i : S32x256.Idx) : 4 * ((i 0).val / 16) + 3 < cfg0.N := by
  have h : (i 0).val < 32 := (i 0).isLt
  have hN : cfg0.N = 8 := N_0
  omega

def gateArr (c : Dev nD) : S32x256.Idx → Elt F .f32 := fun i =>
  gateRow V c (4 * ((i 0).val / 16) + 3) (lastTile_lt i)
    (ValueIdx.ix2 (⟨(i 0).val % 16, Nat.mod_lt _ (by decide)⟩ : Fin 16) (⟨(i 1).val, (i 1).isLt⟩ : Fin 256))

/-- The output window's block index at every point: the batch half along the rows, 0 along the channels. -/
theorem idx_facts5 : ∀ t : Fin cfg0.N, win0_5.index t (0 : Fin 2) = t.val / 4 ∧ win0_5.index t (1 : Fin 2) = 0 :=
  (by decide +kernel : ∀ t : Fin grid0.N, win0_5.index t (0 : Fin 2) = t.val / 4 ∧ win0_5.index t (1 : Fin 2) = 0)

/-- What a last tile writes back is its block of the whole gate array. -/
theorem flushed5_eq (c : Dev nD) (t : Fin cfg0.N) (hf : (cfg0.win 5).flush t = true) :
    (dat0 V c).flushed 5 t = ((cfg0.win 5).blk t).view.read (Elt F) (gateArr V c) := by
  have h3 : t.val % 4 = 3 := (flush0_5 t).mp hf
  have hN : t.val < 8 := lt_of_lt_of_eq t.isLt (show cfg0.N = 8 from N_0)
  obtain ⟨e0, e1⟩ := idx_facts5 t
  show (cfg0.win 5).cut (grid0.coords t) ((dat0 V c).after 5 t) = _
  rw [after0_5]
  funext j
  show gateAt V c t j = gateArr V c (((cfg0.win 5).blk t).view.emb j)
  have hj0 : (j 0).val < 16 := (j 0).isLt
  have hj1 : (j 1).val < 256 := (j 1).isLt
  have h0 : ((((cfg0.win 5).blk t).view.emb j) 0).val = win0_5.index t (0 : Fin 2) * 16 + 1 * (j 0).val := rfl
  have h1 : ((((cfg0.win 5).blk t).view.emb j) 1).val = win0_5.index t (1 : Fin 2) * 256 + 1 * (j 1).val := rfl
  unfold gateArr
  refine (gateRow_congr V c (n := t.val) ?_ t.isLt _ ?_)
  · rw [h0, e0]; omega
  · funext a
    match a with
    | ⟨0, _⟩ => apply Fin.ext; show (j 0).val = ((((cfg0.win 5).blk t).view.emb j) 0).val % 16; rw [h0, e0]; omega
    | ⟨1, _⟩ => apply Fin.ext; show (j 1).val = ((((cfg0.win 5).blk t).view.emb j) 1).val; rw [h1, e1]; omega

/-- An index of the gate array is in point `t`'s block iff each coordinate is in the block's range on its axis. -/
theorem mem_blk5 (t : Fin cfg0.N) (i : S32x256.Idx) :
    i ∈ ((cfg0.win 5).blk t).view.set ↔ ∀ a : Fin 2, win0_5.index t a * S16x256.size a ≤ (i a).val ∧ (i a).val < win0_5.index t a * S16x256.size a + S16x256.size a := by
  show i ∈ ((View.whole main_call0_v3).slice (win0_5.rect t)).set ↔ _
  rw [View.set_slice_whole, Rect.mem_set_unit]
  exact Iff.rfl

/-- Every row is written back by the last tile of its batch half. -/
theorem cover5 (i : S32x256.Idx) : ∃ t : Fin cfg0.N, (cfg0.win 5).flush t = true ∧ i ∈ ((cfg0.win 5).blk t).view.set := by
  have hi0 : (i 0).val < 32 := (i 0).isLt
  have hi1 : (i 1).val < 256 := (i 1).isLt
  have hN : cfg0.N = 8 := N_0
  refine ⟨⟨4 * ((i 0).val / 16) + 3, by omega⟩, (flush0_5 _).mpr (by show (4 * ((i 0).val / 16) + 3) % 4 = 3; omega), ?_⟩
  rw [mem_blk5]
  obtain ⟨e0, e1⟩ := idx_facts5 ⟨4 * ((i 0).val / 16) + 3, by omega⟩
  intro a
  match a with
  | ⟨0, _⟩ =>
    show win0_5.index _ (0 : Fin 2) * 16 ≤ (i 0).val ∧ (i 0).val < win0_5.index _ (0 : Fin 2) * 16 + 16
    rw [e0]; show (4 * ((i 0).val / 16) + 3) / 4 * 16 ≤ (i 0).val ∧ (i 0).val < (4 * ((i 0).val / 16) + 3) / 4 * 16 + 16; omega
  | ⟨1, _⟩ =>
    show win0_5.index _ (1 : Fin 2) * 256 ≤ (i 1).val ∧ (i 1).val < win0_5.index _ (1 : Fin 2) * 256 + 256
    rw [e1]; omega

/-- THE GATE ARRAY after the region. -/
theorem gate_arr (c : Dev nD) : (dat0 V c).arrAt 5 cfg0.N = gateArr V c :=
  (dat0 V c).arrAt_eq_of_cover 5 (gateArr V c) (fun t hf => flushed5_eq V c t hf) cover5

end Cert.KernelIdeal.Pool

end
-- ==== Proof.Spec.lean ====
/-
  The specification both programs are compared with, as one function of the five argument arrays over the extended
  reals: the squeeze-and-excite gate
      mean(b,k)   = (∑ q < 4096, x(b,k,q)) · (1/4096)                      (the spatial mean, the 64×64 plane flattened row-major)
      hidden(b,m) = max (∑ k < 256, mean(b,k) · w1(m,k) + b1(m)) 0         (first dense layer, rectified)
      gate(b,c)   = logistic (∑ m < 32, hidden(b,m) · w2(c,m) + b2(c))     (second dense layer, squashed)
  and the result  x(b,c,h,w) · gate(b,c).  Nothing here mentions a program.
-/
import Idealize.ShloMosaic.PureOps.Ideal
import Idealize.ShloMosaic.Lib.ValueIdx

noncomputable section

namespace Cert.Spec

open Idealize.ShloMosaic Idealize.ShloMosaic.ValueIdx

/-- The five argument shapes. -/
abbrev SX : Shape := ⟨4, ![32, 256, 64, 64]⟩
abbrev SW1 : Shape := ⟨2, ![32, 256]⟩
abbrev SB1 : Shape := ⟨1, ![32]⟩
abbrev SW2 : Shape := ⟨2, ![256, 32]⟩
abbrev SB2 : Shape := ⟨1, ![256]⟩

/-- The spatial mean of channel `k` of sample `b`, the plane given flattened: the sum of its 4096 entries times 1/4096. -/
def mean (X : Fin 32 → Fin 256 → Fin 4096 → EReal) (b : Fin 32) (k : Fin 256) : EReal :=
  (∑ q : Fin 4096, X b k q) * (((1 : ℝ) / 4096 : ℝ) : EReal)

/-- The first dense layer on the means, rectified. -/
def hidden (X : Fin 32 → Fin 256 → Fin 4096 → EReal) (w1 : Fin 32 → Fin 256 → EReal) (b1 : Fin 32 → EReal)
    (b : Fin 32) (m : Fin 32) : EReal :=
  max (∑ k : Fin 256, mean X b k * w1 m k + b1 m) 0

/-- The gate: the second dense layer on the hidden units, through the logistic function. -/
def gate (X : Fin 32 → Fin 256 → Fin 4096 → EReal) (w1 : Fin 32 → Fin 256 → EReal) (b1 : Fin 32 → EReal)
    (w2 : Fin 256 → Fin 32 → EReal) (b2 : Fin 256 → EReal) (b : Fin 32) (c : Fin 256) : EReal :=
  Ideal.logistic (∑ m : Fin 32, hidden X w1 b1 b m * w2 c m + b2 c)

/-- Entry `q` of the flattened 64×64 plane is the plane's entry (q / 64, q % 64). -/
def flat (x : SX.Idx → EReal) (b : Fin 32) (k : Fin 256) (q : Fin 4096) : EReal :=
  x (ix4 b k (⟨q.val / 64, by have := q.isLt; omega⟩ : Fin 64) (⟨q.val % 64, Nat.mod_lt _ (by norm_num)⟩ : Fin 64))

/-- The gate of the argument arrays. -/
def gateOf (x : SX.Idx → EReal) (w1 : SW1.Idx → EReal) (b1 : SB1.Idx → EReal) (w2 : SW2.Idx → EReal) (b2 : SB2.Idx → EReal)
    (b : Fin 32) (c : Fin 256) : EReal :=
  gate (flat x) (fun m k => w1 (ix2 m k)) (fun m => b1 (ix1 m)) (fun c m => w2 (ix2 c m)) (fun c => b2 (ix1 c)) b c

/-- THE RESULT: every entry of `x` scaled by its sample's and channel's gate. -/
def out (x : SX.Idx → EReal) (w1 : SW1.Idx → EReal) (b1 : SB1.Idx → EReal) (w2 : SW2.Idx → EReal) (b2 : SB2.Idx → EReal) :
    SX.Idx → EReal :=
  fun i => x i * gateOf x w1 b1 w2 b2 (i 0) (i 1)

end Cert.Spec

end
-- ==== Proof.PoolValue.lean ====
/-
  The value of the pooling region: what the gate kernel's buffers hold, as extended reals, in terms of the arrays the
  region is entered with. The input window's block at grid point t = 4·i + j is rows 16·i … 16·i + 15 and positions
  1024·j … 1024·j + 1023 of the flattened input; the weight windows' blocks are the whole weight arrays. The
  accumulator gathers, tile by tile, the lane sums of a batch half's four tiles, so at the last tile it holds every
  channel's sum over all 4096 positions; the gate payload scales it by 1/4096 and sends it through the two dense
  layers, the rectifier and the logistic function. Entry (p, ch) of the gate block stored at a last tile is therefore
  the specification's gate at sample 16·i + p and channel ch (`gateAt_apply`).
-/
import proofs.«171454_j49709951484604_2_alg».proof.Proof.PoolDefs
import proofs.«171454_j49709951484604_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.PoolValue

open Idealize.ShloMosaic Idealize.ShloMosaic.TcCoe Idealize.ShloMosaic.ValueIdx
open Idealize.SL.Sem
open Cert.KernelIdeal Cert.KernelIdeal.Gen Cert.KernelIdeal.Pool
open scoped BigOperators

/-! ## Sums over a run of tiles -/

/-- A sum over `K` consecutive tiles of length `T`, taken tile by tile, is the sum over the whole run. -/
theorem sum_tiles {M : Type*} [AddCommMonoid M] (g : ℕ → M) (T : ℕ) :
    ∀ K : ℕ, ∑ s ∈ Finset.range K, ∑ l ∈ Finset.range T, g (T * s + l) = ∑ q ∈ Finset.range (K * T), g q
  | 0 => by simp
  | K + 1 => by
    rw [Finset.sum_range_succ, sum_tiles g T K, Nat.succ_mul, Finset.sum_range_add, Nat.mul_comm T K]

/-! ## The blocks the gate kernel reads, as entries of the arrays -/

/-- The printed index maps at every point of the 2 × 4 grid: the input block is at (batch half, 0, spatial tile),
    the four weight blocks are the whole arrays. -/
theorem idx_facts : ∀ t : Fin cfg0.N,
    win0_0.index t (0 : Fin 3) = t.val / 4 ∧ win0_0.index t (1 : Fin 3) = 0 ∧ win0_0.index t (2 : Fin 3) = t.val % 4
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0 :=
  (by decide +kernel : ∀ t : Fin grid0.N, _)

theorem point_lt (t : Fin cfg0.N) : t.val < 8 :=
  Nat.lt_of_lt_of_eq t.isLt (show cfg0.N = 8 from N_0)

/-- The sample a row of a batch half's block belongs to is one of the 32. -/
theorem sample_lt (t : Fin cfg0.N) (p : Fin 16) : 16 * (t.val / 4) + p.val < 32 := by
  have := point_lt t; have := p.isLt; omega

variable (V : (c : Dev nD) → (b : Ref sig .tc) → Buf (Elt Ideal) ((c : Thread nD τ).loc b))

/-- The five arrays the region is entered with, read at coordinates: the flattened input, the two weight matrices and
    the two bias rows. -/
abbrev inX (c : Dev nD) : Fin 32 → Fin 256 → Fin 4096 → EReal := fun b k q => V c main_call0_v0 (ix3 b k q)
abbrev inW1 (c : Dev nD) : Fin 32 → Fin 256 → EReal := fun m k => V c main_arg1 (ix2 m k)
abbrev inB1 (c : Dev nD) : Fin 32 → EReal := fun m => V c main_call0_v1 (ix2 (0 : Fin 1) m)
abbrev inW2 (c : Dev nD) : Fin 256 → Fin 32 → EReal := fun cc m => V c main_arg3 (ix2 cc m)
abbrev inB2 (c : Dev nD) : Fin 256 → EReal := fun cc => V c main_call0_v2 (ix2 (0 : Fin 1) cc)

/-- The flattened input at natural coordinates (zero outside the array, which no sum below reaches). -/
def xAt (c : Dev nD) (b k q : ℕ) : EReal :=
  if h : b < 32 ∧ k < 256 ∧ q < 4096 then inX V c ⟨b, h.1⟩ ⟨k, h.2.1⟩ ⟨q, h.2.2⟩ else 0

theorem xAt_of_lt (c : Dev nD) (b : Fin 32) (k : Fin 256) (q : Fin 4096) :
    xAt V c b.val k.val q.val = inX V c b k q := by
  unfold xAt; rw [dif_pos ⟨b.isLt, k.isLt, q.isLt⟩]

/-- The input block at point `t` holds, at (p, k, l), the flattened input at sample 16·(t/4) + p, channel k,
    position 1024·(t%4) + l. -/
theorem iblk0_x (c : Dev nD) (t : Fin cfg0.N) (p : Fin 16) (k : Fin 256) (l : Fin 1024) :
    (iblk0 (F := Ideal) V c 0 t : Vec Ideal S16x256x1024 .f32) (ix3 p k l)
      = xAt V c (16 * (t.val / 4) + p.val) k.val (1024 * (t.val % 4) + l.val) := by
  obtain ⟨e0, e1, e2, -⟩ := idx_facts t
  have ht := point_lt t
  have hp := p.isLt; have hk := k.isLt; have hl := l.isLt
  unfold xAt
  rw [dif_pos ⟨by omega, hk, by omega⟩]
  unfold iblk0
  rw [View.read_apply]
  show (V c main_call0_v0 : S32x256x4096.Idx → EReal) _ = (V c main_call0_v0 : S32x256x4096.Idx → EReal) _
  congr 1
  funext a
  apply Fin.ext
  match a with
  | ⟨0, _⟩ => show win0_0.index t (0 : Fin 3) * 16 + 1 * p.val = 16 * (t.val / 4) + p.val; rw [e0]; omega
  | ⟨1, _⟩ => show win0_0.index t (1 : Fin 3) * 256 + 1 * k.val = k.val; rw [e1]; omega
  | ⟨2, _⟩ => show win0_0.index t (2 : Fin 3) * 1024 + 1 * l.val = 1024 * (t.val % 4) + l.val; rw [e2]; omega

/-! ## The two accumulator payloads at an entry -/

/-- The zero block is zero everywhere. -/
theorem pay1_apply (j : S16x256.Idx) : k0_pay1 (F := Ideal) j = 0 := by
  unfold k0_pay1
  simp only [shapeCast_self]
  exact Ideal.ofBits_zero_f32

/-- Summing a block's last axis away: entry (p, k) of the lane sums is the sum over the 1024 lanes. -/
theorem laneSum_apply (x : Vec Ideal S16x256x1024 .f32) (hφ : FKind.Formats .f32)
    (hacc : (0x00000000#32 : BitVec 32) = FKind.add.neutral .f32 hφ) (p : Fin 16) (k : Fin 256) :
    multiReduction (F := Ideal) .add [2] S16x256 x 0x00000000#32 reduces_S16x256x1024_S16x256 hφ hacc (ix2 p k)
      = ∑ l : Fin 1024, x (ix3 p k l) := by
  refine (Ideal.multiReduction_add_single x 0x00000000#32 reduces_S16x256x1024_S16x256 hφ hacc (ix2 p k)).trans ?_
  show ∑ l : Fin 1024, x (reduces_S16x256x1024_S16x256.lift (ix2 p k) l) = _
  refine Finset.sum_congr rfl fun l _ => congrArg x ?_
  funext a
  match a with
  | ⟨0, _⟩ => rfl
  | ⟨1, _⟩ => rfl
  | ⟨2, _⟩ => rfl

/-- The accumulating payload at (p, k): what the accumulator held there plus the tile's sum over its 1024 lanes. -/
theorem pay2_apply (acc : Vec Ideal S16x256 .f32) (x : Vec Ideal S16x256x1024 .f32) (p : Fin 16) (k : Fin 256) :
    k0_pay2 (F := Ideal) acc x (ix2 p k) = acc (ix2 p k) + ∑ l : Fin 1024, x (ix3 p k l) := by
  unfold k0_pay2
  simp only [shapeCast_self]
  rw [addf_apply]
  exact congrArg (acc (ix2 p k) + ·) (laneSum_apply x _ _ p k)

/-! ## The accumulator over a batch half's four tiles -/

/-- One tile added: the accumulating payload over point `t`'s input block, at (p, k). -/
theorem step_apply (c : Dev nD) (acc : Vec Ideal S16x256 .f32) (t : Fin cfg0.N) (p : Fin 16) (k : Fin 256) :
    k0_pay2 (F := Ideal) acc (iblk0 (F := Ideal) V c 0 t) (ix2 p k)
      = acc (ix2 p k)
        + ∑ l ∈ Finset.range 1024, xAt V c (16 * (t.val / 4) + p.val) k.val (1024 * (t.val % 4) + l) := by
  refine (pay2_apply acc (iblk0 (F := Ideal) V c 0 t) p k).trans ?_
  refine congrArg (acc (ix2 p k) + ·) ?_
  refine Eq.trans ?_ (Fin.sum_univ_eq_sum_range
    (fun l => xAt V c (16 * (t.val / 4) + p.val) k.val (1024 * (t.val % 4) + l)) 1024)
  exact Finset.sum_congr rfl fun l _ => iblk0_x V c t p k l

/-- After the body at position `n` the accumulator holds, at (p, k), the sums of tiles 0 … n % 4 of batch half n / 4:
    a first tile starts from zero, a later one adds to what the point before left. -/
theorem accAt_apply (c : Dev nD) (p : Fin 16) (k : Fin 256) : ∀ (n : ℕ) (hn : n < cfg0.N),
    accAt (F := Ideal) V c n hn (ix2 p k)
      = ∑ s ∈ Finset.range (n % 4 + 1), ∑ l ∈ Finset.range 1024,
          xAt V c (16 * (n / 4) + p.val) k.val (1024 * s + l)
  | 0, hn => by
    rw [accAt, step_apply, pay1_apply, zero_add]
    show _ = ∑ s ∈ Finset.range 1, _
    rw [Finset.sum_range_one]
    rfl
  | n + 1, hn => by
    rw [accAt]
    split_ifs with h
    · rw [step_apply, pay1_apply, zero_add]
      show ∑ l ∈ Finset.range 1024, xAt V c (16 * ((n + 1) / 4) + p.val) k.val (1024 * ((n + 1) % 4) + l) = _
      rw [h]
      show _ = ∑ s ∈ Finset.range 1, _
      rw [Finset.sum_range_one]
    · rw [step_apply, accAt_apply c p k n (Nat.lt_of_succ_lt hn)]
      have h1 : (n + 1) / 4 = n / 4 := by omega
      have h2 : (n + 1) % 4 = n % 4 + 1 := by omega
      show _ + ∑ l ∈ Finset.range 1024, xAt V c (16 * ((n + 1) / 4) + p.val) k.val (1024 * ((n + 1) % 4) + l) = _
      rw [h1, h2, Finset.sum_range_succ _ (n % 4 + 1)]

/-- At a last tile the accumulator holds the channel's whole spatial sum: the four tiles are the 4096 positions. -/
theorem accAt_last (c : Dev nD) (t : Fin cfg0.N) (ht : t.val % 4 = 3) (p : Fin 16) (k : Fin 256)
    (hb : 16 * (t.val / 4) + p.val < 32) :
    accAt (F := Ideal) V c t.val t.isLt (ix2 p k)
      = ∑ q : Fin 4096, inX V c ⟨16 * (t.val / 4) + p.val, hb⟩ k q := by
  rw [accAt_apply V c p k t.val t.isLt, ht]
  refine (sum_tiles (fun q => xAt V c (16 * (t.val / 4) + p.val) k.val q) 1024 4).trans ?_
  refine (Fin.sum_univ_eq_sum_range (fun q => xAt V c (16 * (t.val / 4) + p.val) k.val q) 4096).symm.trans ?_
  exact Finset.sum_congr rfl fun q _ => xAt_of_lt V c ⟨_, hb⟩ k q

/-! ## The gate payload at an entry -/

/-- The float the pooled sums are scaled by, 2⁻¹², is the real 1/4096. -/
theorem ofBits_inv4096 : Ideal.ofBits .f32 0x39800000#32 = (((1 : ℝ) / 4096 : ℝ) : EReal) := by
  simp [Ideal.ofBits, Ideal.ieee, -EReal.coe_mul]; norm_num

/-- The logistic function of a vector, entry by entry. -/
theorem logistic_apply {s : Shape} {φ : FTy} (x : FVec Ideal s φ) (i : s.Idx) : logistic x i = Ideal.logistic (x i) := rfl

/-- The first weight matrix transposed: entry (k, m) is the matrix's entry (m, k). -/
theorem w1T_apply (w1 : Vec Ideal S32x256 .f32) (k : Fin 256) (m : Fin 32) :
    (transpose S256x32 [1, 0] w1 transposes_S32x256_p1_0_S256x32 : FVec Ideal S256x32 .f32) (ix2 k m) = w1 (ix2 m k) :=
  transpose_ix2_apply w1 transposes_S32x256_p1_0_S256x32 k m

/-- The second weight matrix transposed: entry (m, ch) is the matrix's entry (ch, m). -/
theorem w2T_apply (w2 : Vec Ideal S256x32 .f32) (m : Fin 32) (ch : Fin 256) :
    (transpose S32x256 [1, 0] w2 transposes_S256x32_p1_0_S32x256 : FVec Ideal S32x256 .f32) (ix2 m ch) = w2 (ix2 ch m) :=
  transpose_ix2_apply w2 transposes_S256x32_p1_0_S32x256 m ch

theorem dense1_lhs0 (j : S16x32.Idx) (q : dot_S16x256_S256x32_S16x32_1_0_0_1_n_n.contr.Idx) : (dot_S16x256_S256x32_S16x32_1_0_0_1_n_n.lhsIdx j q 0).val = (j 0).val := by
  unfold DotDims.lhsIdx
  rw [dif_neg (show ¬(0 : Fin S16x256.rank) ∈ dot_S16x256_S256x32_S16x32_1_0_0_1_n_n.lhsBatch by decide),
    dif_pos (show (0 : Fin S16x256.rank) ∈ dot_S16x256_S256x32_S16x32_1_0_0_1_n_n.lhsNonContracting by decide)]
  rfl
theorem dense1_lhs1 (j : S16x32.Idx) (q : dot_S16x256_S256x32_S16x32_1_0_0_1_n_n.contr.Idx) : (dot_S16x256_S256x32_S16x32_1_0_0_1_n_n.lhsIdx j q 1).val = (q ⟨0, by decide⟩).val :=
  dot_S16x256_S256x32_S16x32_1_0_0_1_n_n.lhsIdx_val_of_single rfl j q
theorem dense1_rhs0 (j : S16x32.Idx) (q : dot_S16x256_S256x32_S16x32_1_0_0_1_n_n.contr.Idx) : (dot_S16x256_S256x32_S16x32_1_0_0_1_n_n.rhsIdx j q 0).val = (q ⟨0, by decide⟩).val :=
  dot_S16x256_S256x32_S16x32_1_0_0_1_n_n.rhsIdx_val_of_single rfl j q
theorem dense1_rhs1 (j : S16x32.Idx) (q : dot_S16x256_S256x32_S16x32_1_0_0_1_n_n.contr.Idx) : (dot_S16x256_S256x32_S16x32_1_0_0_1_n_n.rhsIdx j q 1).val = (j 1).val := by
  unfold DotDims.rhsIdx
  rw [dif_neg (show ¬(1 : Fin S256x32.rank) ∈ dot_S16x256_S256x32_S16x32_1_0_0_1_n_n.rhsBatch by decide),
    dif_pos (show (1 : Fin S256x32.rank) ∈ dot_S16x256_S256x32_S16x32_1_0_0_1_n_n.rhsNonContracting by decide)]
  rfl

/-- The first dense layer's product at (p, m): the sum over the 256 channels of the input's entry (p, k) times the
    weight's entry (k, m). -/
theorem dense1_apply (a : FVec Ideal S16x256 .f32) (w : FVec Ideal S256x32 .f32) (p : Fin 16) (m : Fin 32) :
    matmul (F := Ideal) dot_S16x256_S256x32_S16x32_1_0_0_1_n_n (some .fp32) a w (constant (F := Ideal) S16x32 .f32 0x00000000#32) (ix2 p m)
      = ∑ k : Fin 256, a (ix2 p k) * w (ix2 k m) := by
  simp only [matmul]
  rw [Ideal.matmul_constant_zero_apply, ← Equiv.sum_comp (contrEquiv1 dot_S16x256_S256x32_S16x32_1_0_0_1_n_n 256 rfl rfl).symm]
  refine Finset.sum_congr rfl fun k _ => ?_
  have hk := contrEquiv1_symm_val dot_S16x256_S256x32_S16x32_1_0_0_1_n_n 256 rfl rfl k
  have el : dot_S16x256_S256x32_S16x32_1_0_0_1_n_n.lhsIdx (ix2 p m) ((contrEquiv1 dot_S16x256_S256x32_S16x32_1_0_0_1_n_n 256 rfl rfl).symm k) = ix2 p k :=
    funext fun ax => Fin.ext (by
      match ax with
      | ⟨0, _⟩ => exact dense1_lhs0 _ _
      | ⟨1, _⟩ => exact (dense1_lhs1 _ _).trans hk)
  have er : dot_S16x256_S256x32_S16x32_1_0_0_1_n_n.rhsIdx (ix2 p m) ((contrEquiv1 dot_S16x256_S256x32_S16x32_1_0_0_1_n_n 256 rfl rfl).symm k) = ix2 k m :=
    funext fun ax => Fin.ext (by
      match ax with
      | ⟨0, _⟩ => exact (dense1_rhs0 _ _).trans hk
      | ⟨1, _⟩ => exact dense1_rhs1 _ _)
  rw [el, er]

theorem dense2_lhs0 (j : S16x256.Idx) (q : dot_S16x32_S32x256_S16x256_1_0_0_1_n_n.contr.Idx) : (dot_S16x32_S32x256_S16x256_1_0_0_1_n_n.lhsIdx j q 0).val = (j 0).val := by
  unfold DotDims.lhsIdx
  rw [dif_neg (show ¬(0 : Fin S16x32.rank) ∈ dot_S16x32_S32x256_S16x256_1_0_0_1_n_n.lhsBatch by decide),
    dif_pos (show (0 : Fin S16x32.rank) ∈ dot_S16x32_S32x256_S16x256_1_0_0_1_n_n.lhsNonContracting by decide)]
  rfl
theorem dense2_lhs1 (j : S16x256.Idx) (q : dot_S16x32_S32x256_S16x256_1_0_0_1_n_n.contr.Idx) : (dot_S16x32_S32x256_S16x256_1_0_0_1_n_n.lhsIdx j q 1).val = (q ⟨0, by decide⟩).val :=
  dot_S16x32_S32x256_S16x256_1_0_0_1_n_n.lhsIdx_val_of_single rfl j q
theorem dense2_rhs0 (j : S16x256.Idx) (q : dot_S16x32_S32x256_S16x256_1_0_0_1_n_n.contr.Idx) : (dot_S16x32_S32x256_S16x256_1_0_0_1_n_n.rhsIdx j q 0).val = (q ⟨0, by decide⟩).val :=
  dot_S16x32_S32x256_S16x256_1_0_0_1_n_n.rhsIdx_val_of_single rfl j q
theorem dense2_rhs1 (j : S16x256.Idx) (q : dot_S16x32_S32x256_S16x256_1_0_0_1_n_n.contr.Idx) : (dot_S16x32_S32x256_S16x256_1_0_0_1_n_n.rhsIdx j q 1).val = (j 1).val := by
  unfold DotDims.rhsIdx
  rw [dif_neg (show ¬(1 : Fin S32x256.rank) ∈ dot_S16x32_S32x256_S16x256_1_0_0_1_n_n.rhsBatch by decide),
    dif_pos (show (1 : Fin S32x256.rank) ∈ dot_S16x32_S32x256_S16x256_1_0_0_1_n_n.rhsNonContracting by decide)]
  rfl

/-- The second dense layer's product at (p, ch): the sum over the 32 hidden units of the hidden layer's entry (p, m)
    times the weight's entry (m, ch). -/
theorem dense2_apply (a : FVec Ideal S16x32 .f32) (w : FVec Ideal S32x256 .f32) (p : Fin 16) (ch : Fin 256) :
    matmul (F := Ideal) dot_S16x32_S32x256_S16x256_1_0_0_1_n_n (some .fp32) a w (constant (F := Ideal) S16x256 .f32 0x00000000#32) (ix2 p ch)
      = ∑ m : Fin 32, a (ix2 p m) * w (ix2 m ch) := by
  simp only [matmul]
  rw [Ideal.matmul_constant_zero_apply, ← Equiv.sum_comp (contrEquiv1 dot_S16x32_S32x256_S16x256_1_0_0_1_n_n 32 rfl rfl).symm]
  refine Finset.sum_congr rfl fun m _ => ?_
  have hk := contrEquiv1_symm_val dot_S16x32_S32x256_S16x256_1_0_0_1_n_n 32 rfl rfl m
  have el : dot_S16x32_S32x256_S16x256_1_0_0_1_n_n.lhsIdx (ix2 p ch) ((contrEquiv1 dot_S16x32_S32x256_S16x256_1_0_0_1_n_n 32 rfl rfl).symm m) = ix2 p m :=
    funext fun ax => Fin.ext (by
      match ax with
      | ⟨0, _⟩ => exact dense2_lhs0 _ _
      | ⟨1, _⟩ => exact (dense2_lhs1 _ _).trans hk)
  have er : dot_S16x32_S32x256_S16x256_1_0_0_1_n_n.rhsIdx (ix2 p ch) ((contrEquiv1 dot_S16x32_S32x256_S16x256_1_0_0_1_n_n 32 rfl rfl).symm m) = ix2 m ch :=
    funext fun ax => Fin.ext (by
      match ax with
      | ⟨0, _⟩ => exact (dense2_rhs0 _ _).trans hk
      | ⟨1, _⟩ => exact dense2_rhs1 _ _)
  rw [el, er]

/-- The gate payload at (p, ch): the pooled sums scaled by 1/4096, through the first dense layer and its bias, rectified,
    through the second dense layer and its bias, through the logistic function. -/
theorem pay3_apply (acc : Vec Ideal S16x256 .f32) (w1 : Vec Ideal S32x256 .f32) (b1 : Vec Ideal S1x32 .f32)
    (w2 : Vec Ideal S256x32 .f32) (b2 : Vec Ideal S1x256 .f32) (p : Fin 16) (ch : Fin 256) :
    k0_pay3 (F := Ideal) acc w1 b1 w2 b2 (ix2 p ch)
      = Ideal.logistic (∑ m : Fin 32,
          max (∑ k : Fin 256, acc (ix2 p k) * (((1 : ℝ) / 4096 : ℝ) : EReal) * w1 (ix2 m k) + b1 (ix2 (0 : Fin 1) m)) 0
            * w2 (ix2 ch m) + b2 (ix2 (0 : Fin 1) ch)) := by
  unfold k0_pay3
  simp only [shapeCast_self]
  simp only [logistic_apply, addf_apply, dense2_apply, dense1_apply, maximumf_apply, mulf_apply, broadcast_apply,
    broadcastTo_1b_ab_apply, w1T_apply, w2T_apply, Ideal.ofBits_def, Ideal.ofBits_zero_f32, ofBits_inv4096]
  refine congrArg Ideal.logistic ?_
  refine congrArg (· + b2 (ix2 (0 : Fin 1) ch)) ?_
  refine Finset.sum_congr rfl fun m _ => ?_
  rw [w2T_apply w2 m ch]
  refine congrArg (· * w2 (ix2 ch m)) ?_
  refine congrArg (max · 0) ?_
  refine congrArg (· + b1 (ix2 (0 : Fin 1) m)) ?_
  refine Finset.sum_congr rfl fun k _ => ?_
  rw [w1T_apply w1 k m]

/-! ## The weight blocks, and the gate block at a last tile -/

/-- The first weight block is the whole first weight matrix, at every point. -/
theorem iblk0_w1 (c : Dev nD) (t : Fin cfg0.N) (m : Fin 32) (k : Fin 256) :
    (iblk0 (F := Ideal) V c 1 t : Vec Ideal S32x256 .f32) (ix2 m k) = inW1 V c m k := by
  obtain ⟨-, -, -, e10, e11, e20, e21, e30, e31, e40, e41⟩ := idx_facts t
  unfold iblk0
  rw [View.read_apply]
  show (V c main_arg1 : S32x256.Idx → EReal) _ = (V c main_arg1 : S32x256.Idx → EReal) _
  congr 1
  funext a
  apply Fin.ext
  match a with
  | ⟨0, _⟩ => show win0_1.index t (0 : Fin 2) * 32 + 1 * m.val = m.val; rw [e10]; omega
  | ⟨1, _⟩ => show win0_1.index t (1 : Fin 2) * 256 + 1 * k.val = k.val; rw [e11]; omega

/-- The first bias block is the whole first bias row. -/
theorem iblk0_b1 (c : Dev nD) (t : Fin cfg0.N) (m : Fin 32) :
    (iblk0 (F := Ideal) V c 2 t : Vec Ideal S1x32 .f32) (ix2 (0 : Fin 1) m) = inB1 V c m := by
  obtain ⟨-, -, -, e10, e11, e20, e21, e30, e31, e40, e41⟩ := idx_facts t
  unfold iblk0
  rw [View.read_apply]
  show (V c main_call0_v1 : S1x32.Idx → EReal) _ = (V c main_call0_v1 : S1x32.Idx → EReal) _
  congr 1
  funext a
  apply Fin.ext
  match a with
  | ⟨0, _⟩ => show win0_2.index t (0 : Fin 2) * 1 + 1 * 0 = 0; rw [e20]
  | ⟨1, _⟩ => show win0_2.index t (1 : Fin 2) * 32 + 1 * m.val = m.val; rw [e21]; omega

/-- The second weight block is the whole second weight matrix. -/
theorem iblk0_w2 (c : Dev nD) (t : Fin cfg0.N) (ch : Fin 256) (m : Fin 32) :
    (iblk0 (F := Ideal) V c 3 t : Vec Ideal S256x32 .f32) (ix2 ch m) = inW2 V c ch m := by
  obtain ⟨-, -, -, e10, e11, e20, e21, e30, e31, e40, e41⟩ := idx_facts t
  unfold iblk0
  rw [View.read_apply]
  show (V c main_arg3 : S256x32.Idx → EReal) _ = (V c main_arg3 : S256x32.Idx → EReal) _
  congr 1
  funext a
  apply Fin.ext
  match a with
  | ⟨0, _⟩ => show win0_3.index t (0 : Fin 2) * 256 + 1 * ch.val = ch.val; rw [e30]; omega
  | ⟨1, _⟩ => show win0_3.index t (1 : Fin 2) * 32 + 1 * m.val = m.val; rw [e31]; omega

/-- The second bias block is the whole second bias row. -/
theorem iblk0_b2 (c : Dev nD) (t : Fin cfg0.N) (ch : Fin 256) :
    (iblk0 (F := Ideal) V c 4 t : Vec Ideal S1x256 .f32) (ix2 (0 : Fin 1) ch) = inB2 V c ch := by
  obtain ⟨-, -, -, e10, e11, e20, e21, e30, e31, e40, e41⟩ := idx_facts t
  unfold iblk0
  rw [View.read_apply]
  show (V c main_call0_v2 : S1x256.Idx → EReal) _ = (V c main_call0_v2 : S1x256.Idx → EReal) _
  congr 1
  funext a
  apply Fin.ext
  match a with
  | ⟨0, _⟩ => show win0_4.index t (0 : Fin 2) * 1 + 1 * 0 = 0; rw [e40]
  | ⟨1, _⟩ => show win0_4.index t (1 : Fin 2) * 256 + 1 * ch.val = ch.val; rw [e41]; omega

/-- THE GATE BLOCK. At a last tile (t % 4 = 3) the block the body stores holds, at (p, ch), the specification's gate of
    the five arrays the region is entered with, at sample 16·(t/4) + p and channel ch. -/
theorem gateAt_apply (c : Dev nD) (t : Fin cfg0.N) (ht : t.val % 4 = 3) (p : Fin 16) (ch : Fin 256)
    (hb : 16 * (t.val / 4) + p.val < 32) :
    gateAt (F := Ideal) V c t (ix2 p ch)
      = Cert.Spec.gate (fun b k q => V c main_call0_v0 (ix3 b k q)) (fun m k => V c main_arg1 (ix2 m k))
          (fun m => V c main_call0_v1 (ix2 (0 : Fin 1) m)) (fun cc m => V c main_arg3 (ix2 cc m))
          (fun cc => V c main_call0_v2 (ix2 (0 : Fin 1) cc)) ⟨16 * (t.val / 4) + p.val, hb⟩ ch := by
  unfold gateAt
  refine (pay3_apply _ _ _ _ _ p ch).trans ?_
  show _ = Cert.Spec.gate (inX V c) (inW1 V c) (inB1 V c) (inW2 V c) (inB2 V c) _ ch
  unfold Cert.Spec.gate Cert.Spec.hidden Cert.Spec.mean
  simp only [iblk0_w1, iblk0_b1, iblk0_w2, iblk0_b2, fun k => accAt_last V c t ht p k hb]

end Cert.KernelIdeal.PoolValue

end
-- ==== Proof.ScaleValue.lean ====
/-
  What the scaling region leaves in its output array, as one function of the arrays it is entered with, over the
  extended reals: every entry of the activations times the gate of its sample and channel,
      out(b, k, q) = x(b, k, q) · g(b, k).
  Point t = 4·s + j of the 4 × 4 grid handles batch slab s (rows 8s … 8s+7) and spatial tile j (lanes
  1024j … 1024j+1023): its output block is that slab-and-tile of the product, because its activation block is the
  same slab-and-tile of x and its gate block is slab s of g. The sixteen blocks tile the array.
-/
import proofs.«171454_j49709951484604_2_alg».proof.Proof.ScaleBody
import Idealize.ShloMosaic.Lib.Pipeline.Value
import Idealize.ShloMosaic.Lib.ValueIdx
import Idealize.ShloMosaic.Lib.ValueLayout
import Idealize.ShloMosaic.Lib.Tactic

set_option maxRecDepth 16384

noncomputable section

namespace Cert.KernelIdeal.ScaleValue

open Idealize.ShloMosaic Idealize.ShloMosaic.TcCoe Idealize.SL.Sem
open Idealize.ShloMosaic.Pipeline (Dat)
open Idealize.ShloMosaic.ValueIdx
open Cert.KernelIdeal Cert.KernelIdeal.Gen Cert.KernelIdeal.Scale

/-! ## The product, array by array -/

/-- Every entry of `a` times the entry of `g` at its first two coordinates. -/
def scaleOf (a : S32x256x4096.Idx → Elt Ideal .f32) (g : S32x256.Idx → Elt Ideal .f32) : S32x256x4096.Idx → Elt Ideal .f32 :=
  fun i => a i * g (ix2 (i 0) (i 1))

theorem scaleOf_apply (a : S32x256x4096.Idx → Elt Ideal .f32) (g : S32x256.Idx → Elt Ideal .f32) (i : S32x256x4096.Idx) :
    scaleOf a g i = a i * g (ix2 (i 0) (i 1)) := rfl

/-- One entry of `a` times one entry of `g`, the two indices given separately. -/
def prodAt (a : S32x256x4096.Idx → Elt Ideal .f32) (g : S32x256.Idx → Elt Ideal .f32) (i : S32x256x4096.Idx) (k : S32x256.Idx) :
    Elt Ideal .f32 := a i * g k

/-! ## The payload at an index -/

section Layout
variable {α : Type}

/-- An `[a, b]` array cast to `[a, b, 1]` reads, at `(i, j, u)`, the operand at `(i, j)`: a trailing unit axis does not
    move the row-major position. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a, b, 1]` array broadcast to `[a, b, n]` reads, at `(i, j, r)`, the operand's one lane at `(i, j)`. -/
theorem broadcastTo_ab1_abn_apply {a b n : ℕ} (v : (⟨3, ![a, b, 1]⟩ : Shape).Idx → α)
    (h : (⟨3, ![a, b, 1]⟩ : Shape).Broadcasts ⟨3, ![a, b, n]⟩) (i : Fin a) (j : Fin b) (r : Fin n) :
    broadcastTo ⟨3, ![a, b, n]⟩ v h (ix3 i j r) = v (ix3 i j (0 : Fin 1)) := by
  refine broadcastTo_apply v h (ix3 i j r) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

end Layout

/-- The body's payload at `(p, q, r)`: the activation there times the gate at `(p, q)` — the gate block gains a unit
    lane axis, is broadcast along the lanes, and multiplies the activation block entry by entry. -/
theorem pay_ix (x1 : Vec Ideal S8x256 .f32) (x0 : Vec Ideal S8x256x1024 .f32) (p : Fin 8) (q : Fin 256) (r : Fin 1024) :
    k1_pay1 x1 x0 (ix3 p q r) = x0 (ix3 p q r) * x1 (ix2 p q) := by
  unfold k1_pay1
  rw [mulf_apply, shapeCast_self, shapeCast_self]
  refine congrArg (x0 (ix3 p q r) * ·) ?_
  exact (broadcastTo_ab1_abn_apply _ _ p q r).trans (shapeCast_ab_ab1_apply x1 _ p q (0 : Fin 1))

/-- The same at any index of the block. -/
theorem pay_apply (x1 : Vec Ideal S8x256 .f32) (x0 : Vec Ideal S8x256x1024 .f32) (y : S8x256x1024.Idx) :
    k1_pay1 x1 x0 y = x0 y * x1 (ix2 (y 0) (y 1)) := by
  obtain ⟨p, q, r, rfl⟩ : ∃ (p : Fin 8) (q : Fin 256) (r : Fin 1024), y = ix3 p q r := ⟨y 0, y 1, y 2, eq_ix3 y⟩
  exact pay_ix x1 x0 p q r

/-! ## From the blocks to the array -/

variable (V : (c : Dev nD) → (b : Ref sig .tc) → Buf (Elt Ideal) ((c : Thread nD τ).loc b))

/-- The printed index maps, decided over the sixteen points: at point `t` the activations' and the output's block
    index is (t / 4, 0, t % 4) and the gate's is (t / 4, 0). -/
theorem idx_facts : ∀ t : Fin cfg1.N,
    win1_0.index t (0 : Fin 3) = t.val / 4 ∧ win1_0.index t (1 : Fin 3) = 0 ∧ win1_0.index t (2 : Fin 3) = t.val % 4
    ∧ win1_1.index t (0 : Fin 2) = t.val / 4 ∧ win1_1.index t (1 : Fin 2) = 0
    ∧ win1_2.index t (0 : Fin 3) = t.val / 4 ∧ win1_2.index t (1 : Fin 3) = 0 ∧ win1_2.index t (2 : Fin 3) = t.val % 4 :=
  (by decide +kernel : ∀ t : Fin grid1.N, _)

/-- What point `t` writes back is block `t` of the product of the two arrays as the region finds them. -/
theorem flushed_eq (c : Dev nD) (t : Fin cfg1.N) :
    (dat1 (F := Ideal) V c).flushed 2 t
      = ((cfg1.win 2).blk t).view.read (Elt Ideal) (scaleOf (V c main_call0_v0) (V c main_call0_v3)) := by
  show (cfg1.win 2).cut (grid1.coords t) ((dat1 V c).after 2 t) = _
  rw [after1_2, out1_2_eq]
  obtain ⟨a0, a1, a2, g0, g1, o0, o1, o2⟩ := idx_facts t
  funext j
  refine (pay_apply (iblk1 V c 1 t) (iblk1 V c 0 t) j).trans ?_
  show prodAt (V c main_call0_v0) (V c main_call0_v3) (((cfg1.win 0).blk t).view.emb j) (((cfg1.win 1).blk t).view.emb (ix2 (j 0) (j 1)))
    = prodAt (V c main_call0_v0) (V c main_call0_v3) (((cfg1.win 2).blk t).view.emb j)
        (ix2 ((((cfg1.win 2).blk t).view.emb j) 0) ((((cfg1.win 2).blk t).view.emb j) 1))
  have hx : ((cfg1.win 0).blk t).view.emb j = ((cfg1.win 2).blk t).view.emb j := by
    funext a; apply Fin.ext
    match a with
    | ⟨0, _⟩ => show win1_0.index t (0 : Fin 3) * 8 + 1 * (j 0).val = win1_2.index t (0 : Fin 3) * 8 + 1 * (j 0).val; omega
    | ⟨1, _⟩ => show win1_0.index t (1 : Fin 3) * 256 + 1 * (j 1).val = win1_2.index t (1 : Fin 3) * 256 + 1 * (j 1).val; omega
    | ⟨2, _⟩ => show win1_0.index t (2 : Fin 3) * 1024 + 1 * (j 2).val = win1_2.index t (2 : Fin 3) * 1024 + 1 * (j 2).val; omega
  have hg : ((cfg1.win 1).blk t).view.emb (ix2 (j 0) (j 1))
      = ix2 ((((cfg1.win 2).blk t).view.emb j) 0) ((((cfg1.win 2).blk t).view.emb j) 1) := by
    funext a; apply Fin.ext
    match a with
    | ⟨0, _⟩ => show win1_1.index t (0 : Fin 2) * 8 + 1 * (j 0).val = win1_2.index t (0 : Fin 3) * 8 + 1 * (j 0).val; omega
    | ⟨1, _⟩ => show win1_1.index t (1 : Fin 2) * 256 + 1 * (j 1).val = win1_2.index t (1 : Fin 3) * 256 + 1 * (j 1).val; omega
  rw [hx, hg]
  rfl

/-- An index of the array is in point `t`'s output block iff each coordinate is in the block's range on its axis. -/
theorem mem_blk (t : Fin cfg1.N) (i : S32x256x4096.Idx) :
    i ∈ ((cfg1.win 2).blk t).view.set ↔ ∀ a : Fin 3, win1_2.index t a * S8x256x1024.size a ≤ (i a).val ∧ (i a).val < win1_2.index t a * S8x256x1024.size a + S8x256x1024.size a := by
  show i ∈ ((View.whole main_call0_v4).slice (win1_2.rect t)).set ↔ _
  rw [View.set_slice_whole, Rect.mem_set_unit]
  exact Iff.rfl

/-- Every index of the array is in the output block of the point of its batch slab and spatial tile. -/
theorem covered (i : S32x256x4096.Idx) :
    ∃ t : Fin cfg1.N, (cfg1.win 2).flush t = true ∧ i ∈ ((cfg1.win 2).blk t).view.set := by
  have hi0 : (i 0).val < 32 := (i 0).isLt
  have hi1 : (i 1).val < 256 := (i 1).isLt
  have hi2 : (i 2).val < 4096 := (i 2).isLt
  have hN : cfg1.N = 16 := N_1
  let t : Fin cfg1.N := ⟨(i 0).val / 8 * 4 + (i 2).val / 1024, by rw [hN]; omega⟩
  have ht : t.val = (i 0).val / 8 * 4 + (i 2).val / 1024 := rfl
  obtain ⟨-, -, -, -, -, o0, o1, o2⟩ := idx_facts t
  refine ⟨t, flush1_2 t, ?_⟩
  rw [mem_blk]
  intro a
  match a with
  | ⟨0, _⟩ => show win1_2.index t (0 : Fin 3) * 8 ≤ (i 0).val ∧ (i 0).val < win1_2.index t (0 : Fin 3) * 8 + 8; omega
  | ⟨1, _⟩ => show win1_2.index t (1 : Fin 3) * 256 ≤ (i 1).val ∧ (i 1).val < win1_2.index t (1 : Fin 3) * 256 + 256; omega
  | ⟨2, _⟩ => show win1_2.index t (2 : Fin 3) * 1024 ≤ (i 2).val ∧ (i 2).val < win1_2.index t (2 : Fin 3) * 1024 + 1024; omega

/-- THE ARRAY the region leaves: the product of the activations and the gate as the region finds them. -/
theorem scaled_arr (c : Dev nD) :
    (dat1 (F := Ideal) V c).arrAt 2 cfg1.N = scaleOf (V c main_call0_v0) (V c main_call0_v3) :=
  (dat1 (F := Ideal) V c).arrAt_eq_of_cover 2 (scaleOf (V c main_call0_v0) (V c main_call0_v3))
    (fun t _ => flushed_eq V c t) covered

/-- The two arrays the region reads, at their literal shapes. -/
abbrev xArr (c : Dev nD) : S32x256x4096.Idx → Elt Ideal .f32 := V c main_call0_v0
abbrev gArr (c : Dev nD) : S32x256.Idx → Elt Ideal .f32 := V c main_call0_v3

/-- The same, entry by entry. -/
theorem scaled (c : Dev nD) (i : S32x256x4096.Idx) :
    (dat1 (F := Ideal) V c).arrAt 2 cfg1.N i = xArr V c i * gArr V c (ix2 (i 0) (i 1)) :=
  congrFun (scaled_arr V c) i

end Cert.KernelIdeal.ScaleValue

end
-- ==== Proof.Bridge.lean ====
/-
  From the kernel program's pieces to the specification, on the extended reals.  The kernel program reshapes
  x[32,256,64,64] to x3[32,256,4096], b1[32] to [1,32] and b2[256] to [1,256], computes the gate g[32,256] from x3 and the
  weights, scales x3 by the gate into o3[32,256,4096], and reshapes o3 back to [32,256,64,64].  A reshape read at an index is
  its operand at the index with the same row-major position:
      x3(b,k,q) = x(b,k,q/64,q%64), the flattened plane of the specification;
      the [1,32] view of b1 at (0,m) is b1(m), and likewise b2;
      the result at (b,c,h,w) is o3(b,c,64h+w), and (64h+w)/64 = h, (64h+w)%64 = w.
  So, given that g is the specification's gate of x3 and the reshaped biases, and that o3 is x3 times g, the reshaped
  result is Spec.out.
-/
import proofs.«171454_j49709951484604_2_alg».proof.Proof.Gen.KernelIdeal
import proofs.«171454_j49709951484604_2_alg».proof.Proof.Spec
import Idealize.ShloMosaic.Lib.Pipeline.Value
import Idealize.ShloMosaic.Lib.ValueLayout

noncomputable section

namespace Cert.KernelIdeal.Bridge

open Cert.KernelIdeal Cert.KernelIdeal.Gen Idealize.ShloMosaic Idealize.ShloMosaic.ValueIdx

/-- The position 64·h + w of (h, w) in the flattened plane. -/
def pos (h w : Fin 64) : Fin 4096 := ⟨64 * h.val + w.val, by have := h.isLt; have := w.isLt; omega⟩

/-- The flattened array at (b, k, q) is the specification's flattened plane: x at (b, k, q / 64, q % 64). -/
theorem x3_flat (x : FVec Ideal S32x256x64x64 .f32) (b : Fin 32) (k : Fin 256) (q : Fin 4096) :
    shapeCast S32x256x4096 x shapeCasts_S32x256x64x64_S32x256x4096 (ix3 b k q) = Cert.Spec.flat x b k q := by
  unfold Cert.Spec.flat
  refine shapeCast_apply x _ _ _ ?_
  rw [Shape.rowMajor_val_four, Shape.rowMajor_val_three]
  show ((b.val * 256 + k.val) * 64 + q.val / 64) * 64 + q.val % 64 = (b.val * 256 + k.val) * 4096 + q.val
  omega

/-- The flattened array at (b, k, 64·h + w) is x at (b, k, h, w). -/
theorem x3_pos (x : FVec Ideal S32x256x64x64 .f32) (b : Fin 32) (k : Fin 256) (h w : Fin 64) :
    shapeCast S32x256x4096 x shapeCasts_S32x256x64x64_S32x256x4096 (ix3 b k (pos h w)) = x (ix4 b k h w) := by
  refine shapeCast_apply x _ _ _ ?_
  rw [Shape.rowMajor_val_four, Shape.rowMajor_val_three]
  show ((b.val * 256 + k.val) * 64 + h.val) * 64 + w.val = (b.val * 256 + k.val) * 4096 + (64 * h.val + w.val)
  omega

/-- The result's reshape at (b, c, h, w) is the flat result at (b, c, 64·h + w). -/
theorem out_pos (o3 : FVec Ideal S32x256x4096 .f32) (b : Fin 32) (c : Fin 256) (h w : Fin 64) :
    shapeCast S32x256x64x64 o3 shapeCasts_S32x256x4096_S32x256x64x64 (ix4 b c h w) = o3 (ix3 b c (pos h w)) := by
  refine shapeCast_apply o3 _ _ _ ?_
  rw [Shape.rowMajor_val_four, Shape.rowMajor_val_three]
  show (b.val * 256 + c.val) * 4096 + (64 * h.val + w.val) = ((b.val * 256 + c.val) * 64 + h.val) * 64 + w.val
  omega

/-- THE BRIDGE: if g is the specification's gate of the flattened x and the row-shaped biases, and o3 is the flattened x
    scaled entry by entry by its sample's and channel's gate, then o3 reshaped to [32,256,64,64] is Spec.out. -/
theorem bridge (x : FVec Ideal S32x256x64x64 .f32) (w1 : FVec Ideal S32x256 .f32) (b1 : FVec Ideal S32 .f32)
    (w2 : FVec Ideal S256x32 .f32) (b2 : FVec Ideal S256 .f32) (g : FVec Ideal S32x256 .f32) (o3 : FVec Ideal S32x256x4096 .f32)
    (hg : ∀ (b : Fin 32) (ch : Fin 256), g (ix2 b ch)
      = Cert.Spec.gate (fun b k q => (shapeCast S32x256x4096 x shapeCasts_S32x256x64x64_S32x256x4096) (ix3 b k q))
          (fun m k => w1 (ix2 m k)) (fun m => (shapeCast S1x32 b1 shapeCasts_S32_S1x32) (ix2 (0 : Fin 1) m))
          (fun cc m => w2 (ix2 cc m)) (fun cc => (shapeCast S1x256 b2 shapeCasts_S256_S1x256) (ix2 (0 : Fin 1) cc)) b ch)
    (ho3 : ∀ i : S32x256x4096.Idx, o3 i
      = (shapeCast S32x256x4096 x shapeCasts_S32x256x64x64_S32x256x4096) i * g (ix2 (i 0) (i 1))) :
    shapeCast S32x256x64x64 o3 shapeCasts_S32x256x4096_S32x256x64x64 = Cert.Spec.out x w1 b1 w2 b2 := by
  have hX : (fun (b : Fin 32) (k : Fin 256) (q : Fin 4096) =>
      (shapeCast S32x256x4096 x shapeCasts_S32x256x64x64_S32x256x4096) (ix3 b k q)) = Cert.Spec.flat x :=
    funext fun b => funext fun k => funext fun q => x3_flat x b k q
  have hb1 : (fun m : Fin 32 => (shapeCast S1x32 b1 shapeCasts_S32_S1x32) (ix2 (0 : Fin 1) m)) = fun m => b1 (ix1 m) :=
    funext fun m => shapeCast_a_1a_apply b1 shapeCasts_S32_S1x32 0 m
  have hb2 : (fun cc : Fin 256 => (shapeCast S1x256 b2 shapeCasts_S256_S1x256) (ix2 (0 : Fin 1) cc)) = fun cc => b2 (ix1 cc) :=
    funext fun cc => shapeCast_a_1a_apply b2 shapeCasts_S256_S1x256 0 cc
  funext i
  obtain ⟨b, c, h, w, rfl⟩ : ∃ (b : Fin 32) (c : Fin 256) (h w : Fin 64), i = ix4 b c h w :=
    ⟨i 0, i 1, i 2, i 3, eq_ix4 i⟩
  rw [out_pos, ho3]
  show (shapeCast S32x256x4096 x shapeCasts_S32x256x64x64_S32x256x4096) (ix3 b c (pos h w)) * g (ix2 b c) = _
  rw [x3_pos, hg b c, hX, hb1, hb2]
  rfl

end Cert.KernelIdeal.Bridge

end
-- ==== Proof.KernelValue.lean ====
/-
  The kernel program's result as the specification's function of its five arguments, at the extended reals. The last
  boundary's contents at the result buffer is the reshape of what the scaling region leaves; that is the flattened
  input times the gate array; the gate array is what the pooling region leaves, row b being row b % 16 of the block
  stored at the last tile of batch half b / 16, which is the specification's gate of the flattened input and the
  (reshaped) weights at sample b. The reshapes are then read at an index.
-/
import proofs.«171454_j49709951484604_2_alg».proof.Proof.Run
import proofs.«171454_j49709951484604_2_alg».proof.Proof.PoolArr
import proofs.«171454_j49709951484604_2_alg».proof.Proof.PoolValue
import proofs.«171454_j49709951484604_2_alg».proof.Proof.ScaleValue
import proofs.«171454_j49709951484604_2_alg».proof.Proof.Bridge

set_option maxRecDepth 16384

noncomputable section

namespace Cert.KernelIdeal.KernelValue

open Idealize.ShloMosaic Idealize.ShloMosaic.TcCoe Idealize.ShloMosaic.ValueIdx
open Idealize.SL.Sem
open Cert.KernelIdeal Cert.KernelIdeal.Gen Cert.KernelIdeal.Run

variable (m : (ℓ : Loc nD τ sig) → Buf (Elt Ideal) ℓ) (ρ : Dev nD → PrngReg)

/-- The flattened input, as both regions find it. -/
theorem x3_eq (c : Dev nD) :
    (V1 m ρ c main_call0_v0 : S32x256x4096.Idx → Elt Ideal .f32)
      = shapeCast S32x256x4096 (m ((c : Thread nD τ).loc main_arg0) : S32x256x64x64.Idx → Elt Ideal .f32) shapeCasts_S32x256x64x64_S32x256x4096 :=
  W1_v0 m ρ c

theorem x3_eq' (c : Dev nD) :
    (V2 m ρ c main_call0_v0 : S32x256x4096.Idx → Elt Ideal .f32)
      = shapeCast S32x256x4096 (m ((c : Thread nD τ).loc main_arg0) : S32x256x64x64.Idx → Elt Ideal .f32) shapeCasts_S32x256x64x64_S32x256x4096 :=
  (W2_keep_main_call0_v0 m ρ c).trans (W1_v0 m ρ c)

/-- The gate array the scaling region finds: the specification's gate of the flattened input and the weights. -/
theorem gate_value (c : Dev nD) (b : Fin 32) (ch : Fin 256) :
    (V2 m ρ c main_call0_v3 : S32x256.Idx → Elt Ideal .f32) (ix2 b ch)
      = Cert.Spec.gate
          (fun b k q => (shapeCast S32x256x4096 (m ((c : Thread nD τ).loc main_arg0) : S32x256x64x64.Idx → Elt Ideal .f32) shapeCasts_S32x256x64x64_S32x256x4096) (ix3 b k q))
          (fun j k => (m ((c : Thread nD τ).loc main_arg1) : S32x256.Idx → Elt Ideal .f32) (ix2 j k))
          (fun j => (shapeCast S1x32 (m ((c : Thread nD τ).loc main_arg2) : S32.Idx → Elt Ideal .f32) shapeCasts_S32_S1x32) (ix2 (0 : Fin 1) j))
          (fun cc j => (m ((c : Thread nD τ).loc main_arg3) : S256x32.Idx → Elt Ideal .f32) (ix2 cc j))
          (fun cc => (shapeCast S1x256 (m ((c : Thread nD τ).loc main_arg4) : S256.Idx → Elt Ideal .f32) shapeCasts_S256_S1x256) (ix2 (0 : Fin 1) cc))
          b ch := by
  have hb32 : b.val < 32 := b.isLt
  have hN : cfg0.N = 8 := N_0
  have hg : (V2 m ρ c main_call0_v3 : S32x256.Idx → Elt Ideal .f32) = Pool.gateArr (V1 m ρ) c :=
    (W2_v3 m ρ c).trans (Pool.gate_arr (V1 m ρ) c)
  rw [hg]
  show Pool.gateAt (F := Ideal) (V1 m ρ) c ⟨4 * (b.val / 16) + 3, by omega⟩ (ix2 (⟨b.val % 16, Nat.mod_lt _ (by decide)⟩ : Fin 16) ch) = _
  have e0 := x3_eq m ρ c
  have e1 : V1 m ρ c main_arg1 = m ((c : Thread nD τ).loc main_arg1) := W1_arg1 m ρ c
  have e2 : (V1 m ρ c main_call0_v1 : S1x32.Idx → Elt Ideal .f32) = shapeCast S1x32 (m ((c : Thread nD τ).loc main_arg2) : S32.Idx → Elt Ideal .f32) shapeCasts_S32_S1x32 := W1_v1 m ρ c
  have e3 : V1 m ρ c main_arg3 = m ((c : Thread nD τ).loc main_arg3) := W1_arg3 m ρ c
  have e4 : (V1 m ρ c main_call0_v2 : S1x256.Idx → Elt Ideal .f32) = shapeCast S1x256 (m ((c : Thread nD τ).loc main_arg4) : S256.Idx → Elt Ideal .f32) shapeCasts_S256_S1x256 := W1_v2 m ρ c
  have hs : (⟨16 * ((4 * (b.val / 16) + 3) / 4) + b.val % 16, by omega⟩ : Fin 32) = b := Fin.ext (by show 16 * ((4 * (b.val / 16) + 3) / 4) + b.val % 16 = b.val; omega)
  refine (PoolValue.gateAt_apply (V1 m ρ) c ⟨4 * (b.val / 16) + 3, by omega⟩ (by show (4 * (b.val / 16) + 3) % 4 = 3; omega)
    (⟨b.val % 16, Nat.mod_lt _ (by decide)⟩ : Fin 16) ch (by show 16 * ((4 * (b.val / 16) + 3) / 4) + b.val % 16 < 32; omega)).trans ?_
  rw [e0, e1, e2, e3, e4]
  exact congrArg (fun s => Cert.Spec.gate _ _ _ _ _ s ch) hs

/-- THE RESULT of the kernel program: the last boundary's contents at the result buffer is the specification's
    function of the five arguments as launched. -/
theorem kernel_out (c : Dev nD) :
    (W4 m ρ c (Proc.devRef .tc main_v0) : S32x256x64x64.Idx → Elt Ideal .f32)
      = Cert.Spec.out (m ((c : Thread nD τ).loc main_arg0)) (m ((c : Thread nD τ).loc main_arg1)) (m ((c : Thread nD τ).loc main_arg2))
          (m ((c : Thread nD τ).loc main_arg3)) (m ((c : Thread nD τ).loc main_arg4)) := by
  rw [W4_v0 m ρ c]
  refine Bridge.bridge _ _ _ _ _ (V2 m ρ c main_call0_v3) _ (gate_value m ρ c) (fun i => ?_)
  rw [W3_v4 m ρ c, ScaleValue.scaled_arr (V2 m ρ) c, ScaleValue.scaleOf_apply, x3_eq' m ρ c]

end Cert.KernelIdeal.KernelValue

end
-- ==== Proof.RefValue.lean ====
/-
  The reference program is the specification.  Read at the extended reals, the reference computes, at the index
  (b, c, h, w),
      x(b,c,h,w) · 1 / (1 + exp (−(∑ m < 32, max (∑ k < 256, (0 + ∑_{plane} x(b,k,·,·)) / 4096 · w1(m,k) + b1(m)) 0 · w2(c,m) + b2(c)))).
  Four facts turn this into Spec.out:
    (i)   the sum over the 64×64 plane of channel k of sample b — the indices of x whose first two coordinates are
          (b, k) — is the sum over q < 4096 of the plane flattened row-major, q = 64·h + w  (plane_reduce);
    (ii)  the divisor's word denotes the real 4096, and division by a nonzero real is the product with its inverse
          on every extended real, so the quotient is Spec.mean  (mean_eq);
    (iii) the maximum with the zero word's splat is max · 0  (hidden_eq);
    (iv)  1 / (1 + exp (−z)) with the word of the real 1 is the logistic function of z by its definition  (gate_eq).
  No finiteness of the inputs is used anywhere.  The run of the reference then ends with its result array equal to
  Spec.out of the argument arrays and the arguments unchanged (run_out), and dropping the result gives the
  reference's frame (frame_ri).
-/
import proofs.«171454_j49709951484604_2_alg».proof.Defs
import proofs.«171454_j49709951484604_2_alg».proof.Proof.Gen.ReferenceIdeal
import proofs.«171454_j49709951484604_2_alg».proof.Proof.Gen.ReferenceIdeal.Run
import proofs.«171454_j49709951484604_2_alg».proof.Proof.Gen.ReferenceIdeal.Read
import proofs.«171454_j49709951484604_2_alg».proof.Proof.Gen.Pre_finite_inputs
import proofs.«171454_j49709951484604_2_alg».proof.Proof.Spec

noncomputable section

namespace Cert.ReferenceIdeal.RefValue

open Cert.ReferenceIdeal Cert.ReferenceIdeal.Gen Idealize.ShloMosaic Idealize.ShloMosaic.TcCoe Idealize.SL.Sem
  Idealize.ShloMosaic.ValueIdx

/-! ## The two words that are evaluated -/

/-- The divisor's word denotes the real 4096 = 2^12. -/
theorem ofBits_4096 : Ideal.ofBits .f32 0x45800000#32 = ((4096 : ℝ) : EReal) := by
  simp [Ideal.ofBits, Ideal.ieee, -EReal.coe_mul]; norm_num

/-- The numerator's and the addend's word denotes 1. -/
theorem ofBits_one : Ideal.ofBits .f32 0x3F800000#32 = 1 := by
  simp [Ideal.ofBits, Ideal.ieee, -EReal.coe_mul]; norm_num

/-! ## The plane's sum, flattened -/

/-- The position q = 64·h + w of the entry (·, ·, h, w) in its flattened plane. -/
def flatPos (i : S32x256x64x64.Idx) : Fin 4096 :=
  ⟨64 * (i 2).val + (i 3).val, by
    have h2 : (i 2).val < 64 := (i 2).isLt
    have h3 : (i 3).val < 64 := (i 3).isLt
    omega⟩

/-- The entry of the plane (b, k) at the flattened position q: (b, k, q / 64, q % 64). -/
def planeIdx (b : Fin 32) (k : Fin 256) (q : Fin 4096) : S32x256x64x64.Idx :=
  ix4 b k (⟨q.val / 64, by have := q.isLt; omega⟩ : Fin 64) (⟨q.val % 64, Nat.mod_lt _ (by norm_num)⟩ : Fin 64)

/-- Dropping the two plane coordinates of an entry of the plane (b, k) leaves (b, k). -/
theorem drop_planeIdx (b : Fin 32) (k : Fin 256) (q : Fin 4096) :
    reducesTo_S32x256x64x64_S32x256_d2_3.drop (planeIdx b k q) = ix2 b k :=
  funext fun a => Fin.ext (by
    match a with
    | ⟨0, _⟩ => exact Shape.ReducesTo.drop_apply_val_of_eq reducesTo_S32x256x64x64_S32x256_d2_3 (planeIdx b k q) 0 0
    | ⟨1, _⟩ => exact Shape.ReducesTo.drop_apply_val_of_eq reducesTo_S32x256x64x64_S32x256_d2_3 (planeIdx b k q) 1 1)

/-- An index whose first two coordinates are (b, k) is the plane's entry at its own flattened position. -/
theorem planeIdx_flatPos (b : Fin 32) (k : Fin 256) (i : S32x256x64x64.Idx)
    (hd : reducesTo_S32x256x64x64_S32x256_d2_3.drop i = ix2 b k) : planeIdx b k (flatPos i) = i := by
  have h0 : b.val = (i 0).val :=
    (congrArg Fin.val (congrFun hd 0)).symm.trans (Shape.ReducesTo.drop_apply_val_of_eq reducesTo_S32x256x64x64_S32x256_d2_3 i 0 0)
  have h1 : k.val = (i 1).val :=
    (congrArg Fin.val (congrFun hd 1)).symm.trans (Shape.ReducesTo.drop_apply_val_of_eq reducesTo_S32x256x64x64_S32x256_d2_3 i 1 1)
  have h2 : (i 2).val < 64 := (i 2).isLt
  have h3 : (i 3).val < 64 := (i 3).isLt
  funext a
  refine Fin.ext ?_
  match a with
  | ⟨0, _⟩ => exact h0
  | ⟨1, _⟩ => exact h1
  | ⟨2, _⟩ => show (64 * (i 2).val + (i 3).val) / 64 = (i 2).val; omega
  | ⟨3, _⟩ => show (64 * (i 2).val + (i 3).val) % 64 = (i 3).val; omega

/-- The flattened position of the plane's entry at q is q. -/
theorem flatPos_planeIdx (b : Fin 32) (k : Fin 256) (q : Fin 4096) : flatPos (planeIdx b k q) = q :=
  Fin.ext (by show 64 * (q.val / 64) + q.val % 64 = q.val; omega)

/-- (i) The host's sum over the last two axes, at (b, k): the initial value plus the sum over the flattened plane. -/
theorem plane_reduce (x : S32x256x64x64.Idx → EReal) (init : EReal) (b : Fin 32) (k : Fin 256) :
    Ideal.hostReduceAdd reducesTo_S32x256x64x64_S32x256_d2_3 x init (ix2 b k)
      = init + ∑ q : Fin 4096, Cert.Spec.flat x b k q := by
  unfold Ideal.hostReduceAdd
  refine congrArg (init + ·) ?_
  refine Finset.sum_nbij' flatPos (planeIdx b k) ?_ ?_ ?_ ?_ ?_
  · intro i _; exact Finset.mem_univ _
  · intro q _; exact Finset.mem_filter.2 ⟨Finset.mem_univ _, drop_planeIdx b k q⟩
  · intro i hi; exact planeIdx_flatPos b k i (Finset.mem_filter.1 hi).2
  · intro q _; exact flatPos_planeIdx b k q
  · intro i hi
    show x i = x (planeIdx b k (flatPos i))
    rw [planeIdx_flatPos b k i (Finset.mem_filter.1 hi).2]

/-! ## The reference's stages at an index -/

/-- (ii) The reference's mean: the plane's sum from the zero word, divided by the word of 4096, is the flattened
    plane's sum times 1/4096. -/
theorem mean_eq (x : FVec Ideal S32x256x64x64 .f32) (b : Fin 32) (k : Fin 256) :
    Read.val_main_v2 (F := Ideal) x (ix2 b k) = Cert.Spec.mean (Cert.Spec.flat x) b k := by
  rw [Read.val_main_v2_apply, Read.val_main_v1_apply, Read.val_main_cst_0_apply, Ideal.hostDivf_def, Ideal.ofBits_def,
    ofBits_4096, Ideal.div_coe (by norm_num : (4096 : ℝ) ≠ 0)]
  unfold Cert.Spec.mean
  refine congrArg (· * (((1 : ℝ) / 4096 : ℝ) : EReal)) ?_
  show Ideal.hostReduceAdd reducesTo_S32x256x64x64_S32x256_d2_3 x (Ideal.ofBits .f32 0x00000000#32) (ix2 b k) = _
  rw [plane_reduce, Ideal.ofBits_zero_f32, zero_add]

/-- The first dense layer's operand indices at the output index (b, m) and the contraction index k: (b, k) and (m, k). -/
theorem lidx3 (b m : Fin 32) (k : Fin 256) : Read.lidx_main_v3 (ix2 b m) k = ix2 b k :=
  funext fun a => Fin.ext (by match a with | ⟨0, _⟩ => rfl | ⟨1, _⟩ => rfl)
theorem ridx3 (b m : Fin 32) (k : Fin 256) : Read.ridx_main_v3 (ix2 b m) k = ix2 m k :=
  funext fun a => Fin.ext (by match a with | ⟨0, _⟩ => rfl | ⟨1, _⟩ => rfl)
/-- The first bias, broadcast along the rows, is read at the column. -/
theorem bidx1 (b m : Fin 32) : Read.idx_main_v4 (Read.idx_main_v5 (ix2 b m)) = ix1 m :=
  funext fun a => Fin.ext (by match a with | ⟨0, _⟩ => rfl)

/-- (iii) The reference's hidden layer: the dense layer on the means plus the bias, rectified against the zero word. -/
theorem hidden_eq (x : FVec Ideal S32x256x64x64 .f32) (w1 : FVec Ideal S32x256 .f32) (b1 : FVec Ideal S32 .f32)
    (b m : Fin 32) :
    Read.val_main_v7 (F := Ideal) x w1 b1 (ix2 b m)
      = Cert.Spec.hidden (Cert.Spec.flat x) (fun m k => w1 (ix2 m k)) (fun m => b1 (ix1 m)) b m := by
  rw [Read.val_main_v7_apply, Read.val_main_v6_apply, Read.val_main_v3_apply, Read.val_main_v5_apply,
    Read.val_main_v4_apply, Read.val_main_call0_v0_apply, Read.val_main_call0_cst_apply, bidx1]
  simp only [Ideal.maximumf_def, Ideal.addf_def, Ideal.ofBits_def, Ideal.ofBits_zero_f32]
  unfold Cert.Spec.hidden
  refine congrArg (fun s => max (s + b1 (ix1 m)) 0) (Finset.sum_congr rfl fun k _ => ?_)
  rw [lidx3, ridx3, mean_eq]

/-- The second dense layer's operand indices at the output index (b, c) and the contraction index m: (b, m) and (c, m). -/
theorem lidx8 (b : Fin 32) (c : Fin 256) (m : Fin 32) : Read.lidx_main_v8 (ix2 b c) m = ix2 b m :=
  funext fun a => Fin.ext (by match a with | ⟨0, _⟩ => rfl | ⟨1, _⟩ => rfl)
theorem ridx8 (b : Fin 32) (c : Fin 256) (m : Fin 32) : Read.ridx_main_v8 (ix2 b c) m = ix2 c m :=
  funext fun a => Fin.ext (by match a with | ⟨0, _⟩ => rfl | ⟨1, _⟩ => rfl)
/-- The second bias, broadcast along the rows, is read at the column. -/
theorem bidx2 (b : Fin 32) (c : Fin 256) : Read.idx_main_v9 (Read.idx_main_v10 (ix2 b c)) = ix1 c :=
  funext fun a => Fin.ext (by match a with | ⟨0, _⟩ => rfl)

/-- (iv) The reference's gate: 1 / (1 + exp (−z)) with the word of 1, z the second dense layer on the hidden units plus
    its bias, is the logistic function of z. -/
theorem gate_eq (x : FVec Ideal S32x256x64x64 .f32) (w1 : FVec Ideal S32x256 .f32) (b1 : FVec Ideal S32 .f32)
    (w2 : FVec Ideal S256x32 .f32) (b2 : FVec Ideal S256 .f32) (b : Fin 32) (c : Fin 256) :
    Read.val_main_v17 (F := Ideal) x w1 b1 w2 b2 (ix2 b c) = Cert.Spec.gateOf x w1 b1 w2 b2 b c := by
  rw [Read.val_main_v17_apply, Read.val_main_v16_apply, Read.val_main_cst_2_apply, Read.val_main_v15_apply,
    Read.val_main_v14_apply, Read.val_main_cst_1_apply, Read.val_main_v13_apply, Read.val_main_v12_apply,
    Read.val_main_v11_apply, Read.val_main_v8_apply, Read.val_main_v10_apply, Read.val_main_v9_apply, bidx2]
  simp only [Ideal.hostDivf_def, Ideal.addf_def, Ideal.hostUnary_exp_def, Ideal.hostNegf_def, Ideal.negf_def,
    Ideal.ofBits_def, ofBits_one]
  unfold Cert.Spec.gateOf Cert.Spec.gate Ideal.logistic
  refine congrArg (fun s => Ideal.div 1 (1 + Ideal.exp (-(s + b2 (ix1 c))))) (Finset.sum_congr rfl fun m _ => ?_)
  rw [lidx8, ridx8, hidden_eq]

/-- The gate, broadcast over the plane, is read at the sample and the channel. -/
theorem gidx (b : Fin 32) (c : Fin 256) (h w : Fin 64) : Read.idx_main_v18 (Read.idx_main_v19 (ix4 b c h w)) = ix2 b c :=
  funext fun a => Fin.ext (by match a with | ⟨0, _⟩ => rfl | ⟨1, _⟩ => rfl)

/-! ## The reference is the specification -/

/-- The reference's last stage is Spec.out: every entry of x times its sample's and channel's gate. -/
theorem ref_val_eq (x : FVec Ideal S32x256x64x64 .f32) (w1 : FVec Ideal S32x256 .f32) (b1 : FVec Ideal S32 .f32)
    (w2 : FVec Ideal S256x32 .f32) (b2 : FVec Ideal S256 .f32) :
    Read.val_main_v20 (F := Ideal) x w1 b1 w2 b2 = Cert.Spec.out x w1 b1 w2 b2 := by
  funext i
  obtain ⟨b, c, h, w, rfl⟩ : ∃ (b : Fin 32) (c : Fin 256) (h w : Fin 64), i = ix4 b c h w :=
    ⟨i 0, i 1, i 2, i 3, eq_ix4 i⟩
  rw [Read.val_main_v20_apply, Read.val_main_v19_apply, Read.val_main_v18_apply, gidx, gate_eq, Ideal.mulf_def]
  rfl

/-- THE REFERENCE'S RESULT TERM, as its run states it, is Spec.out of the five argument arrays. -/
theorem ref_eq (x : FVec Ideal S32x256x64x64 .f32) (w1 : FVec Ideal S32x256 .f32) (b1 : FVec Ideal S32 .f32)
    (w2 : FVec Ideal S256x32 .f32) (b2 : FVec Ideal S256 .f32) :
    mulf (x) (broadcastInDim S32x256x64x64 ![0, 1, 2, 3] bcast_S32x256x1x1_S32x256x64x64_0_1_2_3 (broadcastInDim S32x256x1x1 ![0, 1] bcast_S32x256_S32x256x1x1_0_1 (Host.divf (broadcastInDim S32x256 ![] bcast_S_S32x256 (constant S_ .f32 0x3F800000#32)) (addf (broadcastInDim S32x256 ![] bcast_S_S32x256 (constant S_ .f32 0x3F800000#32)) (Host.exp (Host.negf (addf (Host.dotGeneral dot_S32x32_S256x32_S32x256_1_1_0_0_n_n none (maximumf (addf (Host.dotGeneral dot_S32x256_S32x256_S32x32_1_1_0_0_n_n none (Host.divf (Host.reduceAdd (x) (constant S_ .f32 0x00000000#32) reducesTo_S32x256x64x64_S32x256_d2_3 h_S_) (broadcastInDim S32x256 ![] bcast_S_S32x256 (constant S_ .f32 0x45800000#32))) (w1)) (broadcastInDim S32x32 ![0, 1] bcast_S1x32_S32x32_0_1 (broadcastInDim S1x32 ![1] bcast_S32_S1x32_1 (b1)))) (broadcastInDim S32x32 ![] bcast_S_S32x32 (constant S_ .f32 0x00000000#32))) (w2)) (broadcastInDim S32x256 ![0, 1] bcast_S1x256_S32x256_0_1 (broadcastInDim S1x256 ![1] bcast_S256_S1x256_1 (b2))))))))))
      = Cert.Spec.out x w1 b1 w2 b2 :=
  (Read.val_main_v20_eq (F := Ideal) x w1 b1 w2 b2).trans (ref_val_eq x w1 b1 w2 b2)

/-! ## The reference's run and frame -/

/-- Every weakly fair execution of the reference terminates with its result array at Spec.out of the argument arrays
    as launched, and the arguments unchanged. -/
theorem run_out (m' : (ℓ : Loc nD τ sig) → Buf (Elt Ideal) ℓ) (ρ' : Dev nD → PrngReg) :
    θ_run (Cert.ReferenceIdeal.defs (F := Ideal)) (onTc (τ := Cert.ReferenceIdeal.τ) (Cert.ReferenceIdeal.main (F := Ideal)))
      ⟨m', fun _ => 0, ρ'⟩ (fun r => ∀ c : Dev Cert.ReferenceIdeal.nD,
        r.2.mem ((c.tc : Thread Cert.ReferenceIdeal.nD Cert.ReferenceIdeal.τ).loc Cert.ReferenceIdeal.main_v20)
          = Cert.Spec.out (m' ((c.tc : Thread Cert.ReferenceIdeal.nD Cert.ReferenceIdeal.τ).loc Cert.ReferenceIdeal.main_arg0))
              (m' ((c.tc : Thread Cert.ReferenceIdeal.nD Cert.ReferenceIdeal.τ).loc Cert.ReferenceIdeal.main_arg1))
              (m' ((c.tc : Thread Cert.ReferenceIdeal.nD Cert.ReferenceIdeal.τ).loc Cert.ReferenceIdeal.main_arg2))
              (m' ((c.tc : Thread Cert.ReferenceIdeal.nD Cert.ReferenceIdeal.τ).loc Cert.ReferenceIdeal.main_arg3))
              (m' ((c.tc : Thread Cert.ReferenceIdeal.nD Cert.ReferenceIdeal.τ).loc Cert.ReferenceIdeal.main_arg4))
        ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
        ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)) :=
  (θ_run Cert.ReferenceIdeal.defs _ _).mono
    (fun _ h c => ⟨(h c).1.trans (ref_eq _ _ _ _ _), (h c).2⟩)
    (Cert.ReferenceIdeal.Value.run (F := Ideal) m' ρ')

/-- The reference's frame: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

end Cert.ReferenceIdeal.RefValue

end
-- ==== Proof.lean ====
/-
  The certificate's claim. The kernel program is two pipelined regions between host reshapes: the first accumulates each
  channel's spatial sum tile by tile in a buffer carried between grid points and, at a batch half's last tile, stores the
  gate — the logistic of the second dense layer over the rectified first, over the sums scaled by 1/4096 —; the second
  multiplies every entry of the flattened input by its sample's and channel's gate. Over the extended reals this is the
  reference's x · sigmoid (relu (mean x · w1ᵀ + b1) · w2ᵀ + b2): a sum taken tile by tile is the whole sum, the product
  with 1/4096 is the quotient by 4096, and the logistic function is 1 / (1 + exp (−·)) — none of which needs the inputs
  finite. Both frames come from one run of @main over its four segments, stated for any float instance; the
  idealization rewrote nothing, so the middle conjunct is trivial.
-/
import proofs.«171454_j49709951484604_2_alg».proof.Defs
import proofs.«171454_j49709951484604_2_alg».proof.Proof.Gen.Kernel
import proofs.«171454_j49709951484604_2_alg».proof.Proof.Gen.KernelIdeal
import proofs.«171454_j49709951484604_2_alg».proof.Proof.Gen.ReferenceIdeal
import proofs.«171454_j49709951484604_2_alg».proof.Proof.Gen.Pre_finite_inputs
import proofs.«171454_j49709951484604_2_alg».proof.Proof.KRun
import proofs.«171454_j49709951484604_2_alg».proof.Proof.KernelValue
import proofs.«171454_j49709951484604_2_alg».proof.Proof.RefValue
import Idealize.ShloMosaic.Adequacy
import Idealize.ShloMosaic.Init

noncomputable section

namespace Cert.Proof

open Idealize.ShloMosaic Idealize.ShloMosaic.TcCoe Idealize.SL.Sem

/-- The word-level program runs and leaves its arguments as launched. -/
theorem frame_k : Cert.frame_Kernel := fun m ρ _ => Cert.Kernel.Run.frame (F := Bits) m ρ

/-- So does the idealized program. -/
theorem frame_ki : Cert.frame_KernelIdeal := fun m ρ _ => Cert.KernelIdeal.Run.frame (F := Ideal) m ρ

/-- The idealization rewrote no operation. -/
theorem preserves : Cert.preserves_Kernel_KernelIdeal := trivial

/-- At the extended reals both programs end with the specification's function of the arguments. -/
theorem algebraic : Cert.algebraic_KernelIdeal_ReferenceIdeal := by
  intro m ρ m' ρ' _ hagree
  refine ⟨fun c => Cert.Spec.out (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)), ?_, ?_⟩
  · refine (θ_run Cert.KernelIdeal.defs _ _).mono (fun r h c => ⟨?_, ?_, ?_, ?_, ?_, ?_⟩) (Cert.KernelIdeal.Run.run_main (F := Ideal) m ρ)
    · exact (h c _ (Cert.KernelIdeal.Run.mem_uc Cert.KernelIdeal.main_v0 (by decide))).trans (Cert.KernelIdeal.KernelValue.kernel_out m ρ c)
    · exact (h c _ (Cert.KernelIdeal.Run.mem_uc Cert.KernelIdeal.main_arg0 (by decide))).trans (Cert.KernelIdeal.Run.W4_main_arg0 m ρ c)
    · exact (h c _ (Cert.KernelIdeal.Run.mem_uc Cert.KernelIdeal.main_arg1 (by decide))).trans (Cert.KernelIdeal.Run.W4_main_arg1 m ρ c)
    · exact (h c _ (Cert.KernelIdeal.Run.mem_uc Cert.KernelIdeal.main_arg2 (by decide))).trans (Cert.KernelIdeal.Run.W4_main_arg2 m ρ c)
    · exact (h c _ (Cert.KernelIdeal.Run.mem_uc Cert.KernelIdeal.main_arg3 (by decide))).trans (Cert.KernelIdeal.Run.W4_main_arg3 m ρ c)
    · exact (h c _ (Cert.KernelIdeal.Run.mem_uc Cert.KernelIdeal.main_arg4 (by decide))).trans (Cert.KernelIdeal.Run.W4_main_arg4 m ρ c)
  · refine (θ_run Cert.ReferenceIdeal.defs _ _).mono (fun _ h c => ⟨?_, (h c).2⟩) (Cert.ReferenceIdeal.RefValue.run_out m' ρ')
    rw [(h c).1, (hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_k, frame_ki, Cert.ReferenceIdeal.RefValue.frame_ri, preserves, algebraic⟩

end Cert.Proof

end
